-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_n" .f32 0x3761FC78#32 ((1 / 74240 : ℝ) : EReal)
  ∧ IdealRules.named_const.Statement Cert.KernelIdeal.κ "inv_n" .f32 0x3761FC78#32 ((1 / 74240 : ℝ) : EReal)
  ∧ IdealRules.named_const.Statement Cert.KernelIdeal.κ "inv_n" .f32 0x3761FC78#32 ((1 / 74240 : ℝ) : EReal)
  ∧ IdealRules.named_const.Statement Cert.KernelIdeal.κ "inv_n" .f32 0x3761FC78#32 ((1 / 74240 : ℝ) : EReal)
  ∧ IdealRules.named_const.Statement Cert.KernelIdeal.κ "inv_n" .f32 0x3761FC78#32 ((1 / 74240 : ℝ) : EReal)
  ∧ IdealRules.named_const.Statement Cert.KernelIdeal.κ "inv_n" .f32 0x3761FC78#32 ((1 / 74240 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S74240x75 : Shape := ⟨2, ![74240, 75]⟩
abbrev S593920 : Shape := ⟨1, ![593920]⟩
abbrev S75x128 : Shape := ⟨2, ![75, 128]⟩
abbrev S3x128x128 : Shape := ⟨3, ![3, 128, 128]⟩
abbrev S3x128 : Shape := ⟨2, ![3, 128]⟩
abbrev S_ : Shape := ⟨0, ![]⟩

class Facts : Prop where
  bcast_S_S74240x75 : S_.BroadcastsInDim S74240x75 (![] : Fin 0 → Fin S74240x75.rank)
  reducesTo_S74240x75_S_d0_1 : S74240x75.ReducesTo [0, 1] S_
  h_S_ : 0 < S_.numel
  bcast_S_S75x128 : S_.BroadcastsInDim S75x128 (![] : Fin 0 → Fin S75x128.rank)
  reducesTo_S75x128_S_d0_1 : S75x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg9 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  main_v38

def fn_part1 {F : FTy → Type} [FloatOps F] (main_arg6 : FVec F S3x128x128 .f32) (main_arg7 : FVec F S3x128 .f32) (main_arg8 : FVec F S3x128 .f32) (main_arg9 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_v33

def fn {F : FTy → Type} [FloatOps F] (main_arg0 : FVec F S74240x75 .f32) (main_arg1 : IVec S593920 32) (main_arg2 : IVec S593920 32) (main_arg3 : FVec F S75x128 .f32) (main_arg4 : FVec F S3x128x128 .f32) (main_arg5 : FVec F S3x128 .f32) (main_arg6 : FVec F S3x128x128 .f32) (main_arg7 : FVec F S3x128 .f32) (main_arg8 : FVec F S3x128 .f32) (main_arg9 : FVec F S3x128 .f32) : IVec S_ 1 :=
  let main_v0 : FVec F S74240x75 .f32 := Host.absf main_arg0
  let main_cst : FVec F S_ .f32 := constant S_ .f32 0x7F800000#32
  let main_v1 : FVec F S74240x75 .f32 := broadcastInDim S74240x75 ![] bcast_S_S74240x75 main_cst
  let main_v2 : IVec S74240x75 1 := cmpf .olt main_v0 main_v1
  let main_c : IVec S_ 1 := constantI S_ 1 1#1
  let main_v3 : IVec S_ 1 := (fun x v => Host.reduce IntOp.andi x v reducesTo_S74240x75_S_d0_1 h_S_) main_v2 main_c
  let main_v4 : FVec F S75x128 .f32 := Host.absf main_arg3
  let main_cst_0 : FVec F S_ .f32 := constant S_ .f32 0x7F800000#32
  let main_v5 : FVec F S75x128 .f32 := broadcastInDim S75x128 ![] bcast_S_S75x128 main_cst_0
  let main_v6 : IVec S75x128 1 := cmpf .olt main_v4 main_v5
  let main_c_1 : IVec S_ 1 := constantI S_ 1 1#1
  let main_v7 : IVec S_ 1 := (fun x v => Host.reduce IntOp.andi x v reducesTo_S75x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_v13 main_v16
-- ==== Kernel.lean ====
abbrev S74240x75 : Shape := ⟨2, ![74240, 75]⟩
abbrev S593920 : Shape := ⟨1, ![593920]⟩
abbrev S75x128 : Shape := ⟨2, ![75, 128]⟩
abbrev S3x128x128 : Shape := ⟨3, ![3, 128, 128]⟩
abbrev S3x128 : Shape := ⟨2, ![3, 128]⟩
abbrev S74240x128 : Shape := ⟨2, ![74240, 128]⟩
abbrev S4640x75 : Shape := ⟨2, ![4640, 75]⟩
abbrev S4640x128 : Shape := ⟨2, ![4640, 128]⟩
abbrev S_ : Shape := ⟨0, ![]⟩
abbrev S593920x1 : Shape := ⟨2, ![593920, 1]⟩
abbrev S593920x128 : Shape := ⟨2, ![593920, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x2x128 : Shape := ⟨3, ![16, 2, 128]⟩
abbrev S1x2x128 : Shape := ⟨3, ![1, 2, 128]⟩
abbrev S2x128 : Shape := ⟨2, ![2, 128]⟩
abbrev S9280x128 : Shape := ⟨2, ![9280, 128]⟩
abbrev S256x290x128 : Shape := ⟨3, ![256, 290, 128]⟩

abbrev nBuf : Space → Nat
  | .hbm => 120
  | .vmem => 62
  | .smem => 0
  | _ => 0

abbrev bufTy : (tb : Table) → Fin (tcTables nBuf tb) → BufTy
  | .hbm, ⟨0, _⟩ => ⟨S74240x75, .f32⟩
  | .hbm, ⟨1, _⟩ => ⟨S593920, .i32⟩
  | .hbm, ⟨2, _⟩ => ⟨S593920, .i32⟩
  | .hbm, ⟨3, _⟩ => ⟨S75x128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S74240x128, .f32⟩
  | .hbm, ⟨11, _⟩ => ⟨S74240x128, .bf16⟩
  | .hbm, ⟨12, _⟩ => ⟨S_, .i32⟩
  | .hbm, ⟨13, _⟩ => ⟨S593920, .i32⟩
  | .hbm, ⟨14, _⟩ => ⟨S593920, .i1⟩
  | .hbm, ⟨15, _⟩ => ⟨S_, .i32⟩
  | .hbm, ⟨16, _⟩ => ⟨S593920, .i32⟩
  | .hbm, ⟨17, _⟩ => ⟨S593920, .i32⟩
  | .hbm, ⟨18, _⟩ => ⟨S593920, .i32⟩
  | .hbm, ⟨19, _⟩ => ⟨S593920x1, .i32⟩
  | .hbm, ⟨20, _⟩ => ⟨S593920x128, .bf16⟩
  | .hbm, ⟨21, _⟩ => ⟨S593920x128, .f32⟩
  | .hbm, ⟨22, _⟩ => ⟨S_, .f32⟩
  | .hbm, ⟨23, _⟩ => ⟨S74240x128, .f32⟩
  | .hbm, ⟨24, _⟩ => ⟨S593920x1, .i32⟩
  | .hbm, ⟨25, _⟩ => ⟨S74240x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S1x128x128, .f32⟩
  | .hbm, ⟨32, _⟩ => ⟨S128x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S74240x128, .f32⟩
  | .hbm, ⟨37, _⟩ => ⟨S16x2x128, .f32⟩
  | .hbm, ⟨38, _⟩ => ⟨S_, .f32⟩
  | .hbm, ⟨39, _⟩ => ⟨S2x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S74240x128, .f32⟩
  | .hbm, ⟨47, _⟩ => ⟨S74240x128, .bf16⟩
  | .hbm, ⟨48, _⟩ => ⟨S_, .i32⟩
  | .hbm, ⟨49, _⟩ => ⟨S593920, .i32⟩
  | .hbm, ⟨50, _⟩ => ⟨S593920, .i1⟩
  | .hbm, ⟨51, _⟩ => ⟨S_, .i32⟩
  | .hbm, ⟨52, _⟩ => ⟨S593920, .i32⟩
  | .hbm, ⟨53, _⟩ => ⟨S593920, .i32⟩
  | .hbm, ⟨54, _⟩ => ⟨S593920, .i32⟩
  | .hbm, ⟨55, _⟩ => ⟨S593920x1, .i32⟩
  | .hbm, ⟨56, _⟩ => ⟨S593920x128, .bf16⟩
  | .hbm, ⟨57, _⟩ => ⟨S593920x128, .f32⟩
  | .hbm, ⟨58, _⟩ => ⟨S_, .f32⟩
  | .hbm, ⟨59, _⟩ => ⟨S74240x128, .f32⟩
  | .hbm, ⟨60, _⟩ => ⟨S593920x1, .i32⟩
  | .hbm, ⟨61, _⟩ => ⟨S74240x128, .f32⟩
  | .hbm, ⟨62, _⟩ => ⟨S1x128x128, .f32⟩
  | .hbm, ⟨63, _⟩ => ⟨S128x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S74240x128, .f32⟩
  | .hbm, ⟨73, _⟩ => ⟨S16x2x128, .f32⟩
  | .hbm, ⟨74, _⟩ => ⟨S_, .f32⟩
  | .hbm, ⟨75, _⟩ => ⟨S2x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S74240x128, .f32⟩
  | .hbm, ⟨83, _⟩ => ⟨S74240x128, .bf16⟩
  | .hbm, ⟨84, _⟩ => ⟨S_, .i32⟩
  | .hbm, ⟨85, _⟩ => ⟨S593920, .i32⟩
  | .hbm, ⟨86, _⟩ => ⟨S593920, .i1⟩
  | .hbm, ⟨87, _⟩ => ⟨S_, .i32⟩
  | .hbm, ⟨88, _⟩ => ⟨S593920, .i32⟩
  | .hbm, ⟨89, _⟩ => ⟨S593920, .i32⟩
  | .hbm, ⟨90, _⟩ => ⟨S593920, .i32⟩
  | .hbm, ⟨91, _⟩ => ⟨S593920x1, .i32⟩
  | .hbm, ⟨92, _⟩ => ⟨S593920x128, .bf16⟩
  | .hbm, ⟨93, _⟩ => ⟨S593920x128, .f32⟩
  | .hbm, ⟨94, _⟩ => ⟨S_, .f32⟩
  | .hbm, ⟨95, _⟩ => ⟨S74240x128, .f32⟩
  | .hbm, ⟨96, _⟩ => ⟨S593920x1, .i32⟩
  | .hbm, ⟨97, _⟩ => ⟨S74240x128, .f32⟩
  | .hbm, ⟨98, _⟩ => ⟨S1x128x128, .f32⟩
  | .hbm, ⟨99, _⟩ => ⟨S128x128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S1x128x128, .f32⟩
  | .hbm, ⟨104, _⟩ => ⟨S128x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S74240x128, .f32⟩
  | .hbm, ⟨109, _⟩ => ⟨S16x2x128, .f32⟩
  | .hbm, ⟨110, _⟩ => ⟨S_, .f32⟩
  | .hbm, ⟨111, _⟩ => ⟨S2x128, .f32⟩
  | .hbm, ⟨112, _⟩ => ⟨S1x128, .f32⟩
  | .hbm, ⟨113, _⟩ => ⟨S128, .f32⟩
  | .hbm, ⟨114, _⟩ => ⟨S1x128, .f32⟩
  | .hbm, ⟨115, _⟩ => ⟨S1x128, .f32⟩
  | .hbm, ⟨116, _⟩ => ⟨S128, .f32⟩
  | .hbm, ⟨117, _⟩ => ⟨S1x128, .f32⟩
  | .hbm, ⟨118, _⟩ => ⟨S74240x128, .f32⟩
  | .hbm, ⟨119, _⟩ => ⟨S256x290x128, .f32⟩
  | .local _ .vmem, ⟨0, _⟩ => ⟨S4640x75, .f32⟩
  | .local _ .vmem, ⟨1, _⟩ => ⟨S4640x75, .f32⟩
  | .local _ .vmem, ⟨2, _⟩ => ⟨S75x128, .f32⟩
  | .local _ .vmem, ⟨3, _⟩ => ⟨S4640x128, .f32⟩
  | .local _ .vmem, ⟨4, _⟩ => ⟨S4640x128, .f32⟩
  | .local _ .vmem, ⟨5, _⟩ => ⟨S4640x128, .f32⟩
  | .local _ .vmem, ⟨6, _⟩ => ⟨S4640x128, .f32⟩
  | .local _ .vmem, ⟨7, _⟩ => ⟨S4640x128, .f32⟩
  | .local _ .vmem, ⟨8, _⟩ => ⟨S4640x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S4640x128, .f32⟩
  | .local _ .vmem, ⟨14, _⟩ => ⟨S4640x128, .f32⟩
  | .local _ .vmem, ⟨15, _⟩ => ⟨S1x2x128, .f32⟩
  | .local _ .vmem, ⟨16, _⟩ => ⟨S1x2x128, .f32⟩
  | .local _ .vmem, ⟨17, _⟩ => ⟨S9280x128, .f32⟩
  | .local _ .vmem, ⟨18, _⟩ => ⟨S9280x128, .f32⟩
  | .local _ .vmem, ⟨19, _⟩ => ⟨S2x128, .f32⟩
  | .local _ .vmem, ⟨20, _⟩ => ⟨S1x128, .f32⟩
  | .local _ .vmem, ⟨21, _⟩ => ⟨S1x128, .f32⟩
  | .local _ .vmem, ⟨22, _⟩ => ⟨S9280x128, .f32⟩
  | .local _ .vmem, ⟨23, _⟩ => ⟨S9280x128, .f32⟩
  | .local _ .vmem, ⟨24, _⟩ => ⟨S4640x128, .f32⟩
  | .local _ .vmem, ⟨25, _⟩ => ⟨S4640x128, .f32⟩
  | .local _ .vmem, ⟨26, _⟩ => ⟨S4640x128, .f32⟩
  | .local _ .vmem, ⟨27, _⟩ => ⟨S4640x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S4640x128, .f32⟩
  | .local _ .vmem, ⟨33, _⟩ => ⟨S4640x128, .f32⟩
  | .local _ .vmem, ⟨34, _⟩ => ⟨S1x2x128, .f32⟩
  | .local _ .vmem, ⟨35, _⟩ => ⟨S1x2x128, .f32⟩
  | .local _ .vmem, ⟨36, _⟩ => ⟨S9280x128, .f32⟩
  | .local _ .vmem, ⟨37, _⟩ => ⟨S9280x128, .f32⟩
  | .local _ .vmem, ⟨38, _⟩ => ⟨S2x128, .f32⟩
  | .local _ .vmem, ⟨39, _⟩ => ⟨S1x128, .f32⟩
  | .local _ .vmem, ⟨40, _⟩ => ⟨S1x128, .f32⟩
  | .local _ .vmem, ⟨41, _⟩ => ⟨S9280x128, .f32⟩
  | .local _ .vmem, ⟨42, _⟩ => ⟨S9280x128, .f32⟩
  | .local _ .vmem, ⟨43, _⟩ => ⟨S4640x128, .f32⟩
  | .local _ .vmem, ⟨44, _⟩ => ⟨S4640x128, .f32⟩
  | .local _ .vmem, ⟨45, _⟩ => ⟨S4640x128, .f32⟩
  | .local _ .vmem, ⟨46, _⟩ => ⟨S4640x128, .f32⟩
  | .local _ .vmem, ⟨47, _⟩ => ⟨S128x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S4640x128, .f32⟩
  | .local _ .vmem, ⟨52, _⟩ => ⟨S4640x128, .f32⟩
  | .local _ .vmem, ⟨53, _⟩ => ⟨S1x2x128, .f32⟩
  | .local _ .vmem, ⟨54, _⟩ => ⟨S1x2x128, .f32⟩
  | .local _ .vmem, ⟨55, _⟩ => ⟨S9280x128, .f32⟩
  | .local _ .vmem, ⟨56, _⟩ => ⟨S9280x128, .f32⟩
  | .local _ .vmem, ⟨57, _⟩ => ⟨S2x128, .f32⟩
  | .local _ .vmem, ⟨58, _⟩ => ⟨S1x128, .f32⟩
  | .local _ .vmem, ⟨59, _⟩ => ⟨S1x128, .f32⟩
  | .local _ .vmem, ⟨60, _⟩ => ⟨S9280x128, .f32⟩
  | .local _ .vmem, ⟨61, _⟩ => ⟨S9280x128, .f32⟩
  | _, _ => ⟨S74240x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_2 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54_0 : Ref sig .tc := ⟨.hbm, 72, rfl⟩
abbrev main_v54_1 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_6 : Ref sig .tc := ⟨.hbm, 84, rfl⟩
abbrev main_v64 : Ref sig .tc := ⟨.hbm, 85, rfl⟩
abbrev main_v65 : Ref sig .tc := ⟨.hbm, 86, rfl⟩
abbrev main_c_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85_0 : Ref sig .tc := ⟨.hbm, 108, rfl⟩
abbrev main_v85_1 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg4_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg6_1 : Ref sig .tc := ⟨.vmem, 52, rfl⟩
abbrev cc5_stg7_0 : Ref sig .tc := ⟨.vmem, 53, rfl⟩
abbrev cc5_stg7_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem4_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem6_1 : DmaSem sig := 52
abbrev cc5_sem7_0 : DmaSem sig := 53
abbrev cc5_sem7_1 : DmaSem sig := 54
abbrev cc6_sem0_0 : DmaSem sig := 55
abbrev cc6_sem0_1 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem4_1 : DmaSem sig := 61

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4640x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4640x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4640x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4640x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S9280x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S9280x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4640x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4640x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4640x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x2x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9280x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S9280x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4640x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4640x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4640x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x2x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S9280x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S9280x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  inb_S4640x75_S4640x75_0_0 : ∀ a, (![0, 0] : Fin 2 → Nat) a + S4640x75.size a ≤ S4640x75.size a
  h_S4640x75 : 0 < S4640x75.numel
  bitsLt_bf16_f32 : FTy.bits .bf16 < FTy.bits .f32
  inb_S75x128_S75x128_0_0 : ∀ a, (![0, 0] : Fin 2 → Nat) a + S75x128.size a ≤ S75x128.size a
  h_S75x128 : 0 < S75x128.numel
  inb_S4640x128_S4640x128_0_0 : ∀ a, (![0, 0] : Fin 2 → Nat) a + S4640x128.size a ≤ S4640x128.size a
  h_S4640x128 : 0 < S4640x128.numel
  bcast_S_S593920 : S_.BroadcastsInDim S593920 (![] : Fin 0 → Fin S593920.rank)
  bcast_S593920_S593920x1_0 : S593920.BroadcastsInDim S593920x1 (![0] : Fin 1 → Fin S593920x1.rank)
  bcast_S_S74240x128 : S_.BroadcastsInDim S74240x128 (![] : Fin 0 → Fin S74240x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S4640x128_S4640x128 : S4640x128.ShapeCasts S4640x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4640x128 : S1x128.Broadcasts S4640x128
  reduces_S4640x128_S128 : S4640x128.Reduces [0] S128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  reducesTo_S16x2x128_S2x128_d0 : S16x2x128.ReducesTo [0] S2x128
  h_S_ : 0 < S_.numel
  inb_S9280x128_S9280x128_0_0 : ∀ a, (![0, 0] : Fin 2 → Nat) a + S9280x128.size a ≤ S9280x128.size a
  h_S9280x128 : 0 < S9280x128.numel
  shapeCasts_S9280x128_S9280x128 : S9280x128.ShapeCasts S9280x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  broadcasts_S1x128_S9280x128 : S1x128.Broadcasts S9280x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S74240x128_S256x290x128 : S74240x128.ShapeCasts S256x290x128
  dot_S4640x75_S75x128_S4640x128_1_0_0_1_n_n_wf : DotDims.WF S4640x75 S75x128 S4640x128 [1] [0] [0] [1] [] []
  gather_S74240x128_S593920x1_S593920x128_1_0_n_n_0_1_1128_wf : GatherDims.WF S74240x128 S593920x1 S593920x128 [1] [0] [] [0] [] 1 ![1, 128]
  scatter_S74240x128_S593920x1_S593920x128_1_0_0_1_wf : ScatterDims.WF S74240x128 S593920x1 S593920x128 [1] [0] [0] 1
  dot_S4640x128_S128x128_S4640x128_1_0_0_1_n_n_wf : DotDims.WF S4640x128 S128x128 S4640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4640x75.size a ≤ S74240x75.size a
  hwx0_0 : ∀ i : grid0.Coords, EltTy.bits .f32 = 32 ∨ (Rect.block (s := S74240x75) S4640x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x128.size a ≤ S75x128.size a
  hwx0_1 : ∀ i : grid0.Coords, EltTy.bits .f32 = 32 ∨ (Rect.block (s := S75x128) S75x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4640x128.size a ≤ S74240x128.size a
  hwx0_2 : ∀ i : grid0.Coords, EltTy.bits .f32 = 32 ∨ (Rect.block (s := S74240x128) S4640x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4640x128.size a ≤ S74240x128.size a
  hwx1_0 : ∀ i : grid1.Coords, EltTy.bits .f32 = 32 ∨ (Rect.block (s := S74240x128) S4640x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4640x128.size a ≤ S74240x128.size a
  hwx1_1 : ∀ i : grid1.Coords, EltTy.bits .f32 = 32 ∨ (Rect.block (s := S74240x128) S4640x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4640x128.size a ≤ S74240x128.size a
  hwx1_6 : ∀ i : grid1.Coords, EltTy.bits .f32 = 32 ∨ (Rect.block (s := S74240x128) S4640x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x128.size a ≤ S16x2x128.size a
  hwx1_7 : ∀ i : grid1.Coords, EltTy.bits .f32 = 32 ∨ (Rect.block (s := S16x2x128) S1x2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S9280x128.size a ≤ S74240x128.size a
  hwx2_0 : ∀ i : grid2.Coords, EltTy.bits .f32 = 32 ∨ (Rect.block (s := S74240x128) S9280x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S9280x128.size a ≤ S74240x128.size a
  hwx2_4 : ∀ i : grid2.Coords, EltTy.bits .f32 = 32 ∨ (Rect.block (s := S74240x128) S9280x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4640x128.size a ≤ S74240x128.size a
  hwx3_0 : ∀ i : grid3.Coords, EltTy.bits .f32 = 32 ∨ (Rect.block (s := S74240x128) S4640x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4640x128.size a ≤ S74240x128.size a
  hwx3_1 : ∀ i : grid3.Coords, EltTy.bits .f32 = 32 ∨ (Rect.block (s := S74240x128) S4640x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4640x128.size a ≤ S74240x128.size a
  hwx3_6 : ∀ i : grid3.Coords, EltTy.bits .f32 = 32 ∨ (Rect.block (s := S74240x128) S4640x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x2x128.size a ≤ S16x2x128.size a
  hwx3_7 : ∀ i : grid3.Coords, EltTy.bits .f32 = 32 ∨ (Rect.block (s := S16x2x128) S1x2x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9280x128.size a ≤ S74240x128.size a
  hwx4_0 : ∀ i : grid4.Coords, EltTy.bits .f32 = 32 ∨ (Rect.block (s := S74240x128) S9280x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x128.size a ≤ S2x128.size a
  hwx4_1 : ∀ i : grid4.Coords, EltTy.bits .f32 = 32 ∨ (Rect.block (s := S2x128) S2x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S9280x128.size a ≤ S74240x128.size a
  hwx4_4 : ∀ i : grid4.Coords, EltTy.bits .f32 = 32 ∨ (Rect.block (s := S74240x128) S9280x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4640x128.size a ≤ S74240x128.size a
  hwx5_0 : ∀ i : grid5.Coords, EltTy.bits .f32 = 32 ∨ (Rect.block (s := S74240x128) S4640x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4640x128.size a ≤ S74240x128.size a
  hwx5_1 : ∀ i : grid5.Coords, EltTy.bits .f32 = 32 ∨ (Rect.block (s := S74240x128) S4640x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4640x128.size a ≤ S74240x128.size a
  hwx5_6 : ∀ i : grid5.Coords, EltTy.bits .f32 = 32 ∨ (Rect.block (s := S74240x128) S4640x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x2x128.size a ≤ S16x2x128.size a
  hwx5_7 : ∀ i : grid5.Coords, EltTy.bits .f32 = 32 ∨ (Rect.block (s := S16x2x128) S1x2x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S9280x128.size a ≤ S74240x128.size a
  hwx6_0 : ∀ i : grid6.Coords, EltTy.bits .f32 = 32 ∨ (Rect.block (s := S74240x128) S9280x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x128.size a ≤ S2x128.size a
  hwx6_1 : ∀ i : grid6.Coords, EltTy.bits .f32 = 32 ∨ (Rect.block (s := S2x128) S2x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S9280x128.size a ≤ S74240x128.size a
  hwx6_4 : ∀ i : grid6.Coords, EltTy.bits .f32 = 32 ∨ (Rect.block (s := S74240x128) S9280x128.size (cc6_transform_4 i) (hinb6_4 i)).WholeWords (EltTy.packing .f32)

variable [Facts₀]

def dot_S4640x75_S75x128_S4640x128_1_0_0_1_n_n : DotDims S4640x75 S75x128 S4640x128 where
  lhsContracting := [1]
  rhsContracting := [0]
  lhsNonContracting := [0]
  rhsNonContracting := [1]
  lhsBatch := []
  rhsBatch := []
  wf := dot_S4640x75_S75x128_S4640x128_1_0_0_1_n_n_wf
def gather_S74240x128_S593920x1_S593920x128_1_0_n_n_0_1_1128 : GatherDims S74240x128 S593920x1 S593920x128 where
  offsetDims := [1]
  collapsedSliceDims := [0]
  operandBatchingDims := []
  startIndicesBatchingDims := []
  startIndexMap := [0]
  indexVectorDim := 1
  sliceSizes := ![1, 128]
  wf := gather_S74240x128_S593920x1_S593920x128_1_0_n_n_0_1_1128_wf
def scatter_S74240x128_S593920x1_S593920x128_1_0_0_1 : ScatterDims S74240x128 S593920x1 S593920x128 where
  updateWindowDims := [1]
  insertedWindowDims := [0]
  scatterDimsToOperandDims := [0]
  indexVectorDim := 1
  wf := scatter_S74240x128_S593920x1_S593920x128_1_0_0_1_wf
def dot_S4640x128_S128x128_S4640x128_1_0_0_1_n_n : DotDims S4640x128 S128x128 S4640x128 where
  lhsContracting := [1]
  rhsContracting := [0]
  lhsNonContracting := [0]
  rhsNonContracting := [1]
  lhsBatch := []
  rhsBatch := []
  wf := dot_S4640x128_S128x128_S4640x128_1_0_0_1_n_n_wf

abbrev win0_0 : Pipeline.Window sig grid0 :=
  Pipeline.Window.ofSpec (Memref.whole main_arg0) S4640x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S75x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4640x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S4640x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4640x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23_0) S4640x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23_1) S1x2x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v23_0) S9280x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S9280x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v43) S4640x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S4640x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54_0) S4640x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v54_1) S1x2x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v54_0) S9280x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S9280x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v74) S4640x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S4640x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85_0) S4640x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v85_1) S1x2x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v85_0) S9280x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S2x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v92) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v93) S9280x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S74240x75 : Shape := ⟨2, ![74240, 75]⟩
abbrev S593920 : Shape := ⟨1, ![593920]⟩
abbrev S75x128 : Shape := ⟨2, ![75, 128]⟩
abbrev S3x128x128 : Shape := ⟨3, ![3, 128, 128]⟩
abbrev S3x128 : Shape := ⟨2, ![3, 128]⟩
abbrev S74240x128 : Shape := ⟨2, ![74240, 128]⟩
abbrev S_ : Shape := ⟨0, ![]⟩
abbrev S593920x1 : Shape := ⟨2, ![593920, 1]⟩
abbrev S593920x128 : Shape := ⟨2, ![593920, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256x290x128 : Shape := ⟨3, ![256, 290, 128]⟩

abbrev nBuf : Space → Nat
  | .hbm => 264
  | .vmem => 0
  | .smem => 0
  | _ => 0

abbrev hbmTy0_0 (i : Nat) : BufTy := match i % 128 with
  | 0 => ⟨S74240x75, .f32⟩
  | 1 => ⟨S593920, .i32⟩
  | 2 => ⟨S593920, .i32⟩
  | 3 => ⟨S75x128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S74240x128, .f32⟩
  | 11 => ⟨S_, .i32⟩
  | 12 => ⟨S593920, .i32⟩
  | 13 => ⟨S593920, .i1⟩
  | 14 => ⟨S_, .i32⟩
  | 15 => ⟨S593920, .i32⟩
  | 16 => ⟨S593920, .i32⟩
  | 17 => ⟨S593920, .i32⟩
  | 18 => ⟨S593920x1, .i32⟩
  | 19 => ⟨S593920x128, .f32⟩
  | 20 => ⟨S_, .f32⟩
  | 21 => ⟨S74240x128, .f32⟩
  | 22 => ⟨S593920x1, .i32⟩
  | 23 => ⟨S74240x128, .f32⟩
  | 24 => ⟨S1x128x128, .f32⟩
  | 25 => ⟨S128x128, .f32⟩
  | 26 => ⟨S74240x128, .f32⟩
  | 27 => ⟨S1x128, .f32⟩
  | 28 => ⟨S128, .f32⟩
  | 29 => ⟨S1x128, .f32⟩
  | 30 => ⟨S74240x128, .f32⟩
  | 31 => ⟨S74240x128, .f32⟩
  | 32 => ⟨S_, .f32⟩
  | 33 => ⟨S74240x128, .f32⟩
  | 34 => ⟨S74240x128, .f32⟩
  | 35 => ⟨S1x128x128, .f32⟩
  | 36 => ⟨S128x128, .f32⟩
  | 37 => ⟨S74240x128, .f32⟩
  | 38 => ⟨S1x128, .f32⟩
  | 39 => ⟨S128, .f32⟩
  | 40 => ⟨S1x128, .f32⟩
  | 41 => ⟨S74240x128, .f32⟩
  | 42 => ⟨S74240x128, .f32⟩
  | 43 => ⟨S_, .f32⟩
  | 44 => ⟨S74240x128, .f32⟩
  | 45 => ⟨S74240x128, .f32⟩
  | 46 => ⟨S74240x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S74240x128, .f32⟩
  | 60 => ⟨S74240x128, .f32⟩
  | 61 => ⟨S74240x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S128, .f32⟩
  | 77 => ⟨S1x128, .f32⟩
  | 78 => ⟨S74240x128, .f32⟩
  | 79 => ⟨S74240x128, .f32⟩
  | 80 => ⟨S1x128, .f32⟩
  | 81 => ⟨S74240x128, .f32⟩
  | 82 => ⟨S74240x128, .f32⟩
  | 83 => ⟨S_, .f32⟩
  | 84 => ⟨S128, .f32⟩
  | 85 => ⟨S128, .f32⟩
  | 86 => ⟨S128, .f32⟩
  | 87 => ⟨S1x128, .f32⟩
  | 88 => ⟨S74240x128, .f32⟩
  | 89 => ⟨S74240x128, .f32⟩
  | 90 => ⟨S1x128, .f32⟩
  | 91 => ⟨S128, .f32⟩
  | 92 => ⟨S1x128, .f32⟩
  | 93 => ⟨S74240x128, .f32⟩
  | 94 => ⟨S74240x128, .f32⟩
  | 95 => ⟨S_, .i32⟩
  | 96 => ⟨S593920, .i32⟩
  | 97 => ⟨S593920, .i1⟩
  | 98 => ⟨S_, .i32⟩
  | 99 => ⟨S593920, .i32⟩
  | 100 => ⟨S593920, .i32⟩
  | 101 => ⟨S593920, .i32⟩
  | 102 => ⟨S593920x1, .i32⟩
  | 103 => ⟨S593920x128, .f32⟩
  | 104 => ⟨S_, .f32⟩
  | 105 => ⟨S74240x128, .f32⟩
  | 106 => ⟨S593920x1, .i32⟩
  | 107 => ⟨S74240x128, .f32⟩
  | 108 => ⟨S1x128x128, .f32⟩
  | 109 => ⟨S128x128, .f32⟩
  | 110 => ⟨S74240x128, .f32⟩
  | 111 => ⟨S1x128, .f32⟩
  | 112 => ⟨S128, .f32⟩
  | 113 => ⟨S1x128, .f32⟩
  | 114 => ⟨S74240x128, .f32⟩
  | 115 => ⟨S74240x128, .f32⟩
  | 116 => ⟨S_, .f32⟩
  | 117 => ⟨S74240x128, .f32⟩
  | 118 => ⟨S74240x128, .f32⟩
  | 119 => ⟨S1x128x128, .f32⟩
  | 120 => ⟨S128x128, .f32⟩
  | 121 => ⟨S74240x128, .f32⟩
  | 122 => ⟨S1x128, .f32⟩
  | 123 => ⟨S128, .f32⟩
  | 124 => ⟨S1x128, .f32⟩
  | 125 => ⟨S74240x128, .f32⟩
  | 126 => ⟨S74240x128, .f32⟩
  | 127 => ⟨S_, .f32⟩
  | _ => ⟨S74240x75, .f32⟩

abbrev hbmTy0_1 (i : Nat) : BufTy := match i % 128 with
  | 0 => ⟨S74240x128, .f32⟩
  | 1 => ⟨S74240x128, .f32⟩
  | 2 => ⟨S74240x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S74240x128, .f32⟩
  | 16 => ⟨S74240x128, .f32⟩
  | 17 => ⟨S74240x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S128, .f32⟩
  | 33 => ⟨S1x128, .f32⟩
  | 34 => ⟨S74240x128, .f32⟩
  | 35 => ⟨S74240x128, .f32⟩
  | 36 => ⟨S1x128, .f32⟩
  | 37 => ⟨S74240x128, .f32⟩
  | 38 => ⟨S74240x128, .f32⟩
  | 39 => ⟨S_, .f32⟩
  | 40 => ⟨S128, .f32⟩
  | 41 => ⟨S128, .f32⟩
  | 42 => ⟨S128, .f32⟩
  | 43 => ⟨S1x128, .f32⟩
  | 44 => ⟨S74240x128, .f32⟩
  | 45 => ⟨S74240x128, .f32⟩
  | 46 => ⟨S1x128, .f32⟩
  | 47 => ⟨S128, .f32⟩
  | 48 => ⟨S1x128, .f32⟩
  | 49 => ⟨S74240x128, .f32⟩
  | 50 => ⟨S74240x128, .f32⟩
  | 51 => ⟨S_, .i32⟩
  | 52 => ⟨S593920, .i32⟩
  | 53 => ⟨S593920, .i1⟩
  | 54 => ⟨S_, .i32⟩
  | 55 => ⟨S593920, .i32⟩
  | 56 => ⟨S593920, .i32⟩
  | 57 => ⟨S593920, .i32⟩
  | 58 => ⟨S593920x1, .i32⟩
  | 59 => ⟨S593920x128, .f32⟩
  | 60 => ⟨S_, .f32⟩
  | 61 => ⟨S74240x128, .f32⟩
  | 62 => ⟨S593920x1, .i32⟩
  | 63 => ⟨S74240x128, .f32⟩
  | 64 => ⟨S1x128x128, .f32⟩
  | 65 => ⟨S128x128, .f32⟩
  | 66 => ⟨S74240x128, .f32⟩
  | 67 => ⟨S1x128, .f32⟩
  | 68 => ⟨S128, .f32⟩
  | 69 => ⟨S1x128, .f32⟩
  | 70 => ⟨S74240x128, .f32⟩
  | 71 => ⟨S74240x128, .f32⟩
  | 72 => ⟨S_, .f32⟩
  | 73 => ⟨S74240x128, .f32⟩
  | 74 => ⟨S74240x128, .f32⟩
  | 75 => ⟨S1x128x128, .f32⟩
  | 76 => ⟨S128x128, .f32⟩
  | 77 => ⟨S74240x128, .f32⟩
  | 78 => ⟨S1x128, .f32⟩
  | 79 => ⟨S128, .f32⟩
  | 80 => ⟨S1x128, .f32⟩
  | 81 => ⟨S74240x128, .f32⟩
  | 82 => ⟨S74240x128, .f32⟩
  | 83 => ⟨S_, .f32⟩
  | 84 => ⟨S74240x128, .f32⟩
  | 85 => ⟨S74240x128, .f32⟩
  | 86 => ⟨S74240x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S74240x128, .f32⟩
  | 100 => ⟨S74240x128, .f32⟩
  | 101 => ⟨S74240x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S128, .f32⟩
  | 117 => ⟨S1x128, .f32⟩
  | 118 => ⟨S74240x128, .f32⟩
  | 119 => ⟨S74240x128, .f32⟩
  | 120 => ⟨S1x128, .f32⟩
  | 121 => ⟨S74240x128, .f32⟩
  | 122 => ⟨S74240x128, .f32⟩
  | 123 => ⟨S_, .f32⟩
  | 124 => ⟨S128, .f32⟩
  | 125 => ⟨S128, .f32⟩
  | 126 => ⟨S128, .f32⟩
  | 127 => ⟨S1x128, .f32⟩
  | _ => ⟨S74240x75, .f32⟩

abbrev hbmTy0_2 (i : Nat) : BufTy := match i % 128 with
  | 0 => ⟨S74240x128, .f32⟩
  | 1 => ⟨S74240x128, .f32⟩
  | 2 => ⟨S1x128, .f32⟩
  | 3 => ⟨S128, .f32⟩
  | 4 => ⟨S1x128, .f32⟩
  | 5 => ⟨S74240x128, .f32⟩
  | 6 => ⟨S74240x128, .f32⟩
  | 7 => ⟨S256x290x128, .f32⟩
  | _ => ⟨S74240x75, .f32⟩

abbrev hbmTy (i : Nat) : BufTy := match i / 128 with
  | 0 => hbmTy0_0 i
  | 1 => hbmTy0_1 i
  | 2 => hbmTy0_2 i
  | _ => ⟨S74240x75, .f32⟩

abbrev bufTy : (tb : Table) → Fin (tcTables nBuf tb) → BufTy
  | .hbm, ⟨i, _⟩ => hbmTy i
  | _, _ => ⟨S74240x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_cst_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_cst_1 : Ref sig .tc := ⟨.hbm, 63, rfl⟩
abbrev main_call2_v8 : Ref sig .tc := ⟨.hbm, 64, rfl⟩
abbrev main_call2_cst_2 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_cst_3 : Ref sig .tc := ⟨.hbm, 69, rfl⟩
abbrev main_call2_v12 : Ref sig .tc := ⟨.hbm, 70, rfl⟩
abbrev main_call2_cst_4 : Ref sig .tc := ⟨.hbm, 71, rfl⟩
abbrev main_call2_call0_v0 : Ref sig .tc := ⟨.hbm, 72, rfl⟩
abbrev main_call2_call0_v1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_4 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_c_5 : Ref sig .tc := ⟨.hbm, 95, rfl⟩
abbrev main_v53 : Ref sig .tc := ⟨.hbm, 96, rfl⟩
abbrev main_v54 : Ref sig .tc := ⟨.hbm, 97, rfl⟩
abbrev main_c_6 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_7 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_call3_cst : Ref sig .tc := ⟨.hbm, 116, rfl⟩
abbrev main_call3_v0 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_call4_cst : Ref sig .tc := ⟨.hbm, 127, rfl⟩
abbrev main_call4_v0 : Ref sig .tc := ⟨.hbm, 128, rfl⟩
abbrev main_v80 : Ref sig .tc := ⟨.hbm, 129, rfl⟩
abbrev main_v81 : Ref sig .tc := ⟨.hbm, 130, rfl⟩
abbrev main_cst_8 : Ref sig .tc := ⟨.hbm, 131, rfl⟩
abbrev main_v82 : Ref sig .tc := ⟨.hbm, 132, rfl⟩
abbrev main_cst_9 : Ref sig .tc := ⟨.hbm, 133, rfl⟩
abbrev main_v83 : Ref sig .tc := ⟨.hbm, 134, rfl⟩
abbrev main_v84 : Ref sig .tc := ⟨.hbm, 135, rfl⟩
abbrev main_c_10 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_cst_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_cst_1 : Ref sig .tc := ⟨.hbm, 147, rfl⟩
abbrev main_call5_v8 : Ref sig .tc := ⟨.hbm, 148, rfl⟩
abbrev main_call5_cst_2 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_cst_3 : Ref sig .tc := ⟨.hbm, 153, rfl⟩
abbrev main_call5_v12 : Ref sig .tc := ⟨.hbm, 154, rfl⟩
abbrev main_call5_cst_4 : Ref sig .tc := ⟨.hbm, 155, rfl⟩
abbrev main_call5_call0_v0 : Ref sig .tc := ⟨.hbm, 156, rfl⟩
abbrev main_call5_call0_v1 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_cst_11 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_c_12 : Ref sig .tc := ⟨.hbm, 179, rfl⟩
abbrev main_v105 : Ref sig .tc := ⟨.hbm, 180, rfl⟩
abbrev main_v106 : Ref sig .tc := ⟨.hbm, 181, rfl⟩
abbrev main_c_13 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_14 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_call6_cst : Ref sig .tc := ⟨.hbm, 200, rfl⟩
abbrev main_call6_v0 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_call7_cst : Ref sig .tc := ⟨.hbm, 211, rfl⟩
abbrev main_call7_v0 : Ref sig .tc := ⟨.hbm, 212, rfl⟩
abbrev main_v132 : Ref sig .tc := ⟨.hbm, 213, rfl⟩
abbrev main_v133 : Ref sig .tc := ⟨.hbm, 214, rfl⟩
abbrev main_cst_15 : Ref sig .tc := ⟨.hbm, 215, rfl⟩
abbrev main_v134 : Ref sig .tc := ⟨.hbm, 216, rfl⟩
abbrev main_cst_16 : Ref sig .tc := ⟨.hbm, 217, rfl⟩
abbrev main_v135 : Ref sig .tc := ⟨.hbm, 218, rfl⟩
abbrev main_v136 : Ref sig .tc := ⟨.hbm, 219, rfl⟩
abbrev main_c_17 : Ref sig .tc := ⟨.hbm, 220, rfl⟩
abbrev main_call8_cst : Ref sig .tc := ⟨.hbm, 221, rfl⟩
abbrev main_call8_v0 : Ref sig .tc := ⟨.hbm, 222, rfl⟩
abbrev main_call8_v1 : Ref sig .tc := ⟨.hbm, 223, rfl⟩
abbrev main_call8_cst_0 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_call8_v5 : Ref sig .tc := ⟨.hbm, 228, rfl⟩
abbrev main_call8_v6 : Ref sig .tc := ⟨.hbm, 229, rfl⟩
abbrev main_call8_v7 : Ref sig .tc := ⟨.hbm, 230, rfl⟩
abbrev main_call8_cst_1 : Ref sig .tc := ⟨.hbm, 231, rfl⟩
abbrev main_call8_v8 : Ref sig .tc := ⟨.hbm, 232, rfl⟩
abbrev main_call8_cst_2 : Ref sig .tc := ⟨.hbm, 233, rfl⟩
abbrev main_call8_v9 : Ref sig .tc := ⟨.hbm, 234, rfl⟩
abbrev main_call8_v10 : Ref sig .tc := ⟨.hbm, 235, rfl⟩
abbrev main_call8_v11 : Ref sig .tc := ⟨.hbm, 236, rfl⟩
abbrev main_call8_cst_3 : Ref sig .tc := ⟨.hbm, 237, rfl⟩
abbrev main_call8_v12 : Ref sig .tc := ⟨.hbm, 238, rfl⟩
abbrev main_call8_cst_4 : Ref sig .tc := ⟨.hbm, 239, rfl⟩
abbrev main_call8_call0_v0 : Ref sig .tc := ⟨.hbm, 240, rfl⟩
abbrev main_call8_call0_v1 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_cst_18 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩

abbrev nD : Nat := 1
abbrev τ : Topo := Topo.v7x

variable {F : FTy → Type} [FloatOps F]

class Facts₀ : Prop where
  bcast_S_S593920 : S_.BroadcastsInDim S593920 (![] : Fin 0 → Fin S593920.rank)
  bcast_S593920_S593920x1_0 : S593920.BroadcastsInDim S593920x1 (![0] : Fin 1 → Fin S593920x1.rank)
  bcast_S_S74240x128 : S_.BroadcastsInDim S74240x128 (![] : Fin 0 → Fin S74240x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S74240x128_0_1 : S1x128.BroadcastsInDim S74240x128 (![0, 1] : Fin 2 → Fin S74240x128.rank)
  reducesTo_S74240x128_S128_d0 : S74240x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S74240x128_S256x290x128 : S74240x128.ShapeCasts S256x290x128
  dot_S74240x75_S75x128_S74240x128_1_0_0_1_n_n_wf : DotDims.WF S74240x75 S75x128 S74240x128 [1] [0] [0] [1] [] []
  gather_S74240x128_S593920x1_S593920x128_1_0_n_n_0_1_1128_wf : GatherDims.WF S74240x128 S593920x1 S593920x128 [1] [0] [] [0] [] 1 ![1, 128]
  scatter_S74240x128_S593920x1_S593920x128_1_0_0_1_wf : ScatterDims.WF S74240x128 S593920x1 S593920x128 [1] [0] [0] 1
  dot_S74240x128_S128x128_S74240x128_1_0_0_1_n_n_wf : DotDims.WF S74240x128 S128x128 S74240x128 [1] [0] [0] [1] [] []

variable [Facts₀]

def dot_S74240x75_S75x128_S74240x128_1_0_0_1_n_n : DotDims S74240x75 S75x128 S74240x128 where
  lhsContracting := [1]
  rhsContracting := [0]
  lhsNonContracting := [0]
  rhsNonContracting := [1]
  lhsBatch := []
  rhsBatch := []
  wf := dot_S74240x75_S75x128_S74240x128_1_0_0_1_n_n_wf
def gather_S74240x128_S593920x1_S593920x128_1_0_n_n_0_1_1128 : GatherDims S74240x128 S593920x1 S593920x128 where
  offsetDims := [1]
  collapsedSliceDims := [0]
  operandBatchingDims := []
  startIndicesBatchingDims := []
  startIndexMap := [0]
  indexVectorDim := 1
  sliceSizes := ![1, 128]
  wf := gather_S74240x128_S593920x1_S593920x128_1_0_n_n_0_1_1128_wf
def scatter_S74240x128_S593920x1_S593920x128_1_0_0_1 : ScatterDims S74240x128 S593920x1 S593920x128 where
  updateWindowDims := [1]
  insertedWindowDims := [0]
  scatterDimsToOperandDims := [0]
  indexVectorDim := 1
  wf := scatter_S74240x128_S593920x1_S593920x128_1_0_0_1_wf
def dot_S74240x128_S128x128_S74240x128_1_0_0_1_n_n : DotDims S74240x128 S128x128 S74240x128 where
  lhsContracting := [1]
  rhsContracting := [0]
  lhsNonContracting := [0]
  rhsNonContracting := [1]
  lhsBatch := []
  rhsBatch := []
  wf := dot_S74240x128_S128x128_S74240x128_1_0_0_1_n_n_wf

class Facts : Prop extends Facts₀ where

variable [Facts]
-- ==== Proof.KernelRun.lean ====
/-
  The kernel's run with its result named.

  From any launch memory with zero counters, every weakly fair execution of the program on the TensorCores
  terminates without a fault, and in every final state the result buffer holds what the fold of the program's
  fourteen segments leaves in it, while the ten argument arrays are as launched. The fold is a function of the launch
  memory alone: each stretch of host operations rewrites the buffers it writes, each launch leaves in its arrays what
  its write-backs leave.
-/
import proofs.«176821_j3375844294866_2_alg».proof.Proof.Gen.KernelIdeal.Frame

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's value at it, and
    every argument array ends as launched. -/
theorem run_value : θ_run defs (onTc (τ := τ) (main (F := F))) ⟨m, fun _ => 0, ρ⟩ (fun r => ∀ c : Dev nD,
      r.2.mem ((c.tc : Thread nD τ).loc main_v94) = W14 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v94 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Chain

end
-- ==== Proof.KernelChainHost.lean ====
/-
  The host operations between the kernel's seven launches, read off the buffers they leave.

  Between two launches the program runs a short straight line of array operations. Before each layer's first launch
  the line sums the rows of the current features along the graph's edges and cuts that layer's two weight matrices
  and two bias vectors out of the stacked parameter arrays; before each layer's second launch it adds up the sixteen
  per-tile column statistics and cuts out the layer's scale and shift vectors; the last line views the 74240 x 128
  result as 256 x 290 x 128. Each lemma says what one buffer holds after a line as a function of what the buffers
  the line reads held before it; the contents before the line are arbitrary, so nothing earlier is ever opened.
-/
import proofs.«176821_j3375844294866_2_alg».proof.Proof.Gen.KernelIdeal.Launch

noncomputable section

namespace Cert.KernelIdeal.Chain

open Idealize.ShloMosaic Idealize.ShloMosaic.TcCoe
open Cert.KernelIdeal.Gen

variable {F : FTy → Type} [FloatOps F] [Named F]

/-! ## The pieces a line computes, as functions of arrays -/

/-- Rows summed along the edges, as the program spells it: the features are rounded to the short format, row
    `src e` (a negative index counted from the end) is fetched for every edge `e`, widened again, and added into
    row `dst e` of an array of zeros. -/
def aggK (h : (⟨S74240x128, .f32⟩ : BufTy).Contents (Elt F)) (src dst : (⟨S593920, .i32⟩ : BufTy).Contents (Elt F)) :
    (⟨S74240x128, .f32⟩ : BufTy).Contents (Elt F) :=
  Host.scatterAdd scatter_S74240x128_S593920x1_S593920x128_1_0_0_1
    (broadcastInDim S74240x128 ![] bcast_S_S74240x128 (constant (F := F) S_ .f32 0x00000000#32))
    (broadcastInDim S593920x1 ![0] bcast_S593920_S593920x1_0 dst)
    (extf .f32
      (Host.gather gather_S74240x128_S593920x1_S593920x128_1_0_n_n_0_1_1128 (truncf .bf16 h bitsLt_bf16_f32)
        (broadcastInDim S593920x1 ![0] bcast_S593920_S593920x1_0
          (select (cmpi .slt src (broadcastInDim S593920 ![] bcast_S_S593920 (constantI S_ 32 0#32)))
            (addi src (broadcastInDim S593920 ![] bcast_S_S593920 (constantI S_ 32 74240#32))) src)))
      bitsLt_bf16_f32)

/-- One matrix cut out of a stack of three 128 x 128 matrices at the offsets `off`, its unit axis dropped. -/
def matOf (off : Fin 3 → ℕ) (hs : S3x128x128.Slices off S1x128x128) (A : (⟨S3x128x128, .f32⟩ : BufTy).Contents (Elt F)) :
    (⟨S128x128, .f32⟩ : BufTy).Contents (Elt F) :=
  shapeCast S128x128 (extractStridedSlice S1x128x128 off A hs) shapeCasts_S1x128x128_S128x128

/-- One vector cut out of a stack of three vectors of length 128 at the offsets `off`, as the one-row array a
    launch stages: the unit axis is dropped and put back. -/
def rowOf (off : Fin 2 → ℕ) (hs : S3x128.Slices off S1x128) (A : (⟨S3x128, .f32⟩ : BufTy).Contents (Elt F)) :
    (⟨S1x128, .f32⟩ : BufTy).Contents (Elt F) :=
  shapeCast S1x128 (shapeCast S128 (extractStridedSlice S1x128 off A hs) shapeCasts_S1x128_S128) shapeCasts_S128_S1x128

/-- The per-tile statistics added up over the sixteen tiles, from zero. -/
def totOf (st : (⟨S16x2x128, .f32⟩ : BufTy).Contents (Elt F)) : (⟨S2x128, .f32⟩ : BufTy).Contents (Elt F) :=
  Host.reduceAdd st (constant (F := F) S_ .f32 0x00000000#32) reducesTo_S16x2x128_S2x128_d0 h_S_

/-- The 74240 x 128 result viewed as 256 x 290 x 128. -/
def outOf (h : (⟨S74240x128, .f32⟩ : BufTy).Contents (Elt F)) : (⟨S256x290x128, .f32⟩ : BufTy).Contents (Elt F) :=
  shapeCast S256x290x128 h shapeCasts_S74240x128_S256x290x128

/-- The parameter arrays no line and no launch writes (the node features and the embedding matrix are read only by
    the first launch and are not needed after it). -/
def params : List (Ref sig .tc) :=
  [main_arg1, main_arg2, main_arg4, main_arg5, main_arg6, main_arg7, main_arg8, main_arg9]

/-! ## The line before launch 1 -/

section
variable (W : Valuation τ sig (Elt F))

theorem line1_agg : StableHlo.after hostOps1 W (Proc.devRef .tc main_v12)
    = aggK (W (Proc.devRef .tc main_v0)) (W (Proc.devRef .tc main_arg1)) (W (Proc.devRef .tc main_arg2)) := by
  dsimp only [hostOps1]; after_results_simp; rfl

theorem line1_Wg : StableHlo.after hostOps1 W (Proc.devRef .tc main_v14)
    = matOf ![0, 0, 0] slices_S3x128x128_S1x128x128_0_0_0 (W (Proc.devRef .tc main_arg4)) := by
  dsimp only [hostOps1]; after_results; rfl

theorem line1_bg : StableHlo.after hostOps1 W (Proc.devRef .tc main_v17)
    = rowOf ![0, 0] slices_S3x128_S1x128_0_0 (W (Proc.devRef .tc main_arg5)) := by
  dsimp only [hostOps1]; after_results; rfl

theorem line1_Wr : StableHlo.after hostOps1 W (Proc.devRef .tc main_v19)
    = matOf ![0, 0, 0] slices_S3x128x128_S1x128x128_0_0_0 (W (Proc.devRef .tc main_arg6)) := by
  dsimp only [hostOps1]; after_results; rfl

theorem line1_br : StableHlo.after hostOps1 W (Proc.devRef .tc main_v22)
    = rowOf ![0, 0] slices_S3x128_S1x128_0_0 (W (Proc.devRef .tc main_arg7)) := by
  dsimp only [hostOps1]; after_results; rfl

/-- A buffer the line does not write keeps its contents: the current features, -/
theorem line1_h : StableHlo.after hostOps1 W (Proc.devRef .tc main_v0) = W (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- and every parameter array. -/
theorem line1_param {b : Ref sig .tc} (hb : b ∈ params) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd hb (by decide))))

end

/-! ## The line before launch 2 -/

section
variable (W : Valuation τ sig (Elt F))

theorem line2_tot : StableHlo.after hostOps2 W (Proc.devRef .tc main_v24)
    = totOf (W (Proc.devRef .tc main_v23_1)) := by
  dsimp only [hostOps2]; after_results; rfl

theorem line2_gamma : StableHlo.after hostOps2 W (Proc.devRef .tc main_v27)
    = rowOf ![0, 0] slices_S3x128_S1x128_0_0 (W (Proc.devRef .tc main_arg8)) := by
  dsimp only [hostOps2]; after_results; rfl

theorem line2_beta : StableHlo.after hostOps2 W (Proc.devRef .tc main_v30)
    = rowOf ![0, 0] slices_S3x128_S1x128_0_0 (W (Proc.devRef .tc main_arg9)) := by
  dsimp only [hostOps2]; after_results; rfl

/-- A buffer the line does not write keeps its contents: the layer before normalisation, -/
theorem line2_p : StableHlo.after hostOps2 W (Proc.devRef .tc main_v23_0) = W (Proc.devRef .tc main_v23_0) :=
  StableHlo.after_of_forall_not_mem (b := Proc.devRef .tc main_v23_0) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- and every parameter array. -/
theorem line2_param {b : Ref sig .tc} (hb : b ∈ params) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd hb (by decide))))

end

/-! ## The line before launch 3 -/

section
variable (W : Valuation τ sig (Elt F))

theorem line3_agg : StableHlo.after hostOps3 W (Proc.devRef .tc main_v43)
    = aggK (W (Proc.devRef .tc main_v31)) (W (Proc.devRef .tc main_arg1)) (W (Proc.devRef .tc main_arg2)) := by
  dsimp only [hostOps3]; after_results_simp; rfl

theorem line3_Wg : StableHlo.after hostOps3 W (Proc.devRef .tc main_v45)
    = matOf ![1, 0, 0] slices_S3x128x128_S1x128x128_1_0_0 (W (Proc.devRef .tc main_arg4)) := by
  dsimp only [hostOps3]; after_results; rfl

theorem line3_bg : StableHlo.after hostOps3 W (Proc.devRef .tc main_v48)
    = rowOf ![1, 0] slices_S3x128_S1x128_1_0 (W (Proc.devRef .tc main_arg5)) := by
  dsimp only [hostOps3]; after_results; rfl

theorem line3_Wr : StableHlo.after hostOps3 W (Proc.devRef .tc main_v50)
    = matOf ![1, 0, 0] slices_S3x128x128_S1x128x128_1_0_0 (W (Proc.devRef .tc main_arg6)) := by
  dsimp only [hostOps3]; after_results; rfl

theorem line3_br : StableHlo.after hostOps3 W (Proc.devRef .tc main_v53)
    = rowOf ![1, 0] slices_S3x128_S1x128_1_0 (W (Proc.devRef .tc main_arg7)) := by
  dsimp only [hostOps3]; after_results; rfl

/-- A buffer the line does not write keeps its contents: the current features, -/
theorem line3_h : StableHlo.after hostOps3 W (Proc.devRef .tc main_v31) = W (Proc.devRef .tc main_v31) :=
  StableHlo.after_of_forall_not_mem (b := Proc.devRef .tc main_v31) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- and every parameter array. -/
theorem line3_param {b : Ref sig .tc} (hb : b ∈ params) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd hb (by decide))))

end

/-! ## The line before launch 4 -/

section
variable (W : Valuation τ sig (Elt F))

theorem line4_tot : StableHlo.after hostOps4 W (Proc.devRef .tc main_v55)
    = totOf (W (Proc.devRef .tc main_v54_1)) := by
  dsimp only [hostOps4]; after_results; rfl

theorem line4_gamma : StableHlo.after hostOps4 W (Proc.devRef .tc main_v58)
    = rowOf ![1, 0] slices_S3x128_S1x128_1_0 (W (Proc.devRef .tc main_arg8)) := by
  dsimp only [hostOps4]; after_results; rfl

theorem line4_beta : StableHlo.after hostOps4 W (Proc.devRef .tc main_v61)
    = rowOf ![1, 0] slices_S3x128_S1x128_1_0 (W (Proc.devRef .tc main_arg9)) := by
  dsimp only [hostOps4]; after_results; rfl

/-- A buffer the line does not write keeps its contents: the layer before normalisation, -/
theorem line4_p : StableHlo.after hostOps4 W (Proc.devRef .tc main_v54_0) = W (Proc.devRef .tc main_v54_0) :=
  StableHlo.after_of_forall_not_mem (b := Proc.devRef .tc main_v54_0) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- and every parameter array. -/
theorem line4_param {b : Ref sig .tc} (hb : b ∈ params) :
    StableHlo.after hostOps4 W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd hb (by decide))))

end

/-! ## The line before launch 5 -/

section
variable (W : Valuation τ sig (Elt F))

theorem line5_agg : StableHlo.after hostOps5 W (Proc.devRef .tc main_v74)
    = aggK (W (Proc.devRef .tc main_v62)) (W (Proc.devRef .tc main_arg1)) (W (Proc.devRef .tc main_arg2)) := by
  dsimp only [hostOps5]; after_results_simp; rfl

theorem line5_Wg : StableHlo.after hostOps5 W (Proc.devRef .tc main_v76)
    = matOf ![2, 0, 0] slices_S3x128x128_S1x128x128_2_0_0 (W (Proc.devRef .tc main_arg4)) := by
  dsimp only [hostOps5]; after_results; rfl

theorem line5_bg : StableHlo.after hostOps5 W (Proc.devRef .tc main_v79)
    = rowOf ![2, 0] slices_S3x128_S1x128_2_0 (W (Proc.devRef .tc main_arg5)) := by
  dsimp only [hostOps5]; after_results; rfl

theorem line5_Wr : StableHlo.after hostOps5 W (Proc.devRef .tc main_v81)
    = matOf ![2, 0, 0] slices_S3x128x128_S1x128x128_2_0_0 (W (Proc.devRef .tc main_arg6)) := by
  dsimp only [hostOps5]; after_results; rfl

theorem line5_br : StableHlo.after hostOps5 W (Proc.devRef .tc main_v84)
    = rowOf ![2, 0] slices_S3x128_S1x128_2_0 (W (Proc.devRef .tc main_arg7)) := by
  dsimp only [hostOps5]; after_results; rfl

/-- A buffer the line does not write keeps its contents: the current features, -/
theorem line5_h : StableHlo.after hostOps5 W (Proc.devRef .tc main_v62) = W (Proc.devRef .tc main_v62) :=
  StableHlo.after_of_forall_not_mem (b := Proc.devRef .tc main_v62) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- and every parameter array. -/
theorem line5_param {b : Ref sig .tc} (hb : b ∈ params) :
    StableHlo.after hostOps5 W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd hb (by decide))))

end

/-! ## The line before launch 6 -/

section
variable (W : Valuation τ sig (Elt F))

theorem line6_tot : StableHlo.after hostOps6 W (Proc.devRef .tc main_v86)
    = totOf (W (Proc.devRef .tc main_v85_1)) := by
  dsimp only [hostOps6]; after_results; rfl

theorem line6_gamma : StableHlo.after hostOps6 W (Proc.devRef .tc main_v89)
    = rowOf ![2, 0] slices_S3x128_S1x128_2_0 (W (Proc.devRef .tc main_arg8)) := by
  dsimp only [hostOps6]; after_results; rfl

theorem line6_beta : StableHlo.after hostOps6 W (Proc.devRef .tc main_v92)
    = rowOf ![2, 0] slices_S3x128_S1x128_2_0 (W (Proc.devRef .tc main_arg9)) := by
  dsimp only [hostOps6]; after_results; rfl

/-- A buffer the line does not write keeps its contents: the layer before normalisation, -/
theorem line6_p : StableHlo.after hostOps6 W (Proc.devRef .tc main_v85_0) = W (Proc.devRef .tc main_v85_0) :=
  StableHlo.after_of_forall_not_mem (b := Proc.devRef .tc main_v85_0) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- and every parameter array. -/
theorem line6_param {b : Ref sig .tc} (hb : b ∈ params) :
    StableHlo.after hostOps6 W (Proc.devRef .tc b) = W (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact absurd hb (by decide))))

end

/-! ## The last line -/

theorem line7_out (W : Valuation τ sig (Elt F)) : StableHlo.after hostOps7 W (Proc.devRef .tc main_v94)
    = outOf (W (Proc.devRef .tc main_v93)) := by
  dsimp only [hostOps7]; after_results; rfl

end Cert.KernelIdeal.Chain

end
-- ==== Proof.Spec.lean ====
/-
  The mathematics both programs compute, stated once over the extended reals, index by index.

  A node-feature matrix `X` (74240 x 75) is embedded by one matrix product, and then three times:
  rows are summed along the edges of the graph (an aggregation that both programs spell with the
  same host operations, so it stays a parameter here), two affine maps followed by `max · 0` are
  added, and every column is normalised by its mean and variance over all 74240 rows.

  Matrices are curried functions of literal `Fin` coordinates; `cur` and `unc` pass between that
  form and an array over a two-axis shape.
-/
import Idealize.ShloMosaic.PureOps.Ideal
import Idealize.ShloMosaic.Lib.ValueIdx

noncomputable section

namespace Cert.Gcn

open Idealize.ShloMosaic Idealize.ShloMosaic.ValueIdx

/-- An array over a two-axis shape as a curried function of its coordinates. -/
def cur {a b : Nat} (x : (⟨2, ![a, b]⟩ : Shape).Idx → EReal) : Fin a → Fin b → EReal := fun i j => x (ix2 i j)

/-- A curried function as an array over the two-axis shape. -/
def unc {a b : Nat} (f : Fin a → Fin b → EReal) : (⟨2, ![a, b]⟩ : Shape).Idx → EReal := fun i => f (i 0) (i 1)

theorem unc_ix2 {a b : Nat} (f : Fin a → Fin b → EReal) (i : Fin a) (j : Fin b) : unc f (ix2 i j) = f i j := rfl

theorem cur_unc {a b : Nat} (f : Fin a → Fin b → EReal) : cur (unc f) = f := rfl

theorem unc_cur {a b : Nat} (x : (⟨2, ![a, b]⟩ : Shape).Idx → EReal) : unc (cur x) = x := by
  funext i; unfold unc cur; exact (congrArg x (eq_ix2 i)).symm

/-- The single row of a one-row array, as a function of the column. -/
def row {b : Nat} (x : (⟨2, ![1, b]⟩ : Shape).Idx → EReal) : Fin b → EReal := fun j => x (ix2 0 j)

/-- The matrix product. -/
def mm {n k p : Nat} (A : Fin n → Fin k → EReal) (B : Fin k → Fin p → EReal) (i : Fin n) (j : Fin p) : EReal :=
  ∑ l : Fin k, A i l * B l j

/-- One layer before normalisation: `max (agg·Wg + bg) 0 + max (h·Wr + br) 0`. -/
def pre {n d : Nat} (agg h : Fin n → Fin d → EReal) (Wg : Fin d → Fin d → EReal) (bg : Fin d → EReal)
    (Wr : Fin d → Fin d → EReal) (br : Fin d → EReal) (i : Fin n) (j : Fin d) : EReal :=
  max (mm agg Wg i j + bg j) 0 + max (mm h Wr i j + br j) 0

/-- The sum of a column. -/
def colsum {n d : Nat} (x : Fin n → Fin d → EReal) (j : Fin d) : EReal := ∑ i : Fin n, x i j

/-- Row `r` of tile `t` when 74240 rows are cut into 16 tiles of 4640. -/
def tileRow (t : Fin 16) (r : Fin 4640) : Fin 74240 := ⟨4640 * t.val + r.val, by omega⟩

/-- The per-tile column statistics: for tile `t`, entry 0 is the column's sum over the tile's rows and
    entry 1 the sum of squares. -/
def tileStats (x : Fin 74240 → Fin 128 → EReal) (t : Fin 16) (s : Fin 2) (j : Fin 128) : EReal :=
  if s.val = 0 then ∑ r : Fin 4640, x (tileRow t r) j else ∑ r : Fin 4640, x (tileRow t r) j * x (tileRow t r) j

/-- The statistics summed over the tiles. -/
def totalStats (st : Fin 16 → Fin 2 → Fin 128 → EReal) (s : Fin 2) (j : Fin 128) : EReal := ∑ t : Fin 16, st t s j

/-- The reciprocal of the number of rows. -/
def invN : EReal := ((1 / 74240 : ℝ) : EReal)

/-- Normalisation from given totals `tot 0 = Σ x`, `tot 1 = Σ x²`: the mean is `tot 0 / n`, the variance
    `tot 1 / n - mean²` clamped below at 0. -/
def normT (eps : EReal) (x : Fin 74240 → Fin 128 → EReal) (tot : Fin 2 → Fin 128 → EReal)
    (γ β : Fin 128 → EReal) (i : Fin 74240) (j : Fin 128) : EReal :=
  γ j * (x i j - tot 0 j * invN) * Ideal.rsqrt (max (tot 1 j * invN - tot 0 j * invN * (tot 0 j * invN)) 0 + eps) + β j

/-- Normalisation in the two-pass form: the mean is the column sum divided by `n`, the variance the mean
    of the squared deviations. `nn` is the divisor (the number of rows as an extended real). -/
def normR (eps nn : EReal) (x : Fin 74240 → Fin 128 → EReal) (γ β : Fin 128 → EReal) (i : Fin 74240) (j : Fin 128) : EReal :=
  γ j * (x i j - Ideal.div (colsum x j) nn)
    * Ideal.rsqrt (Ideal.div (colsum (fun a b => (x a b - Ideal.div (colsum x b) nn) * (x a b - Ideal.div (colsum x b) nn)) j) nn + eps)
    + β j

/-- Every entry is a real number. -/
def Fin2 {n d : Nat} (x : Fin n → Fin d → EReal) : Prop := ∀ i j, x i j ≠ ⊤ ∧ x i j ≠ ⊥

end Cert.Gcn

end
-- ==== Proof.KernelChainRead.lean ====
/-
  Slices, unit axes and the tile sum, read at an entry.

  Matrix `l` of a stack of three 128 x 128 matrices, cut out as a 1 x 128 x 128 block and viewed as a matrix, holds at
  `(a, b)` the stack's entry `(l, a, b)`: the block's row-major position of `(0, a, b)` is the matrix's of `(a, b)`.
  Vector `l` of a stack of three vectors, cut out as a 1 x 128 block, flattened, and laid out again as one row, holds
  at `(0, j)` the stack's entry `(l, j)`. The per-tile statistics summed over the tile axis from zero hold at
  `(s, j)` the sum over the sixteen tiles of the entries `(t, s, j)`.
-/
import proofs.«176821_j3375844294866_2_alg».proof.Proof.Spec
import Idealize.ShloMosaic.Lib.Pipeline.Value
import Idealize.ShloMosaic.Lib.IdealHost

noncomputable section

namespace Cert.KernelIdeal.Chain

open Idealize.ShloMosaic Idealize.ShloMosaic.ValueIdx
open scoped BigOperators

/-- Matrix `l` of the stack at `(a, b)`. -/
theorem mat_read {α : Type} (A : (⟨3, ![3, 128, 128]⟩ : Shape).Idx → α) (off : Fin 3 → ℕ) (l : Fin 3)
    (h0 : off 0 = l.val) (h1 : off 1 = 0) (h2 : off 2 = 0)
    (hs : (⟨3, ![3, 128, 128]⟩ : Shape).Slices off ⟨3, ![1, 128, 128]⟩)
    (hc : (⟨3, ![1, 128, 128]⟩ : Shape).ShapeCasts ⟨2, ![128, 128]⟩) (a b : Fin 128) :
    shapeCast ⟨2, ![128, 128]⟩ (extractStridedSlice ⟨3, ![1, 128, 128]⟩ off A hs) hc (ix2 a b) = A (ix3 l a b) := by
  refine (shapeCast_apply _ hc (ix2 a b) (ix3 (0 : Fin 1) a b) ?_).trans ?_
  · rw [Shape.rowMajor_val_three, Shape.rowMajor_val_two]
    show (0 * 128 + a.val) * 128 + b.val = a.val * 128 + b.val
    omega
  · exact extractStridedSlice_apply off A hs (ix3 (0 : Fin 1) a b) (ix3 l a b) (fun e => by
      match e with
      | ⟨0, _⟩ => show l.val = off 0 + 0; omega
      | ⟨1, _⟩ => show a.val = off 1 + a.val; omega
      | ⟨2, _⟩ => show b.val = off 2 + b.val; omega)

/-- Vector `l` of the stack, as one row, at `(0, j)`. -/
theorem row_read {α : Type} (A : (⟨2, ![3, 128]⟩ : Shape).Idx → α) (off : Fin 2 → ℕ) (l : Fin 3)
    (h0 : off 0 = l.val) (h1 : off 1 = 0)
    (hs : (⟨2, ![3, 128]⟩ : Shape).Slices off ⟨2, ![1, 128]⟩)
    (hc : (⟨2, ![1, 128]⟩ : Shape).ShapeCasts ⟨1, ![128]⟩) (hc' : (⟨1, ![128]⟩ : Shape).ShapeCasts ⟨2, ![1, 128]⟩)
    (j : Fin 128) :
    shapeCast ⟨2, ![1, 128]⟩ (shapeCast ⟨1, ![128]⟩ (extractStridedSlice ⟨2, ![1, 128]⟩ off A hs) hc) hc' (ix2 (0 : Fin 1) j)
      = A (ix2 l j) := by
  refine (shapeCast_apply _ hc' (ix2 (0 : Fin 1) j) (ix1 j) ?_).trans ?_
  · rw [Shape.rowMajor_val_one, Shape.rowMajor_val_two]
    show j.val = 0 * 128 + j.val
    omega
  refine (shapeCast_apply _ hc (ix1 j) (ix2 (0 : Fin 1) j) ?_).trans ?_
  · rw [Shape.rowMajor_val_one, Shape.rowMajor_val_two]
    show 0 * 128 + j.val = j.val
    omega
  · exact extractStridedSlice_apply off A hs (ix2 (0 : Fin 1) j) (ix2 l j) (fun e => by
      match e with
      | ⟨0, _⟩ => show l.val = off 0 + 0; omega
      | ⟨1, _⟩ => show j.val = off 1 + j.val; omega)

/-- The statistics summed over the tile axis from zero, at `(s, j)`. -/
theorem tot_read (st : (⟨3, ![16, 2, 128]⟩ : Shape).Idx → EReal)
    (h' : (⟨3, ![16, 2, 128]⟩ : Shape).ReducesTo [0] ⟨2, ![2, 128]⟩)
    (h : (⟨3, ![16, 2, 128]⟩ : Shape).Reduces [0] ⟨2, ![2, 128]⟩) (s : Fin 2) (j : Fin 128) :
    Ideal.hostReduceAdd h' st (Ideal.ofBits .f32 0x00000000#32) (ix2 s j) = ∑ t : Fin 16, st (ix3 t s j) := by
  rw [Ideal.hostReduceAdd_single h' h, Ideal.ofBits_zero_f32, zero_add]
  refine Finset.sum_congr rfl fun t _ => congrArg st (funext fun e => Fin.ext ?_)
  match e with
  | ⟨0, _⟩ => rfl
  | ⟨1, _⟩ => rfl
  | ⟨2, _⟩ => rfl

end Cert.KernelIdeal.Chain

end
-- ==== Proof.Algebra.lean ====
/-
  The algebra that joins the two normalisations.

  On real entries the one-pass variance `Σx²/n − (Σx/n)²` is the two-pass variance `Σ(x − Σx/n)²/n`,
  which is a mean of squares and hence nonnegative, so clamping it at zero changes nothing; and the
  per-tile sums added over the sixteen tiles are the sums over all rows (a finite sum may be taken
  in any grouping). Real entries stay real through sums, products, differences and `max · 0`, and the
  reciprocal square root of a positive real is a real.
-/
import proofs.«176821_j3375844294866_2_alg».proof.Proof.Spec

noncomputable section

namespace Cert.Gcn

open Idealize.ShloMosaic Idealize.ShloMosaic.ValueIdx

/-! ## Real values among the extended reals -/

/-- An extended real that is a real number. -/
def IsR (x : EReal) : Prop := x ≠ ⊤ ∧ x ≠ ⊥

theorem isR_coe (r : ℝ) : IsR (r : EReal) := ⟨EReal.coe_ne_top r, EReal.coe_ne_bot r⟩

theorem isR_iff (x : EReal) : IsR x ↔ ∃ r : ℝ, x = (r : EReal) := by
  constructor
  · rintro ⟨h1, h2⟩
    lift x to ℝ using ⟨h1, h2⟩
    exact ⟨x, rfl⟩
  · rintro ⟨r, rfl⟩
    exact isR_coe r

theorem isR_zero : IsR (0 : EReal) := by
  have := isR_coe 0
  simpa using this

theorem IsR.add {x y : EReal} (hx : IsR x) (hy : IsR y) : IsR (x + y) := by
  obtain ⟨a, rfl⟩ := (isR_iff x).1 hx
  obtain ⟨b, rfl⟩ := (isR_iff y).1 hy
  rw [← EReal.coe_add]; exact isR_coe _

theorem IsR.mul {x y : EReal} (hx : IsR x) (hy : IsR y) : IsR (x * y) := by
  obtain ⟨a, rfl⟩ := (isR_iff x).1 hx
  obtain ⟨b, rfl⟩ := (isR_iff y).1 hy
  rw [← EReal.coe_mul]; exact isR_coe _

theorem IsR.sub {x y : EReal} (hx : IsR x) (hy : IsR y) : IsR (x - y) := by
  obtain ⟨a, rfl⟩ := (isR_iff x).1 hx
  obtain ⟨b, rfl⟩ := (isR_iff y).1 hy
  rw [← EReal.coe_sub]; exact isR_coe _

theorem IsR.max0 {x : EReal} (hx : IsR x) : IsR (max x 0) := by
  rcases max_choice x 0 with h | h <;> rw [h]
  · exact hx
  · exact isR_zero

theorem isR_sum {ι : Type*} (s : Finset ι) (f : ι → EReal) (h : ∀ i ∈ s, IsR (f i)) : IsR (∑ i ∈ s, f i) :=
  Finset.sum_induction f IsR (fun _ _ => IsR.add) isR_zero h

/-- A finite sum of reals, taken among the extended reals, is the real sum. -/
theorem coe_sum {ι : Type*} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, EReal.coe_add, ih]

/-! ## Sums over the tiles -/

/-- Summing over the sixteen tiles and over each tile's 4640 rows is summing over all 74240 rows. -/
theorem tile_sum {M : Type*} [AddCommMonoid M] (f : Fin 74240 → M) :
    ∑ t : Fin 16, ∑ r : Fin 4640, f (tileRow t r) = ∑ i : Fin 74240, f i := by
  rw [← Fintype.sum_prod_type' (fun t r => f (tileRow t r))]
  refine Fintype.sum_equiv (finProdFinEquiv (m := 16) (n := 4640)) _ _ (fun p => congrArg f (Fin.ext ?_))
  simp [tileRow, finProdFinEquiv]
  omega

theorem total_sum (x : Fin 74240 → Fin 128 → EReal) (j : Fin 128) :
    totalStats (tileStats x) 0 j = colsum x j := by
  unfold totalStats tileStats colsum
  simp only [Fin.val_zero, if_true]
  exact tile_sum (fun i => x i j)

theorem total_sumsq (x : Fin 74240 → Fin 128 → EReal) (j : Fin 128) :
    totalStats (tileStats x) 1 j = colsum (fun a b => x a b * x a b) j := by
  unfold totalStats tileStats colsum
  simp only [Fin.val_one, one_ne_zero, if_false]
  exact tile_sum (fun i => x i j * x i j)

/-! ## The two variances -/

/-- Over the reals: `Σ(rᵢ − m)²·c = Σrᵢ²·c − m²` when `m = Σrᵢ·c` and `c·n = 1`. -/
theorem var_real {ι : Type*} (s : Finset ι) (r : ι → ℝ) (c : ℝ) (hc : c * (s.card : ℝ) = 1) :
    (∑ i ∈ s, (r i - (∑ k ∈ s, r k) * c) * (r i - (∑ k ∈ s, r k) * c)) * c
      = (∑ i ∈ s, r i * r i) * c - (∑ k ∈ s, r k) * c * ((∑ k ∈ s, r k) * c) := by
  set S := ∑ k ∈ s, r k with hS
  have h1 : ∑ i ∈ s, (r i - S * c) * (r i - S * c)
      = (∑ i ∈ s, r i * r i) - 2 * (S * c) * S + (s.card : ℝ) * ((S * c) * (S * c)) := by
    have : ∀ i, (r i - S * c) * (r i - S * c) = r i * r i - 2 * (S * c) * r i + (S * c) * (S * c) := fun i => by ring
    simp only [this, Finset.sum_add_distrib, Finset.sum_sub_distrib, ← Finset.mul_sum, Finset.sum_const, nsmul_eq_mul, ← hS]
    ring
  rw [h1]
  have : (s.card : ℝ) * c = 1 := by rw [mul_comm]; exact hc
  have e : ((s.card : ℝ) * (S * c * (S * c))) * c = S * c * (S * c) * ((s.card : ℝ) * c) := by ring
  calc ((∑ i ∈ s, r i * r i) - 2 * (S * c) * S + (s.card : ℝ) * (S * c * (S * c))) * c
      = (∑ i ∈ s, r i * r i) * c - 2 * (S * c) * (S * c) + ((s.card : ℝ) * (S * c * (S * c))) * c := by ring
    _ = (∑ i ∈ s, r i * r i) * c - 2 * (S * c) * (S * c) + S * c * (S * c) * 1 := by rw [e, this]
    _ = (∑ i ∈ s, r i * r i) * c - S * c * (S * c) := by ring

/-- On real entries, normalising from the tile totals (one-pass variance, clamped at zero) is the two-pass
    normalisation with divisor 74240. -/
theorem normT_total_eq_normR (eps : EReal) (x : Fin 74240 → Fin 128 → EReal) (γ β : Fin 128 → EReal)
    (hx : ∀ i j, IsR (x i j)) :
    normT eps x (totalStats (tileStats x)) γ β = normR eps ((74240 : ℝ) : EReal) x γ β := by
  choose r hr using fun i j => (isR_iff _).1 (hx i j)
  obtain rfl : x = fun i j => (r i j : EReal) := funext fun i => funext fun j => hr i j
  funext i j
  unfold normT normR
  rw [total_sum, total_sumsq]
  simp only [Ideal.div_coe (by norm_num : (74240 : ℝ) ≠ 0), colsum, invN]
  -- everything is a real now
  have hS : ∀ b : Fin 128, (∑ a : Fin 74240, (r a b : EReal)) = ((∑ a : Fin 74240, r a b : ℝ) : EReal) := fun b => coe_sum _ _
  simp only [hS, ← EReal.coe_mul, ← EReal.coe_sub, coe_sum]
  have hv := var_real (Finset.univ : Finset (Fin 74240)) (fun a => r a j) (1 / 74240)
    (by rw [Finset.card_univ, Fintype.card_fin]; norm_num)
  rw [← hv]
  have hnn : (0 : EReal) ≤ (((∑ a : Fin 74240, (r a j - (∑ k : Fin 74240, r k j) * (1 / 74240)) * (r a j - (∑ k : Fin 74240, r k j) * (1 / 74240))) * (1 / 74240) : ℝ) : EReal) := by
    apply EReal.coe_nonneg.2
    apply mul_nonneg _ (by norm_num)
    exact Finset.sum_nonneg fun a _ => mul_self_nonneg _
  rw [max_eq_left hnn]

end Cert.Gcn

end
-- ==== Proof.Finite.lean ====
/-
  Real entries stay real through one layer.

  A matrix product of real matrices is a finite sum of real products; adding a real bias and taking
  `max · 0` keeps a real; gathering rows reads entries of a real array and a scatter-add adds finitely
  many of them to a real entry; and the two-pass normalisation of a real column divides by a nonzero
  real and multiplies by the reciprocal square root of a positive real (a mean of squares plus a
  positive offset), which is a real.
-/
import proofs.«176821_j3375844294866_2_alg».proof.Proof.Algebra

noncomputable section

namespace Cert.Gcn

open Idealize.ShloMosaic Idealize.ShloMosaic.ValueIdx

theorem mm_isR {n k p : Nat} (A : Fin n → Fin k → EReal) (B : Fin k → Fin p → EReal)
    (hA : ∀ i l, IsR (A i l)) (hB : ∀ l j, IsR (B l j)) (i : Fin n) (j : Fin p) : IsR (mm A B i j) :=
  isR_sum _ _ fun l _ => (hA i l).mul (hB l j)

theorem pre_isR {n d : Nat} (agg h : Fin n → Fin d → EReal) (Wg : Fin d → Fin d → EReal) (bg : Fin d → EReal)
    (Wr : Fin d → Fin d → EReal) (br : Fin d → EReal)
    (hagg : ∀ i j, IsR (agg i j)) (hh : ∀ i j, IsR (h i j)) (hWg : ∀ i j, IsR (Wg i j)) (hbg : ∀ j, IsR (bg j))
    (hWr : ∀ i j, IsR (Wr i j)) (hbr : ∀ j, IsR (br j)) (i : Fin n) (j : Fin d) :
    IsR (pre agg h Wg bg Wr br i j) :=
  (((mm_isR agg Wg hagg hWg i j).add (hbg j)).max0).add (((mm_isR h Wr hh hWr i j).add (hbr j)).max0)

/-- The reciprocal square root of a positive real is a real. -/
theorem rsqrt_isR {v e : ℝ} (hv : 0 ≤ v) (he : 0 < e) : IsR (Ideal.rsqrt ((v : EReal) + (e : EReal))) := by
  rw [← EReal.coe_add, Ideal.rsqrt_coe]
  have h1 : ¬ (v + e < 0) := by linarith
  have h2 : ¬ (v + e = 0) := by intro h; linarith
  rw [if_neg h1, if_neg h2]
  exact isR_coe _

/-- A mean of squares of reals is a nonnegative real. -/
theorem sq_mean {n : Nat} (d : Fin n → EReal) (hd : ∀ a, IsR (d a)) (c : ℝ) (hc : 0 ≤ c) :
    ∃ v : ℝ, 0 ≤ v ∧ (∑ a : Fin n, d a * d a) * (c : EReal) = (v : EReal) := by
  choose q hq using fun a => (isR_iff _).1 (hd a)
  refine ⟨(∑ a : Fin n, q a * q a) * c, mul_nonneg (Finset.sum_nonneg fun a _ => mul_self_nonneg _) hc, ?_⟩
  simp only [hq, ← EReal.coe_mul, coe_sum]

/-- The two-pass normalisation of real entries with real scale and shift, and a positive real offset, is real. -/
theorem normR_isR (eps : EReal) (heps : ∃ e : ℝ, 0 < e ∧ eps = (e : EReal)) (x : Fin 74240 → Fin 128 → EReal)
    (γ β : Fin 128 → EReal) (hx : ∀ i j, IsR (x i j)) (hγ : ∀ j, IsR (γ j)) (hβ : ∀ j, IsR (β j))
    (i : Fin 74240) (j : Fin 128) : IsR (normR eps ((74240 : ℝ) : EReal) x γ β i j) := by
  obtain ⟨e, he, rfl⟩ := heps
  unfold normR
  simp only [Ideal.div_coe (by norm_num : (74240 : ℝ) ≠ 0)]
  have hmu : ∀ b, IsR (colsum x b * ((1 / 74240 : ℝ) : EReal)) := fun b =>
    (isR_sum _ _ fun a _ => hx a b).mul (isR_coe _)
  have hd : ∀ a, IsR (x a j - colsum x j * ((1 / 74240 : ℝ) : EReal)) := fun a => (hx a j).sub (hmu j)
  obtain ⟨v, hv, hve⟩ := sq_mean (fun a => x a j - colsum x j * ((1 / 74240 : ℝ) : EReal)) hd (1 / 74240) (by norm_num)
  have : colsum (fun a b => (x a b - colsum x b * ((1 / 74240 : ℝ) : EReal)) * (x a b - colsum x b * ((1 / 74240 : ℝ) : EReal))) j
      = ∑ a : Fin 74240, (x a j - colsum x j * ((1 / 74240 : ℝ) : EReal)) * (x a j - colsum x j * ((1 / 74240 : ℝ) : EReal)) := rfl
  rw [this, hve]
  exact (((hγ j).mul (hd i)).mul (rsqrt_isR hv he)).add (hβ j)

/-- Gathered entries are entries of the operand. -/
theorem gather_isR {s si t : Shape} {w : Nat} (d : GatherDims s si t) (x : s.Idx → EReal) (idx : IVec si w)
    (hx : ∀ i, IsR (x i)) (j : t.Idx) : IsR (Host.gather d x idx j) := hx _

/-- A scatter-add onto real entries of real updates leaves real entries. -/
theorem scatterAdd_isR {s si su : Shape} {w : Nat} (d : ScatterDims s si su) (x : FVec Ideal s .f32) (idx : IVec si w)
    (u : FVec Ideal su .f32) (hx : ∀ i, IsR (x i)) (hu : ∀ j, IsR (u j)) (i : s.Idx) :
    IsR (Host.scatterAdd d x idx u i) := by
  unfold Host.scatterAdd
  rw [Ideal.hostScatterAdd_def]
  unfold Ideal.hostScatterAdd
  exact (hx i).add (isR_sum _ _ fun j _ => hu j)

end Cert.Gcn

end
-- ==== Proof.Bridge.lean ====
/-
  Three layers in the two forms agree on real data.

  A layer aggregates `h` along the graph's edges, forms `max (agg·Wg + bg) 0 + max (h·Wr + br) 0` and
  normalises each column. With real inputs every intermediate is real, so by induction over the layers
  the one-pass normalisation from tile totals equals the two-pass normalisation at each layer, and the
  layer's output is real again.
-/
import proofs.«176821_j3375844294866_2_alg».proof.Proof.Finite

noncomputable section

namespace Cert.Gcn

/-- A matrix of 74240 rows and 128 columns. -/
abbrev Mat : Type := Fin 74240 → Fin 128 → EReal

/-- One layer, normalised from the per-tile totals. -/
def layerK (eps : EReal) (agg : Mat → Mat) (Wg : Fin 128 → Fin 128 → EReal) (bg : Fin 128 → EReal)
    (Wr : Fin 128 → Fin 128 → EReal) (br γ β : Fin 128 → EReal) (h : Mat) : Mat :=
  normT eps (pre (agg h) h Wg bg Wr br) (totalStats (tileStats (pre (agg h) h Wg bg Wr br))) γ β

/-- One layer, normalised in two passes with divisor `nn`. -/
def layerR (eps nn : EReal) (agg : Mat → Mat) (Wg : Fin 128 → Fin 128 → EReal) (bg : Fin 128 → EReal)
    (Wr : Fin 128 → Fin 128 → EReal) (br γ β : Fin 128 → EReal) (h : Mat) : Mat :=
  normR eps nn (pre (agg h) h Wg bg Wr br) γ β

/-- Every entry of a matrix is real. -/
def RealM {n d : Nat} (x : Fin n → Fin d → EReal) : Prop := ∀ i j, IsR (x i j)

/-- Every entry of a vector is real. -/
def RealV {d : Nat} (x : Fin d → EReal) : Prop := ∀ j, IsR (x j)

/-- One layer on real data: the two forms agree, and the output is real. -/
theorem layer_eq (eps : EReal) (heps : ∃ e : ℝ, 0 < e ∧ eps = (e : EReal)) (aggK aggR : Mat → Mat)
    (hagg : ∀ h, RealM h → aggK h = aggR h) (hfin : ∀ h, RealM h → RealM (aggR h))
    (Wg : Fin 128 → Fin 128 → EReal) (bg : Fin 128 → EReal) (Wr : Fin 128 → Fin 128 → EReal) (br γ β : Fin 128 → EReal)
    (hWg : RealM Wg) (hbg : RealV bg) (hWr : RealM Wr) (hbr : RealV br) (hγ : RealV γ) (hβ : RealV β)
    (h : Mat) (hh : RealM h) :
    layerK eps aggK Wg bg Wr br γ β h = layerR eps ((74240 : ℝ) : EReal) aggR Wg bg Wr br γ β h
      ∧ RealM (layerR eps ((74240 : ℝ) : EReal) aggR Wg bg Wr br γ β h) := by
  have hp : RealM (pre (aggR h) h Wg bg Wr br) := pre_isR _ _ _ _ _ _ (hfin h hh) hh hWg hbg hWr hbr
  constructor
  · unfold layerK layerR
    rw [hagg h hh]
    exact normT_total_eq_normR eps _ γ β hp
  · exact normR_isR eps heps _ γ β hp hγ hβ

/-- Three layers on real data: the two forms agree. -/
theorem layers_eq (eps : EReal) (heps : ∃ e : ℝ, 0 < e ∧ eps = (e : EReal)) (aggK aggR : Mat → Mat)
    (hagg : ∀ h, RealM h → aggK h = aggR h) (hfin : ∀ h, RealM h → RealM (aggR h))
    (Wg Wr : Fin 3 → Fin 128 → Fin 128 → EReal) (bg br γ β : Fin 3 → Fin 128 → EReal)
    (hWg : ∀ l, RealM (Wg l)) (hbg : ∀ l, RealV (bg l)) (hWr : ∀ l, RealM (Wr l)) (hbr : ∀ l, RealV (br l))
    (hγ : ∀ l, RealV (γ l)) (hβ : ∀ l, RealV (β l)) (h : Mat) (hh : RealM h) :
    layerK eps aggK (Wg 2) (bg 2) (Wr 2) (br 2) (γ 2) (β 2)
        (layerK eps aggK (Wg 1) (bg 1) (Wr 1) (br 1) (γ 1) (β 1)
          (layerK eps aggK (Wg 0) (bg 0) (Wr 0) (br 0) (γ 0) (β 0) h))
      = layerR eps ((74240 : ℝ) : EReal) aggR (Wg 2) (bg 2) (Wr 2) (br 2) (γ 2) (β 2)
        (layerR eps ((74240 : ℝ) : EReal) aggR (Wg 1) (bg 1) (Wr 1) (br 1) (γ 1) (β 1)
          (layerR eps ((74240 : ℝ) : EReal) aggR (Wg 0) (bg 0) (Wr 0) (br 0) (γ 0) (β 0) h)) := by
  obtain ⟨e0, f0⟩ := layer_eq eps heps aggK aggR hagg hfin _ _ _ _ _ _ (hWg 0) (hbg 0) (hWr 0) (hbr 0) (hγ 0) (hβ 0) h hh
  obtain ⟨e1, f1⟩ := layer_eq eps heps aggK aggR hagg hfin _ _ _ _ _ _ (hWg 1) (hbg 1) (hWr 1) (hbr 1) (hγ 1) (hβ 1) _ f0
  obtain ⟨e2, _⟩ := layer_eq eps heps aggK aggR hagg hfin _ _ _ _ _ _ (hWg 2) (hbg 2) (hWr 2) (hbr 2) (hγ 2) (hβ 2) _ f1
  rw [e0, e1, e2]

/-- The embedding of real features by real weights is real. -/
theorem embed_real {n k p : Nat} (X : Fin n → Fin k → EReal) (W : Fin k → Fin p → EReal) (hX : RealM X) (hW : RealM W) :
    RealM (mm X W) := mm_isR X W hX hW

end Cert.Gcn

end
-- ==== Proof.KernelChainBase.lean ====
/-
  The names the value of the kernel's run is written in, and the parameter arrays at every boundary.

  The launch memory holds the node features, each edge's source and destination row, the embedding matrix, and six
  stacked per-layer parameters. Read at an entry, layer `l`'s weight matrix is the stack's entries `(l, a, b)` and
  its bias, scale and shift vectors are the stacks' entries `(l, j)`; the aggregation along the edges is a map of
  74240 x 128 matrices. No host line and no launch after the first writes any of the eight arrays these are read
  from, so at each of the program's boundaries they hold what the launch memory held.
-/
import proofs.«176821_j3375844294866_2_alg».proof.Proof.Gen.KernelIdeal.Frame
import proofs.«176821_j3375844294866_2_alg».proof.Proof.KernelChainHost
import proofs.«176821_j3375844294866_2_alg».proof.Proof.KernelChainRead
import proofs.«176821_j3375844294866_2_alg».proof.Proof.Bridge

set_option maxRecDepth 16384

noncomputable section

namespace Cert.KernelIdeal.Chain

open Idealize.ShloMosaic Idealize.ShloMosaic.TcCoe Idealize.ShloMosaic.ValueIdx Idealize.SL.Sem
open Cert.KernelIdeal.Gen

variable (m : (ℓ : Loc nD τ sig) → Buf (Elt Ideal) ℓ) (ρ : Dev nD → PrngReg) (c : Dev nD)

/-! ## The launch contents by name, and the specification's parameters read off them -/

/-- The node features, -/
abbrev argX : S74240x75.Idx → EReal := m ((c : Thread nD τ).loc main_arg0)
/-- each edge's source and destination row, -/
abbrev argSrc : S593920.Idx → BitVec 32 := m ((c : Thread nD τ).loc main_arg1)
abbrev argDst : S593920.Idx → BitVec 32 := m ((c : Thread nD τ).loc main_arg2)
/-- the embedding matrix, -/
abbrev argW0 : S75x128.Idx → EReal := m ((c : Thread nD τ).loc main_arg3)
/-- and the six stacked per-layer parameters. -/
abbrev argWg : S3x128x128.Idx → EReal := m ((c : Thread nD τ).loc main_arg4)
abbrev argBg : S3x128.Idx → EReal := m ((c : Thread nD τ).loc main_arg5)
abbrev argWr : S3x128x128.Idx → EReal := m ((c : Thread nD τ).loc main_arg6)
abbrev argBr : S3x128.Idx → EReal := m ((c : Thread nD τ).loc main_arg7)
abbrev argGamma : S3x128.Idx → EReal := m ((c : Thread nD τ).loc main_arg8)
abbrev argBeta : S3x128.Idx → EReal := m ((c : Thread nD τ).loc main_arg9)

/-- The aggregation along the edges as a map of matrices. -/
def aggM : Gcn.Mat → Gcn.Mat := fun h => Gcn.cur (aggK (F := Ideal) (Gcn.unc h) (argSrc m c) (argDst m c))
/-- Layer `l`'s two weight matrices, two biases, scale and shift. -/
def Wg (l : Fin 3) : Fin 128 → Fin 128 → EReal := fun a b => argWg m c (ix3 l a b)
def bg (l : Fin 3) : Fin 128 → EReal := fun j => argBg m c (ix2 l j)
def Wr (l : Fin 3) : Fin 128 → Fin 128 → EReal := fun a b => argWr m c (ix3 l a b)
def br (l : Fin 3) : Fin 128 → EReal := fun j => argBr m c (ix2 l j)
def gam (l : Fin 3) : Fin 128 → EReal := fun j => argGamma m c (ix2 l j)
def bet (l : Fin 3) : Fin 128 → EReal := fun j => argBeta m c (ix2 l j)
/-- The constant added under the square root. -/
abbrev eps : EReal := Ideal.ofBits .f32 0x3727C5AC#32
/-- Layer `l` before normalisation, and the whole layer. -/
abbrev preL (l : Fin 3) (h : Gcn.Mat) : Gcn.Mat := Gcn.pre (aggM m c h) h (Wg m c l) (bg m c l) (Wr m c l) (br m c l)
abbrev layerL (l : Fin 3) (h : Gcn.Mat) : Gcn.Mat :=
  Gcn.layerK eps (aggM m c) (Wg m c l) (bg m c l) (Wr m c l) (br m c l) (gam m c l) (bet m c l) h

/-! ## The pieces of a host line as curried functions -/

theorem cur_matOf (A : S3x128x128.Idx → EReal) (off : Fin 3 → ℕ) (l : Fin 3) (h0 : off 0 = l.val) (h1 : off 1 = 0)
    (h2 : off 2 = 0) (hs : S3x128x128.Slices off S1x128x128) :
    Gcn.cur (matOf (F := Ideal) off hs A) = fun a b => A (ix3 l a b) := by
  funext a b; exact mat_read A off l h0 h1 h2 hs _ a b

theorem row_rowOf (A : S3x128.Idx → EReal) (off : Fin 2 → ℕ) (l : Fin 3) (h0 : off 0 = l.val) (h1 : off 1 = 0)
    (hs : S3x128.Slices off S1x128) :
    Gcn.row (rowOf (F := Ideal) off hs A) = fun j => A (ix2 l j) := by
  funext j; exact row_read A off l h0 h1 hs _ _ j

theorem cur_totOf (P : Gcn.Mat) :
    Gcn.cur (totOf (F := Ideal) (fun i => Gcn.tileStats P (i 0) (i 1) (i 2))) = Gcn.totalStats (Gcn.tileStats P) := by
  funext s j; exact tot_read _ reducesTo_S16x2x128_S2x128_d0 (by decide) s j

/-! ## The parameter arrays are as launched at every boundary -/
theorem W1_param {b : Ref sig .tc} (hb : b ∈ params) : W1 m ρ c (Proc.devRef .tc b) = m ((c : Thread nD τ).loc b) :=
  W1_of_ne m ρ c b fun w e => (by decide : ∀ w : Fin cfg0.W, Pipeline.arrRef spec0 w ∉ params) w (e ▸ hb)
theorem W2_param {b : Ref sig .tc} (hb : b ∈ params) : W2 m ρ c (Proc.devRef .tc b) = m ((c : Thread nD τ).loc b) :=
  (line1_param (W1 m ρ c) hb).trans (W1_param m ρ c hb)
theorem W3_param {b : Ref sig .tc} (hb : b ∈ params) : W3 m ρ c (Proc.devRef .tc b) = m ((c : Thread nD τ).loc b) :=
  (W3_of_ne m ρ c b fun w e => (by decide : ∀ w : Fin cfg1.W, Pipeline.arrRef spec1 w ∉ params) w (e ▸ hb)).trans (W2_param m ρ c hb)
theorem W4_param {b : Ref sig .tc} (hb : b ∈ params) : W4 m ρ c (Proc.devRef .tc b) = m ((c : Thread nD τ).loc b) :=
  (line2_param (W3 m ρ c) hb).trans (W3_param m ρ c hb)
theorem W5_param {b : Ref sig .tc} (hb : b ∈ params) : W5 m ρ c (Proc.devRef .tc b) = m ((c : Thread nD τ).loc b) :=
  (W5_of_ne m ρ c b fun w e => (by decide : ∀ w : Fin cfg2.W, Pipeline.arrRef spec2 w ∉ params) w (e ▸ hb)).trans (W4_param m ρ c hb)
theorem W6_param {b : Ref sig .tc} (hb : b ∈ params) : W6 m ρ c (Proc.devRef .tc b) = m ((c : Thread nD τ).loc b) :=
  (line3_param (W5 m ρ c) hb).trans (W5_param m ρ c hb)
theorem W7_param {b : Ref sig .tc} (hb : b ∈ params) : W7 m ρ c (Proc.devRef .tc b) = m ((c : Thread nD τ).loc b) :=
  (W7_of_ne m ρ c b fun w e => (by decide : ∀ w : Fin cfg3.W, Pipeline.arrRef spec3 w ∉ params) w (e ▸ hb)).trans (W6_param m ρ c hb)
theorem W8_param {b : Ref sig .tc} (hb : b ∈ params) : W8 m ρ c (Proc.devRef .tc b) = m ((c : Thread nD τ).loc b) :=
  (line4_param (W7 m ρ c) hb).trans (W7_param m ρ c hb)
theorem W9_param {b : Ref sig .tc} (hb : b ∈ params) : W9 m ρ c (Proc.devRef .tc b) = m ((c : Thread nD τ).loc b) :=
  (W9_of_ne m ρ c b fun w e => (by decide : ∀ w : Fin cfg4.W, Pipeline.arrRef spec4 w ∉ params) w (e ▸ hb)).trans (W8_param m ρ c hb)
theorem W10_param {b : Ref sig .tc} (hb : b ∈ params) : W10 m ρ c (Proc.devRef .tc b) = m ((c : Thread nD τ).loc b) :=
  (line5_param (W9 m ρ c) hb).trans (W9_param m ρ c hb)
theorem W11_param {b : Ref sig .tc} (hb : b ∈ params) : W11 m ρ c (Proc.devRef .tc b) = m ((c : Thread nD τ).loc b) :=
  (W11_of_ne m ρ c b fun w e => (by decide : ∀ w : Fin cfg5.W, Pipeline.arrRef spec5 w ∉ params) w (e ▸ hb)).trans (W10_param m ρ c hb)
theorem W12_param {b : Ref sig .tc} (hb : b ∈ params) : W12 m ρ c (Proc.devRef .tc b) = m ((c : Thread nD τ).loc b) :=
  (line6_param (W11 m ρ c) hb).trans (W11_param m ρ c hb)

end Cert.KernelIdeal.Chain

end
-- ==== Proof.RegionPayloads.lean ====
/-
  What one grid point of each kernel computes, read entry by entry over the extended reals.

  The embedding's block is a block of rows of `X` times the embedding matrix. A layer's block before
  normalisation is `max (agg·Wg + bg) 0 + max (h·Wr + br) 0` on a block of 4640 rows, and beside it the
  kernel stores the block's column sums and the column sums of its squares as the two rows of a
  1 x 2 x 128 array. The normalisation's block is `γ · (x - mean) · rsqrt (max (E[x²] - mean²) 0 + ε) + β`
  with the mean and the mean of squares taken from given totals times the named reciprocal 1/74240.
  A matrix product into a zero accumulator is the sum over the contracted coordinate; a change of float
  format is the identity on the extended reals.
-/
import proofs.«176821_j3375844294866_2_alg».proof.Proof.Gen.KernelIdeal.Skeleton
import proofs.«176821_j3375844294866_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Regions

open Cert.KernelIdeal Cert.KernelIdeal.Gen Idealize.ShloMosaic Idealize.ShloMosaic.ValueIdx

/-- The product of a 4640 x 75 block with a 75 x 128 matrix, accumulated into zeros, read at an entry: the sum over the
    contracted coordinate. -/
theorem dotEmbed_apply (lhs : FVec Ideal S4640x75 .bf16) (rhs : FVec Ideal S75x128 .bf16) (i : Fin 4640) (j : Fin 128) :
    matmul dot_S4640x75_S75x128_S4640x128_1_0_0_1_n_n none lhs rhs (constant (F := Ideal) S4640x128 .f32 0x00000000#32) (ix2 i j)
      = ∑ l : Fin 75, lhs (ix2 i l) * rhs (ix2 l j) := by
  refine (Ideal.matmul_constant_zero_apply _ _ lhs rhs (ix2 i j)).trans ?_
  rw [← Equiv.sum_comp (contrEquiv1 dot_S4640x75_S75x128_S4640x128_1_0_0_1_n_n 75 rfl rfl).symm]
  refine Finset.sum_congr rfl fun l _ => ?_
  have hl : dot_S4640x75_S75x128_S4640x128_1_0_0_1_n_n.lhsIdx (ix2 i j) ((contrEquiv1 dot_S4640x75_S75x128_S4640x128_1_0_0_1_n_n 75 rfl rfl).symm l) = ix2 i l := by
    funext a; apply Fin.ext
    match a with
    | ⟨0, _⟩ => rfl
    | ⟨1, _⟩ => exact (DotDims.lhsIdx_val_of_single _ rfl _ _).trans (contrEquiv1_symm_val _ 75 rfl rfl l)
  have hr : dot_S4640x75_S75x128_S4640x128_1_0_0_1_n_n.rhsIdx (ix2 i j) ((contrEquiv1 dot_S4640x75_S75x128_S4640x128_1_0_0_1_n_n 75 rfl rfl).symm l) = ix2 l j := by
    funext a; apply Fin.ext
    match a with
    | ⟨0, _⟩ => exact (DotDims.rhsIdx_val_of_single _ rfl _ _).trans (contrEquiv1_symm_val _ 75 rfl rfl l)
    | ⟨1, _⟩ => rfl
  rw [hl, hr]

/-- The product of a 4640 x 128 block with a 128 x 128 matrix, accumulated into zeros, read at an entry: the sum over the
    contracted coordinate. -/
theorem dotLayer_apply (lhs : FVec Ideal S4640x128 .bf16) (rhs : FVec Ideal S128x128 .bf16) (i : Fin 4640) (j : Fin 128) :
    matmul dot_S4640x128_S128x128_S4640x128_1_0_0_1_n_n none lhs rhs (constant (F := Ideal) S4640x128 .f32 0x00000000#32) (ix2 i j)
      = ∑ l : Fin 128, lhs (ix2 i l) * rhs (ix2 l j) := by
  refine (Ideal.matmul_constant_zero_apply _ _ lhs rhs (ix2 i j)).trans ?_
  rw [← Equiv.sum_comp (contrEquiv1 dot_S4640x128_S128x128_S4640x128_1_0_0_1_n_n 128 rfl rfl).symm]
  refine Finset.sum_congr rfl fun l _ => ?_
  have hl : dot_S4640x128_S128x128_S4640x128_1_0_0_1_n_n.lhsIdx (ix2 i j) ((contrEquiv1 dot_S4640x128_S128x128_S4640x128_1_0_0_1_n_n 128 rfl rfl).symm l) = ix2 i l := by
    funext a; apply Fin.ext
    match a with
    | ⟨0, _⟩ => rfl
    | ⟨1, _⟩ => exact (DotDims.lhsIdx_val_of_single _ rfl _ _).trans (contrEquiv1_symm_val _ 128 rfl rfl l)
  have hr : dot_S4640x128_S128x128_S4640x128_1_0_0_1_n_n.rhsIdx (ix2 i j) ((contrEquiv1 dot_S4640x128_S128x128_S4640x128_1_0_0_1_n_n 128 rfl rfl).symm l) = ix2 l j := by
    funext a; apply Fin.ext
    match a with
    | ⟨0, _⟩ => exact (DotDims.rhsIdx_val_of_single _ rfl _ _).trans (contrEquiv1_symm_val _ 128 rfl rfl l)
    | ⟨1, _⟩ => rfl
  rw [hl, hr]

/-- The embedding's block: a block of rows of the features times the embedding matrix. -/
theorem k0_pay1_apply (v0 : Vec Ideal S4640x75 .f32) (v2 : Vec Ideal S75x128 .f32) (i : Fin 4640) (j : Fin 128) :
    k0_pay1 (F := Ideal) v0 v2 (ix2 i j) = Gcn.mm (Gcn.cur v0) (Gcn.cur v2) i j := by
  unfold k0_pay1
  exact dotEmbed_apply _ _ i j

/-- The sum over the rows of a 4640 x 128 block, read at a column. -/
theorem colSum_apply (x : FVec Ideal S4640x128 .f32) (hacc : (0x00000000#32 : BitVec 32) = 0x00000000#32) (j : Fin 128) :
    multiReduction (F := Ideal) .add [0] S128 x 0x00000000#32 reduces_S4640x128_S128 (.inl rfl) hacc (ix1 j) = ∑ r : Fin 4640, x (ix2 r j) := by
  refine (Ideal.multiReduction_add_single x 0x00000000#32 reduces_S4640x128_S128 (.inl rfl) hacc (ix1 j)).trans ?_
  refine Finset.sum_congr rfl fun r _ => congrArg x ?_
  funext a; apply Fin.ext
  match a with
  | ⟨0, _⟩ => rfl
  | ⟨1, _⟩ => rfl

/-- The two column sums (of a block and of its squares) laid out as the rows of a 1 x 2 x 128 array. -/
theorem statsLayout (x : FVec Ideal S4640x128 .f32) (u : Fin 1) (s : Fin 2) (j : Fin 128) :
    shapeCast S1x2x128 (concatenate S2x128 0
        [⟨S1x128, shapeCast S1x128 (multiReduction (F := Ideal) .add [0] S128 x 0x00000000#32 reduces_S4640x128_S128 (.inl rfl) rfl) shapeCasts_S128_S1x128⟩,
         ⟨S1x128, shapeCast S1x128 (multiReduction (F := Ideal) .add [0] S128 (mulf x x) 0x00000000#32 reduces_S4640x128_S128 (.inl rfl) rfl) shapeCasts_S128_S1x128⟩]
        concatenates_S1x128_S1x128_S2x128_d0) shapeCasts_S2x128_S1x2x128 (ix3 u s j)
      = if s.val = 0 then ∑ r : Fin 4640, x (ix2 r j) else ∑ r : Fin 4640, x (ix2 r j) * x (ix2 r j) := by
  rw [shapeCast_ab_1ab_apply]
  by_cases hs : s.val = 0
  · rw [if_pos hs]
    refine (concatenate_pair_apply_left (t := S2x128) (s₁ := S1x128) (s₂ := S1x128) (0 : Fin 2) _ _ concatenates_S1x128_S1x128_S2x128_d0 (ix2 s j) rfl (ix2 (0 : Fin 1) j) ?_).trans ?_
    · intro b
      match b with
      | ⟨0, _⟩ => exact hs.symm
      | ⟨1, _⟩ => rfl
    · rw [shapeCast_a_1a_apply]
      exact colSum_apply x rfl j
  · rw [if_neg hs]
    refine (concatenate_pair_apply_right (t := S2x128) (s₁ := S1x128) (s₂ := S1x128) (0 : Fin 2) _ _ concatenates_S1x128_S1x128_S2x128_d0 (ix2 s j) rfl rfl (ix2 (0 : Fin 1) j) ?_ ?_).trans ?_
    · intro b hb
      match b with
      | ⟨0, _⟩ => exact absurd rfl hb
      | ⟨1, _⟩ => rfl
    · show 0 + 1 = s.val
      have := s.isLt; omega
    · rw [shapeCast_a_1a_apply]
      exact colSum_apply (mulf x x) rfl j

/-- The named reciprocal of the number of rows is the rational 1/74240. -/
theorem inv_n : Named.named (F := Ideal) κ "inv_n" (φ := .f32) 0x3761FC78#32 = Gcn.invN :=
  IdealRules.named_const.ideal_named_scalar _ _ _ _ rfl

/-- The layer before normalisation, on one block of rows: entry (i, j) of the stored block. -/
theorem k1_pay1_apply (v0 v3 : Vec Ideal S4640x128 .f32) (v6 v9 : Vec Ideal S128x128 .f32) (v12 v14 : Vec Ideal S1x128 .f32)
    (i : Fin 4640) (j : Fin 128) :
    k1_pay1 (F := Ideal) v0 v3 v6 v9 v12 v14 (ix2 i j)
      = Gcn.pre (Gcn.cur v0) (Gcn.cur v3) (Gcn.cur v6) (Gcn.row v12) (Gcn.cur v9) (Gcn.row v14) i j := by
  unfold k1_pay1
  simp only [shapeCast_self]
  show max (matmul (F := Ideal) dot_S4640x128_S128x128_S4640x128_1_0_0_1_n_n none _ _ _ (ix2 i j) + broadcastTo S4640x128 v12 _ (ix2 i j)) (Ideal.ofBits .f32 0x00000000#32)
      + max (matmul (F := Ideal) dot_S4640x128_S128x128_S4640x128_1_0_0_1_n_n none _ _ _ (ix2 i j) + broadcastTo S4640x128 v14 _ (ix2 i j)) (Ideal.ofBits .f32 0x00000000#32) = _
  rw [dotLayer_apply, dotLayer_apply, broadcastTo_1b_ab_apply, broadcastTo_1b_ab_apply, Ideal.ofBits_zero_f32]
  rfl

/-- The per-tile statistics stored beside the block: row 0 the column sums of the block, row 1 the column sums of its squares. -/
theorem k1_pay2_apply (v0 v3 : Vec Ideal S4640x128 .f32) (v6 v9 : Vec Ideal S128x128 .f32) (v12 v14 : Vec Ideal S1x128 .f32)
    (u : Fin 1) (s : Fin 2) (j : Fin 128) :
    k1_pay2 (F := Ideal) v0 v3 v6 v9 v12 v14 (ix3 u s j)
      = if s.val = 0 then ∑ r : Fin 4640, k1_pay1 (F := Ideal) v0 v3 v6 v9 v12 v14 (ix2 r j)
        else ∑ r : Fin 4640, k1_pay1 (F := Ideal) v0 v3 v6 v9 v12 v14 (ix2 r j) * k1_pay1 (F := Ideal) v0 v3 v6 v9 v12 v14 (ix2 r j) := by
  unfold k1_pay2
  exact statsLayout _ u s j

/-- The layer before normalisation, on one block of rows: entry (i, j) of the stored block. -/
theorem k3_pay1_apply (v0 v3 : Vec Ideal S4640x128 .f32) (v6 v9 : Vec Ideal S128x128 .f32) (v12 v14 : Vec Ideal S1x128 .f32)
    (i : Fin 4640) (j : Fin 128) :
    k3_pay1 (F := Ideal) v0 v3 v6 v9 v12 v14 (ix2 i j)
      = Gcn.pre (Gcn.cur v0) (Gcn.cur v3) (Gcn.cur v6) (Gcn.row v12) (Gcn.cur v9) (Gcn.row v14) i j := by
  unfold k3_pay1
  simp only [shapeCast_self]
  show max (matmul (F := Ideal) dot_S4640x128_S128x128_S4640x128_1_0_0_1_n_n none _ _ _ (ix2 i j) + broadcastTo S4640x128 v12 _ (ix2 i j)) (Ideal.ofBits .f32 0x00000000#32)
      + max (matmul (F := Ideal) dot_S4640x128_S128x128_S4640x128_1_0_0_1_n_n none _ _ _ (ix2 i j) + broadcastTo S4640x128 v14 _ (ix2 i j)) (Ideal.ofBits .f32 0x00000000#32) = _
  rw [dotLayer_apply, dotLayer_apply, broadcastTo_1b_ab_apply, broadcastTo_1b_ab_apply, Ideal.ofBits_zero_f32]
  rfl

/-- The per-tile statistics stored beside the block: row 0 the column sums of the block, row 1 the column sums of its squares. -/
theorem k3_pay2_apply (v0 v3 : Vec Ideal S4640x128 .f32) (v6 v9 : Vec Ideal S128x128 .f32) (v12 v14 : Vec Ideal S1x128 .f32)
    (u : Fin 1) (s : Fin 2) (j : Fin 128) :
    k3_pay2 (F := Ideal) v0 v3 v6 v9 v12 v14 (ix3 u s j)
      = if s.val = 0 then ∑ r : Fin 4640, k3_pay1 (F := Ideal) v0 v3 v6 v9 v12 v14 (ix2 r j)
        else ∑ r : Fin 4640, k3_pay1 (F := Ideal) v0 v3 v6 v9 v12 v14 (ix2 r j) * k3_pay1 (F := Ideal) v0 v3 v6 v9 v12 v14 (ix2 r j) := by
  unfold k3_pay2
  exact statsLayout _ u s j

/-- The layer before normalisation, on one block of rows: entry (i, j) of the stored block. -/
theorem k5_pay1_apply (v0 v3 : Vec Ideal S4640x128 .f32) (v6 v9 : Vec Ideal S128x128 .f32) (v12 v14 : Vec Ideal S1x128 .f32)
    (i : Fin 4640) (j : Fin 128) :
    k5_pay1 (F := Ideal) v0 v3 v6 v9 v12 v14 (ix2 i j)
      = Gcn.pre (Gcn.cur v0) (Gcn.cur v3) (Gcn.cur v6) (Gcn.row v12) (Gcn.cur v9) (Gcn.row v14) i j := by
  unfold k5_pay1
  simp only [shapeCast_self]
  show max (matmul (F := Ideal) dot_S4640x128_S128x128_S4640x128_1_0_0_1_n_n none _ _ _ (ix2 i j) + broadcastTo S4640x128 v12 _ (ix2 i j)) (Ideal.ofBits .f32 0x00000000#32)
      + max (matmul (F := Ideal) dot_S4640x128_S128x128_S4640x128_1_0_0_1_n_n none _ _ _ (ix2 i j) + broadcastTo S4640x128 v14 _ (ix2 i j)) (Ideal.ofBits .f32 0x00000000#32) = _
  rw [dotLayer_apply, dotLayer_apply, broadcastTo_1b_ab_apply, broadcastTo_1b_ab_apply, Ideal.ofBits_zero_f32]
  rfl

/-- The per-tile statistics stored beside the block: row 0 the column sums of the block, row 1 the column sums of its squares. -/
theorem k5_pay2_apply (v0 v3 : Vec Ideal S4640x128 .f32) (v6 v9 : Vec Ideal S128x128 .f32) (v12 v14 : Vec Ideal S1x128 .f32)
    (u : Fin 1) (s : Fin 2) (j : Fin 128) :
    k5_pay2 (F := Ideal) v0 v3 v6 v9 v12 v14 (ix3 u s j)
      = if s.val = 0 then ∑ r : Fin 4640, k5_pay1 (F := Ideal) v0 v3 v6 v9 v12 v14 (ix2 r j)
        else ∑ r : Fin 4640, k5_pay1 (F := Ideal) v0 v3 v6 v9 v12 v14 (ix2 r j) * k5_pay1 (F := Ideal) v0 v3 v6 v9 v12 v14 (ix2 r j) := by
  unfold k5_pay2
  exact statsLayout _ u s j

/-- Normalisation from the total statistics, on one block of rows: entry (i, j) of the stored block. -/
theorem k2_pay1_apply (v0 : Vec Ideal S9280x128 .f32) (v2 v4 v17 v19 : Vec Ideal S1x128 .f32) (i : Fin 9280) (j : Fin 128) :
    k2_pay1 (F := Ideal) v0 v2 v4 v17 v19 (ix2 i j)
      = v17 (ix2 0 j) * (v0 (ix2 i j) - v2 (ix2 0 j) * Gcn.invN)
          * Ideal.rsqrt (max (v4 (ix2 0 j) * Gcn.invN - v2 (ix2 0 j) * Gcn.invN * (v2 (ix2 0 j) * Gcn.invN)) 0 + Ideal.ofBits .f32 0x3727C5AC#32)
        + v19 (ix2 0 j) := by
  unfold k2_pay1
  simp only [shapeCast_self]
  show (broadcastTo S9280x128 v17 _ (ix2 i j) * (v0 (ix2 i j) - broadcastTo S9280x128 _ _ (ix2 i j))) * broadcastTo S9280x128 _ _ (ix2 i j) + broadcastTo S9280x128 v19 _ (ix2 i j) = _
  rw [broadcastTo_1b_ab_apply, broadcastTo_1b_ab_apply, broadcastTo_1b_ab_apply, broadcastTo_1b_ab_apply]
  show v17 (ix2 0 j) * (v0 (ix2 i j) - v2 (ix2 0 j) * Named.named (F := Ideal) κ "inv_n" (φ := .f32) 0x3761FC78#32)
      * Ideal.rsqrt (max (v4 (ix2 0 j) * Named.named (F := Ideal) κ "inv_n" (φ := .f32) 0x3761FC78#32
          - v2 (ix2 0 j) * Named.named (F := Ideal) κ "inv_n" (φ := .f32) 0x3761FC78#32 * (v2 (ix2 0 j) * Named.named (F := Ideal) κ "inv_n" (φ := .f32) 0x3761FC78#32))
          (Ideal.ofBits .f32 0x00000000#32) + Ideal.ofBits .f32 0x3727C5AC#32) + v19 (ix2 0 j) = _
  rw [inv_n, Ideal.ofBits_zero_f32]

/-- Normalisation from the total statistics, on one block of rows: entry (i, j) of the stored block. -/
theorem k4_pay1_apply (v0 : Vec Ideal S9280x128 .f32) (v2 v4 v17 v19 : Vec Ideal S1x128 .f32) (i : Fin 9280) (j : Fin 128) :
    k4_pay1 (F := Ideal) v0 v2 v4 v17 v19 (ix2 i j)
      = v17 (ix2 0 j) * (v0 (ix2 i j) - v2 (ix2 0 j) * Gcn.invN)
          * Ideal.rsqrt (max (v4 (ix2 0 j) * Gcn.invN - v2 (ix2 0 j) * Gcn.invN * (v2 (ix2 0 j) * Gcn.invN)) 0 + Ideal.ofBits .f32 0x3727C5AC#32)
        + v19 (ix2 0 j) := by
  unfold k4_pay1
  simp only [shapeCast_self]
  show (broadcastTo S9280x128 v17 _ (ix2 i j) * (v0 (ix2 i j) - broadcastTo S9280x128 _ _ (ix2 i j))) * broadcastTo S9280x128 _ _ (ix2 i j) + broadcastTo S9280x128 v19 _ (ix2 i j) = _
  rw [broadcastTo_1b_ab_apply, broadcastTo_1b_ab_apply, broadcastTo_1b_ab_apply, broadcastTo_1b_ab_apply]
  show v17 (ix2 0 j) * (v0 (ix2 i j) - v2 (ix2 0 j) * Named.named (F := Ideal) κ "inv_n" (φ := .f32) 0x3761FC78#32)
      * Ideal.rsqrt (max (v4 (ix2 0 j) * Named.named (F := Ideal) κ "inv_n" (φ := .f32) 0x3761FC78#32
          - v2 (ix2 0 j) * Named.named (F := Ideal) κ "inv_n" (φ := .f32) 0x3761FC78#32 * (v2 (ix2 0 j) * Named.named (F := Ideal) κ "inv_n" (φ := .f32) 0x3761FC78#32))
          (Ideal.ofBits .f32 0x00000000#32) + Ideal.ofBits .f32 0x3727C5AC#32) + v19 (ix2 0 j) = _
  rw [inv_n, Ideal.ofBits_zero_f32]

/-- Normalisation from the total statistics, on one block of rows: entry (i, j) of the stored block. -/
theorem k6_pay1_apply (v0 : Vec Ideal S9280x128 .f32) (v2 v4 v17 v19 : Vec Ideal S1x128 .f32) (i : Fin 9280) (j : Fin 128) :
    k6_pay1 (F := Ideal) v0 v2 v4 v17 v19 (ix2 i j)
      = v17 (ix2 0 j) * (v0 (ix2 i j) - v2 (ix2 0 j) * Gcn.invN)
          * Ideal.rsqrt (max (v4 (ix2 0 j) * Gcn.invN - v2 (ix2 0 j) * Gcn.invN * (v2 (ix2 0 j) * Gcn.invN)) 0 + Ideal.ofBits .f32 0x3727C5AC#32)
        + v19 (ix2 0 j) := by
  unfold k6_pay1
  simp only [shapeCast_self]
  show (broadcastTo S9280x128 v17 _ (ix2 i j) * (v0 (ix2 i j) - broadcastTo S9280x128 _ _ (ix2 i j))) * broadcastTo S9280x128 _ _ (ix2 i j) + broadcastTo S9280x128 v19 _ (ix2 i j) = _
  rw [broadcastTo_1b_ab_apply, broadcastTo_1b_ab_apply, broadcastTo_1b_ab_apply, broadcastTo_1b_ab_apply]
  show v17 (ix2 0 j) * (v0 (ix2 i j) - v2 (ix2 0 j) * Named.named (F := Ideal) κ "inv_n" (φ := .f32) 0x3761FC78#32)
      * Ideal.rsqrt (max (v4 (ix2 0 j) * Named.named (F := Ideal) κ "inv_n" (φ := .f32) 0x3761FC78#32
          - v2 (ix2 0 j) * Named.named (F := Ideal) κ "inv_n" (φ := .f32) 0x3761FC78#32 * (v2 (ix2 0 j) * Named.named (F := Ideal) κ "inv_n" (φ := .f32) 0x3761FC78#32))
          (Ideal.ofBits .f32 0x00000000#32) + Ideal.ofBits .f32 0x3727C5AC#32) + v19 (ix2 0 j) = _
  rw [inv_n, Ideal.ofBits_zero_f32]

end Cert.KernelIdeal.Regions

end
-- ==== Proof.RegionPre1.lean ====
/-
  Region 1 as a function of whole arrays. The kernel cuts the 74240 rows into 16 tiles of 4640; at tile `t` it
  computes `max (agg·Wg + bg) 0 + max (h·Wr + br) 0` on the tile's rows of the aggregated array and of the
  current array, with the whole weight matrices and bias rows, writes it back as the same rows of the
  layer's array, and writes the tile's column sums and column sums of squares as entry `t` of a
  16 x 2 x 128 statistics array. Since a row of the layer depends on that row of the two row arrays
  only, the layer's array ends as the layer of the whole arrays, and the statistics array as its
  per-tile statistics.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_1 : (![0, 0] : Fin 2 → Nat) = fun _ => 0 := funext fun a => by fin_cases a <;> rfl
theorem zeros3_1 : (![0, 0, 0] : Fin 3 → Nat) = fun _ => 0 := funext fun a => by fin_cases a <;> rfl

/-- The layer before normalisation, of the whole arrays the region finds: aggregated rows, rows, the two weight
    matrices and the two bias rows. -/
abbrev P1 (c : Dev nD) : Fin 74240 → Fin 128 → EReal :=
  Gcn.pre (Gcn.cur (a := 74240) (b := 128) (V c (Pipeline.arrRef spec1 0))) (Gcn.cur (a := 74240) (b := 128) (V c (Pipeline.arrRef spec1 1)))
    (Gcn.cur (a := 128) (b := 128) (V c (Pipeline.arrRef spec1 2))) (Gcn.row (b := 128) (V c (Pipeline.arrRef spec1 3)))
    (Gcn.cur (a := 128) (b := 128) (V c (Pipeline.arrRef spec1 4))) (Gcn.row (b := 128) (V c (Pipeline.arrRef spec1 5)))

/-- The per-tile statistics of that layer, as an array over 16 x 2 x 128. -/
abbrev T1 (c : Dev nD) : S16x2x128.Idx → EReal := fun i => Gcn.tileStats (P1 V c) (i 0) (i 1) (i 2)

/-- The index maps over the grid: the two row blocks and the two outputs move down one block per point, the weights
    and biases stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- Row block 0 at point `t` is rows `4640 t …` of its array. -/
theorem iblk1_0_apply (c : Dev nD) (t : Fin cfg1.N) (x : S4640x128.Idx) (k : S74240x128.Idx)
    (hk0 : (k 0).val = 4640 * t.val + (x 0).val) (hk1 : (k 1).val = (x 1).val) :
    (iblk1 V c 0 t : Vec Ideal S4640x128 .f32) x = (V c (Pipeline.arrRef spec1 0) : S74240x128.Idx → EReal) k := by
  have e := idx_facts1 t
  unfold iblk1
  rw [View.read_apply]
  refine congrArg (V c (Pipeline.arrRef spec1 0) : S74240x128.Idx → EReal) ?_
  funext a
  apply Fin.ext
  match a with
  | ⟨0, _⟩ => show win1_0.index t 0 * 4640 + 1 * (x 0).val = (k 0).val; rw [hk0]; omega
  | ⟨1, _⟩ => show win1_0.index t 1 * 128 + 1 * (x 1).val = (k 1).val; rw [hk1]; omega

/-- Row block 1 at point `t` is rows `4640 t …` of its array. -/
theorem iblk1_1_apply (c : Dev nD) (t : Fin cfg1.N) (x : S4640x128.Idx) (k : S74240x128.Idx)
    (hk0 : (k 0).val = 4640 * t.val + (x 0).val) (hk1 : (k 1).val = (x 1).val) :
    (iblk1 V c 1 t : Vec Ideal S4640x128 .f32) x = (V c (Pipeline.arrRef spec1 1) : S74240x128.Idx → EReal) k := by
  have e := idx_facts1 t
  unfold iblk1
  rw [View.read_apply]
  refine congrArg (V c (Pipeline.arrRef spec1 1) : S74240x128.Idx → EReal) ?_
  funext a
  apply Fin.ext
  match a with
  | ⟨0, _⟩ => show win1_1.index t 0 * 4640 + 1 * (x 0).val = (k 0).val; rw [hk0]; omega
  | ⟨1, _⟩ => show win1_1.index t 1 * 128 + 1 * (x 1).val = (k 1).val; rw [hk1]; omega

/-- Window 2's block at every point is its whole array. -/
theorem iblk1_2_apply (c : Dev nD) (t : Fin cfg1.N) (x : S128x128.Idx) :
    (iblk1 V c 2 t : Vec Ideal S128x128 .f32) x = (V c (Pipeline.arrRef spec1 2) : S128x128.Idx → EReal) x := by
  have e := idx_facts1 t
  unfold iblk1
  rw [View.read_apply]
  refine congrArg (V c (Pipeline.arrRef spec1 2) : S128x128.Idx → EReal) ?_
  funext a
  apply Fin.ext
  match a with
  | ⟨0, _⟩ => show win1_2.index t 0 * 128 + 1 * (x 0).val = (x 0).val; omega
  | ⟨1, _⟩ => show win1_2.index t 1 * 128 + 1 * (x 1).val = (x 1).val; omega

/-- Window 3's block at every point is its whole array. -/
theorem iblk1_3_apply (c : Dev nD) (t : Fin cfg1.N) (x : S1x128.Idx) :
    (iblk1 V c 3 t : Vec Ideal S1x128 .f32) x = (V c (Pipeline.arrRef spec1 3) : S1x128.Idx → EReal) x := by
  have e := idx_facts1 t
  unfold iblk1
  rw [View.read_apply]
  refine congrArg (V c (Pipeline.arrRef spec1 3) : S1x128.Idx → EReal) ?_
  funext a
  apply Fin.ext
  match a with
  | ⟨0, _⟩ => show win1_3.index t 0 * 1 + 1 * (x 0).val = (x 0).val; omega
  | ⟨1, _⟩ => show win1_3.index t 1 * 128 + 1 * (x 1).val = (x 1).val; omega

/-- Window 4's block at every point is its whole array. -/
theorem iblk1_4_apply (c : Dev nD) (t : Fin cfg1.N) (x : S128x128.Idx) :
    (iblk1 V c 4 t : Vec Ideal S128x128 .f32) x = (V c (Pipeline.arrRef spec1 4) : S128x128.Idx → EReal) x := by
  have e := idx_facts1 t
  unfold iblk1
  rw [View.read_apply]
  refine congrArg (V c (Pipeline.arrRef spec1 4) : S128x128.Idx → EReal) ?_
  funext a
  apply Fin.ext
  match a with
  | ⟨0, _⟩ => show win1_4.index t 0 * 128 + 1 * (x 0).val = (x 0).val; omega
  | ⟨1, _⟩ => show win1_4.index t 1 * 128 + 1 * (x 1).val = (x 1).val; omega

/-- Window 5's block at every point is its whole array. -/
theorem iblk1_5_apply (c : Dev nD) (t : Fin cfg1.N) (x : S1x128.Idx) :
    (iblk1 V c 5 t : Vec Ideal S1x128 .f32) x = (V c (Pipeline.arrRef spec1 5) : S1x128.Idx → EReal) x := by
  have e := idx_facts1 t
  unfold iblk1
  rw [View.read_apply]
  refine congrArg (V c (Pipeline.arrRef spec1 5) : S1x128.Idx → EReal) ?_
  funext a
  apply Fin.ext
  match a with
  | ⟨0, _⟩ => show win1_5.index t 0 * 1 + 1 * (x 0).val = (x 0).val; omega
  | ⟨1, _⟩ => show win1_5.index t 1 * 128 + 1 * (x 1).val = (x 1).val; omega

/-- What point `t` computes at entry `y` of its block is the layer at row `4640 t + y₀`: a row of the layer depends on
    that row of the two row arrays only. -/
theorem pre_point1 (c : Dev nD) (t : Fin cfg1.N) (y : S4640x128.Idx) (k : S74240x128.Idx)
    (hk0 : (k 0).val = 4640 * t.val + (y 0).val) (hk1 : (k 1).val = (y 1).val) :
    k1_pay1 (F := Ideal) (iblk1 V c 0 t) (iblk1 V c 1 t) (iblk1 V c 2 t) (iblk1 V c 4 t) (iblk1 V c 3 t) (iblk1 V c 5 t) y
      = Gcn.unc (P1 V c) k := by
  obtain ⟨i, j, rfl⟩ : ∃ (i : Fin 4640) (j : Fin 128), y = ix2 i j := ⟨y 0, y 1, eq_ix2 y⟩
  refine (k1_pay1_apply (iblk1 V c 0 t) (iblk1 V c 1 t) (iblk1 V c 2 t) (iblk1 V c 4 t) (iblk1 V c 3 t) (iblk1 V c 5 t) i j).trans ?_
  have hj : k 1 = j := Fin.ext hk1
  show Gcn.pre _ _ _ _ _ _ i j = Gcn.pre _ _ _ _ _ _ (k 0) (k 1)
  rw [hj]
  unfold Gcn.pre Gcn.mm
  have h0 : ∀ l : Fin 128, Gcn.cur (iblk1 V c 0 t : Vec Ideal S4640x128 .f32) i l = Gcn.cur (a := 74240) (b := 128) (V c (Pipeline.arrRef spec1 0)) (k 0) l :=
    fun l => iblk1_0_apply V c t (ix2 i l) (ix2 (k 0) l) hk0 rfl
  have h1 : ∀ l : Fin 128, Gcn.cur (iblk1 V c 1 t : Vec Ideal S4640x128 .f32) i l = Gcn.cur (a := 74240) (b := 128) (V c (Pipeline.arrRef spec1 1)) (k 0) l :=
    fun l => iblk1_1_apply V c t (ix2 i l) (ix2 (k 0) l) hk0 rfl
  have h2 : ∀ l : Fin 128, Gcn.cur (iblk1 V c 2 t : Vec Ideal S128x128 .f32) l j = Gcn.cur (a := 128) (b := 128) (V c (Pipeline.arrRef spec1 2)) l j :=
    fun l => iblk1_2_apply V c t (ix2 l j)
  have h3 : Gcn.row (iblk1 V c 3 t : Vec Ideal S1x128 .f32) j = Gcn.row (b := 128) (V c (Pipeline.arrRef spec1 3)) j :=
    iblk1_3_apply V c t (ix2 0 j)
  have h4 : ∀ l : Fin 128, Gcn.cur (iblk1 V c 4 t : Vec Ideal S128x128 .f32) l j = Gcn.cur (a := 128) (b := 128) (V c (Pipeline.arrRef spec1 4)) l j :=
    fun l => iblk1_4_apply V c t (ix2 l j)
  have h5 : Gcn.row (iblk1 V c 5 t : Vec Ideal S1x128 .f32) j = Gcn.row (b := 128) (V c (Pipeline.arrRef spec1 5)) j :=
    iblk1_5_apply V c t (ix2 0 j)
  exact congrArg₂ (· + ·)
    (congrArg₂ max (congrArg₂ (· + ·) (Finset.sum_congr rfl fun l _ => congrArg₂ (· * ·) (h0 l) (h2 l)) h3) rfl)
    (congrArg₂ max (congrArg₂ (· + ·) (Finset.sum_congr rfl fun l _ => congrArg₂ (· * ·) (h1 l) (h4 l)) h5) rfl)

/-- What point `t` writes back to the layer's array is block `t` of the layer of the whole arrays. -/
theorem flushed1_6_eq (c : Dev nD) (t : Fin cfg1.N) :
    (dat1 V c).flushed 6 t = ((cfg1.win 6).blk t).view.read (Elt Ideal) (Gcn.unc (P1 V c)) := by
  show (cfg1.win 6).cut (grid1.coords t) ((dat1 V c).after 6 t) = _
  rw [after1_6]
  unfold out1_6
  rw [View.canon_unit_zero zeros2_1]
  simp only [View.ld_unit_zero (S := S4640x128) zeros2_1, View.ld_unit_zero (S := S128x128) zeros2_1, View.ld_unit_zero (S := S1x128) zeros2_1]
  have e := idx_facts1 t
  funext y
  refine pre_point1 V c t y _ ?_ ?_
  · show win1_6.index t 0 * 4640 + 1 * (y 0).val = 4640 * t.val + (y 0).val; omega
  · show win1_6.index t 1 * 128 + 1 * (y 1).val = (y 1).val; omega

/-- What point `t` computes for the statistics array is tile `t`'s statistics of the layer of the whole arrays. -/
theorem stats_point1 (c : Dev nD) (t : Fin cfg1.N) (y : S1x2x128.Idx) (k : S16x2x128.Idx)
    (hk0 : (k 0).val = t.val + (y 0).val) (hk1 : (k 1).val = (y 1).val) (hk2 : (k 2).val = (y 2).val) :
    k1_pay2 (F := Ideal) (iblk1 V c 0 t) (iblk1 V c 1 t) (iblk1 V c 2 t) (iblk1 V c 4 t) (iblk1 V c 3 t) (iblk1 V c 5 t) y
      = T1 V c k := by
  obtain ⟨u, s, j, rfl⟩ : ∃ (u : Fin 1) (s : Fin 2) (j : Fin 128), y = ix3 u s j := ⟨y 0, y 1, y 2, eq_ix3 y⟩
  refine (k1_pay2_apply (iblk1 V c 0 t) (iblk1 V c 1 t) (iblk1 V c 2 t) (iblk1 V c 4 t) (iblk1 V c 3 t) (iblk1 V c 5 t) u s j).trans ?_
  have hu : u.val = 0 := by omega
  have h0 : (k 0).val = t.val := by rw [hk0]; show t.val + u.val = t.val; omega
  have h1 : (k 1).val = s.val := hk1
  have h2 : k 2 = j := Fin.ext hk2
  have hp : ∀ r : Fin 4640, k1_pay1 (F := Ideal) (iblk1 V c 0 t) (iblk1 V c 1 t) (iblk1 V c 2 t) (iblk1 V c 4 t) (iblk1 V c 3 t) (iblk1 V c 5 t) (ix2 r j)
      = P1 V c (Gcn.tileRow (k 0) r) (k 2) := fun r =>
    (pre_point1 V c t (ix2 r j) (ix2 (Gcn.tileRow (k 0) r) (k 2)) (by show 4640 * (k 0).val + r.val = 4640 * t.val + r.val; rw [h0]) (by show (k 2).val = j.val; rw [h2]))
  show _ = Gcn.tileStats (P1 V c) (k 0) (k 1) (k 2)
  unfold Gcn.tileStats
  by_cases hs : s.val = 0
  · rw [if_pos hs, if_pos (h1.trans hs)]
    exact Finset.sum_congr rfl fun r _ => hp r
  · rw [if_neg hs, if_neg (fun h => hs (h1.symm.trans h))]
    exact Finset.sum_congr rfl fun r _ => congrArg₂ (· * ·) (hp r) (hp r)

/-- What point `t` writes back to the statistics array is block `t` of the per-tile statistics. -/
theorem flushed1_7_eq (c : Dev nD) (t : Fin cfg1.N) :
    (dat1 V c).flushed 7 t = ((cfg1.win 7).blk t).view.read (Elt Ideal) (T1 V c) := by
  show (cfg1.win 7).cut (grid1.coords t) ((dat1 V c).after 7 t) = _
  rw [after1_7]
  unfold out1_7
  rw [View.canon_unit_zero zeros3_1]
  simp only [View.ld_unit_zero (S := S4640x128) zeros2_1, View.ld_unit_zero (S := S128x128) zeros2_1, View.ld_unit_zero (S := S1x128) zeros2_1]
  have e := idx_facts1 t
  funext y
  refine stats_point1 V c t y _ ?_ ?_ ?_
  · show win1_7.index t 0 * 1 + 1 * (y 0).val = t.val + (y 0).val; omega
  · show win1_7.index t 1 * 2 + 1 * (y 1).val = (y 1).val; omega
  · show win1_7.index t 2 * 128 + 1 * (y 2).val = (y 2).val; omega

/-- An index of the layer's array is in point `t`'s block iff each coordinate is in the block's range on its axis. -/
theorem mem_blk1_6 (t : Fin cfg1.N) (i : S74240x128.Idx) :
    i ∈ ((cfg1.win 6).blk t).view.set ↔ ∀ a : Fin 2, win1_6.index t a * S4640x128.size a ≤ (i a).val ∧ (i a).val < win1_6.index t a * S4640x128.size a + S4640x128.size a := by
  show i ∈ ((View.whole main_v23_0).slice (win1_6.rect t)).set ↔ _
  rw [View.set_slice_whole, Rect.mem_set_unit]
  exact Iff.rfl

/-- Row `r` of the layer's array is written by point `r / 4640`. -/
theorem covered1_6 (i : S74240x128.Idx) : ∃ t : Fin cfg1.N, (cfg1.win 6).flush t = true ∧ i ∈ ((cfg1.win 6).blk t).view.set := by
  have hi0 : (i 0).val < 74240 := (i 0).isLt
  have hi1 : (i 1).val < 128 := (i 1).isLt
  have hN : cfg1.N = 16 := N_1
  have e := idx_facts1 ⟨(i 0).val / 4640, by omega⟩
  refine ⟨⟨(i 0).val / 4640, by omega⟩, flush1_6 _, ?_⟩
  rw [mem_blk1_6]
  intro a
  match a with
  | ⟨0, _⟩ =>
    show win1_6.index ⟨(i 0).val / 4640, _⟩ 0 * 4640 ≤ (i 0).val ∧ (i 0).val < win1_6.index ⟨(i 0).val / 4640, _⟩ 0 * 4640 + 4640
    rw [e.2.2.2.2.2.2.2.2.2.2.2.2.1]; show (i 0).val / 4640 * 4640 ≤ (i 0).val ∧ (i 0).val < (i 0).val / 4640 * 4640 + 4640; omega
  | ⟨1, _⟩ =>
    show win1_6.index ⟨(i 0).val / 4640, _⟩ 1 * 128 ≤ (i 1).val ∧ (i 1).val < win1_6.index ⟨(i 0).val / 4640, _⟩ 1 * 128 + 128
    rw [e.2.2.2.2.2.2.2.2.2.2.2.2.2.1]; omega

/-- An index of the statistics array is in point `t`'s block iff each coordinate is in the block's range on its axis. -/
theorem mem_blk1_7 (t : Fin cfg1.N) (i : S16x2x128.Idx) :
    i ∈ ((cfg1.win 7).blk t).view.set ↔ ∀ a : Fin 3, win1_7.index t a * S1x2x128.size a ≤ (i a).val ∧ (i a).val < win1_7.index t a * S1x2x128.size a + S1x2x128.size a := by
  show i ∈ ((View.whole main_v23_1).slice (win1_7.rect t)).set ↔ _
  rw [View.set_slice_whole, Rect.mem_set_unit]
  exact Iff.rfl

/-- Tile `q` of the statistics array is written by point `q`. -/
theorem covered1_7 (i : S16x2x128.Idx) : ∃ t : Fin cfg1.N, (cfg1.win 7).flush t = true ∧ i ∈ ((cfg1.win 7).blk t).view.set := by
  have hi0 : (i 0).val < 16 := (i 0).isLt
  have hi1 : (i 1).val < 2 := (i 1).isLt
  have hi2 : (i 2).val < 128 := (i 2).isLt
  have hN : cfg1.N = 16 := N_1
  have e := idx_facts1 ⟨(i 0).val, by omega⟩
  refine ⟨⟨(i 0).val, by omega⟩, flush1_7 _, ?_⟩
  rw [mem_blk1_7]
  intro a
  match a with
  | ⟨0, _⟩ =>
    show win1_7.index ⟨(i 0).val, _⟩ 0 * 1 ≤ (i 0).val ∧ (i 0).val < win1_7.index ⟨(i 0).val, _⟩ 0 * 1 + 1
    rw [e.2.2.2.2.2.2.2.2.2.2.2.2.2.2.1]; show (i 0).val * 1 ≤ (i 0).val ∧ (i 0).val < (i 0).val * 1 + 1; omega
  | ⟨1, _⟩ =>
    show win1_7.index ⟨(i 0).val, _⟩ 1 * 2 ≤ (i 1).val ∧ (i 1).val < win1_7.index ⟨(i 0).val, _⟩ 1 * 2 + 2
    rw [e.2.2.2.2.2.2.2.2.2.2.2.2.2.2.2.1]; omega
  | ⟨2, _⟩ =>
    show win1_7.index ⟨(i 0).val, _⟩ 2 * 128 ≤ (i 2).val ∧ (i 2).val < win1_7.index ⟨(i 0).val, _⟩ 2 * 128 + 128
    rw [e.2.2.2.2.2.2.2.2.2.2.2.2.2.2.2.2]; omega

/-- After the region the layer's array holds the layer before normalisation of the arrays the region found, -/
theorem final1_6 (c : Dev nD) : (dat1 V c).arrAt 6 cfg1.N = Gcn.unc (P1 V c) :=
  (dat1 V c).arrAt_eq_of_cover 6 (Gcn.unc (P1 V c)) (fun t _ => flushed1_6_eq V c t) covered1_6

/-- and the statistics array its per-tile column sums and sums of squares. -/
theorem final1_7 (c : Dev nD) : (dat1 V c).arrAt 7 cfg1.N = T1 V c :=
  (dat1 V c).arrAt_eq_of_cover 7 (T1 V c) (fun t _ => flushed1_7_eq V c t) covered1_7

end Cert.KernelIdeal.Regions

end
-- ==== Proof.RegionNorm2.lean ====
/-
  Region 2 as a function of whole arrays. The kernel cuts the 74240 rows of the layer into 8 blocks of 9280; at
  every block it reads the two rows of column totals (sum and sum of squares), the scale row and the shift
  row, and writes back `γ · (x - mean) · rsqrt (max (E[x²] - mean²) 0 + ε) + β` on the block's rows, with
  `mean = total₀ / 74240` and `E[x²] = total₁ / 74240` taken as products with the reciprocal. Row `r` of the
  output is written by point `r / 9280` and depends on row `r` of the layer only, so the output array ends as
  the normalisation of the whole layer from the totals the region found.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_2 : (![0, 0] : Fin 2 → Nat) = fun _ => 0 := funext fun a => by fin_cases a <;> rfl

/-- The normalisation from given totals, of the whole arrays the region finds: the layer, the two rows of totals,
    the scale row and the shift row. -/
abbrev N2 (c : Dev nD) : Fin 74240 → Fin 128 → EReal :=
  Gcn.normT (Ideal.ofBits .f32 0x3727C5AC#32) (Gcn.cur (a := 74240) (b := 128) (V c (Pipeline.arrRef spec2 0)))
    (Gcn.cur (a := 2) (b := 128) (V c (Pipeline.arrRef spec2 1))) (Gcn.row (b := 128) (V c (Pipeline.arrRef spec2 2)))
    (Gcn.row (b := 128) (V c (Pipeline.arrRef spec2 3)))

/-- The index maps over the grid: the layer's block and the output's block move down one block of 9280 rows per point,
    the totals and the two rows stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The layer's block at point `t` is rows `9280 t …` of its array. -/
theorem iblk2_0_apply (c : Dev nD) (t : Fin cfg2.N) (x : S9280x128.Idx) (k : S74240x128.Idx)
    (hk0 : (k 0).val = 9280 * t.val + (x 0).val) (hk1 : (k 1).val = (x 1).val) :
    (iblk2 V c 0 t : Vec Ideal S9280x128 .f32) x = (V c (Pipeline.arrRef spec2 0) : S74240x128.Idx → EReal) k := by
  have e := idx_facts2 t
  unfold iblk2
  rw [View.read_apply]
  refine congrArg (V c (Pipeline.arrRef spec2 0) : S74240x128.Idx → EReal) ?_
  funext a
  apply Fin.ext
  match a with
  | ⟨0, _⟩ => show win2_0.index t 0 * 9280 + 1 * (x 0).val = (k 0).val; rw [hk0]; omega
  | ⟨1, _⟩ => show win2_0.index t 1 * 128 + 1 * (x 1).val = (k 1).val; rw [hk1]; omega

/-- Window 1's block at every point is its whole array. -/
theorem iblk2_1_apply (c : Dev nD) (t : Fin cfg2.N) (x : S2x128.Idx) :
    (iblk2 V c 1 t : Vec Ideal S2x128 .f32) x = (V c (Pipeline.arrRef spec2 1) : S2x128.Idx → EReal) x := by
  have e := idx_facts2 t
  unfold iblk2
  rw [View.read_apply]
  refine congrArg (V c (Pipeline.arrRef spec2 1) : S2x128.Idx → EReal) ?_
  funext a
  apply Fin.ext
  match a with
  | ⟨0, _⟩ => show win2_1.index t 0 * 2 + 1 * (x 0).val = (x 0).val; omega
  | ⟨1, _⟩ => show win2_1.index t 1 * 128 + 1 * (x 1).val = (x 1).val; omega

/-- Window 2's block at every point is its whole array. -/
theorem iblk2_2_apply (c : Dev nD) (t : Fin cfg2.N) (x : S1x128.Idx) :
    (iblk2 V c 2 t : Vec Ideal S1x128 .f32) x = (V c (Pipeline.arrRef spec2 2) : S1x128.Idx → EReal) x := by
  have e := idx_facts2 t
  unfold iblk2
  rw [View.read_apply]
  refine congrArg (V c (Pipeline.arrRef spec2 2) : S1x128.Idx → EReal) ?_
  funext a
  apply Fin.ext
  match a with
  | ⟨0, _⟩ => show win2_2.index t 0 * 1 + 1 * (x 0).val = (x 0).val; omega
  | ⟨1, _⟩ => show win2_2.index t 1 * 128 + 1 * (x 1).val = (x 1).val; omega

/-- Window 3's block at every point is its whole array. -/
theorem iblk2_3_apply (c : Dev nD) (t : Fin cfg2.N) (x : S1x128.Idx) :
    (iblk2 V c 3 t : Vec Ideal S1x128 .f32) x = (V c (Pipeline.arrRef spec2 3) : S1x128.Idx → EReal) x := by
  have e := idx_facts2 t
  unfold iblk2
  rw [View.read_apply]
  refine congrArg (V c (Pipeline.arrRef spec2 3) : S1x128.Idx → EReal) ?_
  funext a
  apply Fin.ext
  match a with
  | ⟨0, _⟩ => show win2_3.index t 0 * 1 + 1 * (x 0).val = (x 0).val; omega
  | ⟨1, _⟩ => show win2_3.index t 1 * 128 + 1 * (x 1).val = (x 1).val; omega

/-- The body loads the two rows of the totals separately: the first load reads row 0, -/
theorem ld_totals2_0 (x1 : Vec Ideal S2x128 .f32) (j : Fin 128) : View.ld x1 r2_1 (ix2 (0 : Fin 1) j) = x1 (ix2 (0 : Fin 2) j) := by
  show x1 _ = x1 _
  refine congrArg x1 (funext fun a => Fin.ext ?_)
  match a with
  | ⟨0, _⟩ => rfl
  | ⟨1, _⟩ => show 0 + 1 * j.val = j.val; omega

/-- and the second reads row 1. -/
theorem ld_totals2_1 (x1 : Vec Ideal S2x128 .f32) (j : Fin 128) : View.ld x1 r2_2 (ix2 (0 : Fin 1) j) = x1 (ix2 (1 : Fin 2) j) := by
  show x1 _ = x1 _
  refine congrArg x1 (funext fun a => Fin.ext ?_)
  match a with
  | ⟨0, _⟩ => rfl
  | ⟨1, _⟩ => show 0 + 1 * j.val = j.val; omega

/-- The normalised entry is a function of five numbers: the scale, the entry, the two totals and the shift. -/
theorem norm_entry_congr2 {g x m0 m1 b g' x' m0' m1' b' e : EReal} (hg : g = g') (hx : x = x') (h0 : m0 = m0') (h1 : m1 = m1') (hb : b = b') :
    g * (x - m0 * Gcn.invN) * Ideal.rsqrt (max (m1 * Gcn.invN - m0 * Gcn.invN * (m0 * Gcn.invN)) 0 + e) + b
      = g' * (x' - m0' * Gcn.invN) * Ideal.rsqrt (max (m1' * Gcn.invN - m0' * Gcn.invN * (m0' * Gcn.invN)) 0 + e) + b' := by
  subst hg hx h0 h1 hb; rfl

/-- What point `t` computes at entry `y` of its block is the normalised layer at row `9280 t + y₀`. -/
theorem norm_point2 (c : Dev nD) (t : Fin cfg2.N) (y : S9280x128.Idx) (k : S74240x128.Idx)
    (hk0 : (k 0).val = 9280 * t.val + (y 0).val) (hk1 : (k 1).val = (y 1).val) :
    k2_pay1 (F := Ideal) (iblk2 V c 0 t) (View.ld (iblk2 V c 1 t) r2_1) (View.ld (iblk2 V c 1 t) r2_2) (iblk2 V c 2 t) (iblk2 V c 3 t) y
      = Gcn.unc (N2 V c) k := by
  obtain ⟨i, j, rfl⟩ : ∃ (i : Fin 9280) (j : Fin 128), y = ix2 i j := ⟨y 0, y 1, eq_ix2 y⟩
  refine (k2_pay1_apply (iblk2 V c 0 t) (View.ld (iblk2 V c 1 t) r2_1) (View.ld (iblk2 V c 1 t) r2_2) (iblk2 V c 2 t) (iblk2 V c 3 t) i j).trans ?_
  have hj : k 1 = j := Fin.ext hk1
  show _ = Gcn.normT _ _ _ _ _ (k 0) (k 1)
  rw [hj]
  unfold Gcn.normT
  exact norm_entry_congr2
    (iblk2_2_apply V c t (ix2 0 j))
    (iblk2_0_apply V c t (ix2 i j) (ix2 (k 0) j) hk0 rfl)
    ((ld_totals2_0 (iblk2 V c 1 t) j).trans (iblk2_1_apply V c t (ix2 0 j)))
    ((ld_totals2_1 (iblk2 V c 1 t) j).trans (iblk2_1_apply V c t (ix2 1 j)))
    (iblk2_3_apply V c t (ix2 0 j))

/-- What point `t` writes back is block `t` of the normalised layer of the whole arrays. -/
theorem flushed2_4_eq (c : Dev nD) (t : Fin cfg2.N) :
    (dat2 V c).flushed 4 t = ((cfg2.win 4).blk t).view.read (Elt Ideal) (Gcn.unc (N2 V c)) := by
  show (cfg2.win 4).cut (grid2.coords t) ((dat2 V c).after 4 t) = _
  rw [after2_4]
  unfold out2_4
  rw [View.canon_unit_zero zeros2_2]
  simp only [View.ld_unit_zero (S := S9280x128) zeros2_2, View.ld_unit_zero (S := S1x128) zeros2_2]
  have e := idx_facts2 t
  funext y
  refine norm_point2 V c t y _ ?_ ?_
  · show win2_4.index t 0 * 9280 + 1 * (y 0).val = 9280 * t.val + (y 0).val; omega
  · show win2_4.index t 1 * 128 + 1 * (y 1).val = (y 1).val; omega

/-- An index of the output array is in point `t`'s block iff each coordinate is in the block's range on its axis. -/
theorem mem_blk2_4 (t : Fin cfg2.N) (i : S74240x128.Idx) :
    i ∈ ((cfg2.win 4).blk t).view.set ↔ ∀ a : Fin 2, win2_4.index t a * S9280x128.size a ≤ (i a).val ∧ (i a).val < win2_4.index t a * S9280x128.size a + S9280x128.size a := by
  show i ∈ ((View.whole main_v31).slice (win2_4.rect t)).set ↔ _
  rw [View.set_slice_whole, Rect.mem_set_unit]
  exact Iff.rfl

/-- Row `r` of the output is written by point `r / 9280`. -/
theorem covered2_4 (i : S74240x128.Idx) : ∃ t : Fin cfg2.N, (cfg2.win 4).flush t = true ∧ i ∈ ((cfg2.win 4).blk t).view.set := by
  have hi0 : (i 0).val < 74240 := (i 0).isLt
  have hi1 : (i 1).val < 128 := (i 1).isLt
  have hN : cfg2.N = 8 := N_2
  have e := idx_facts2 ⟨(i 0).val / 9280, by omega⟩
  refine ⟨⟨(i 0).val / 9280, by omega⟩, flush2_4 _, ?_⟩
  rw [mem_blk2_4]
  intro a
  match a with
  | ⟨0, _⟩ =>
    show win2_4.index ⟨(i 0).val / 9280, _⟩ 0 * 9280 ≤ (i 0).val ∧ (i 0).val < win2_4.index ⟨(i 0).val / 9280, _⟩ 0 * 9280 + 9280
    rw [e.2.2.2.2.2.2.2.2.1]; show (i 0).val / 9280 * 9280 ≤ (i 0).val ∧ (i 0).val < (i 0).val / 9280 * 9280 + 9280; omega
  | ⟨1, _⟩ =>
    show win2_4.index ⟨(i 0).val / 9280, _⟩ 1 * 128 ≤ (i 1).val ∧ (i 1).val < win2_4.index ⟨(i 0).val / 9280, _⟩ 1 * 128 + 128
    rw [e.2.2.2.2.2.2.2.2.2]; omega

/-- After the region the output array holds the normalisation, from the totals the region found, of the layer it found. -/
theorem final2_4 (c : Dev nD) : (dat2 V c).arrAt 4 cfg2.N = Gcn.unc (N2 V c) :=
  (dat2 V c).arrAt_eq_of_cover 4 (Gcn.unc (N2 V c)) (fun t _ => flushed2_4_eq V c t) covered2_4

end Cert.KernelIdeal.Regions

end
-- ==== Proof.KernelChainLayer1.lean ====
/-
  Layer 1 of the kernel's run: from the features at its entry to the normalised layer at its exit.

  The host line before the layer's first launch leaves the aggregated features and the layer's weights and biases
  in the buffers that launch stages; the launch leaves the layer before normalisation and, per tile of 4640 rows,
  each column's sum and sum of squares. The next host line adds the sixteen tiles' statistics and leaves the layer's
  scale and shift; the second launch normalises every column from those totals. Whatever matrix `h` the features
  buffer holds at the layer's entry, the exit buffer holds the layer applied to `h`.
-/
import proofs.«176821_j3375844294866_2_alg».proof.Proof.KernelChainBase
import proofs.«176821_j3375844294866_2_alg».proof.Proof.RegionPre1
import proofs.«176821_j3375844294866_2_alg».proof.Proof.RegionNorm2

set_option maxRecDepth 16384

noncomputable section

namespace Cert.KernelIdeal.Chain

open Idealize.ShloMosaic Idealize.ShloMosaic.TcCoe Idealize.ShloMosaic.ValueIdx Idealize.SL.Sem
open Cert.KernelIdeal.Gen

variable (m : (ℓ : Loc nD τ sig) → Buf (Elt Ideal) ℓ) (ρ : Dev nD → PrngReg) (c : Dev nD)

/-! ## Layer 1: launches 1 and 2 -/

section
variable (h : Gcn.Mat) (hh : W1 m ρ c (Proc.devRef .tc main_v0) = Gcn.unc h)
include hh

/-- What launch 1 stages: the aggregated features, the features, and the layer's weights and biases. -/
theorem in1_0 : V2 m ρ c (Pipeline.arrRef spec1 0) = aggK (F := Ideal) (Gcn.unc h) (argSrc m c) (argDst m c) := by
  refine (line1_agg (W1 m ρ c)).trans ?_
  rw [hh, W1_param m ρ c (b := main_arg1) (by decide), W1_param m ρ c (b := main_arg2) (by decide)]
theorem in1_1 : V2 m ρ c (Pipeline.arrRef spec1 1) = Gcn.unc h := (line1_h (W1 m ρ c)).trans hh
theorem in1_2 : V2 m ρ c (Pipeline.arrRef spec1 2)
    = matOf (F := Ideal) ![0, 0, 0] slices_S3x128x128_S1x128x128_0_0_0 (argWg m c) :=
  (line1_Wg (W1 m ρ c)).trans (congrArg _ (W1_param m ρ c (b := main_arg4) (by decide)))
theorem in1_3 : V2 m ρ c (Pipeline.arrRef spec1 3)
    = rowOf (F := Ideal) ![0, 0] slices_S3x128_S1x128_0_0 (argBg m c) :=
  (line1_bg (W1 m ρ c)).trans (congrArg _ (W1_param m ρ c (b := main_arg5) (by decide)))
theorem in1_4 : V2 m ρ c (Pipeline.arrRef spec1 4)
    = matOf (F := Ideal) ![0, 0, 0] slices_S3x128x128_S1x128x128_0_0_0 (argWr m c) :=
  (line1_Wr (W1 m ρ c)).trans (congrArg _ (W1_param m ρ c (b := main_arg6) (by decide)))
theorem in1_5 : V2 m ρ c (Pipeline.arrRef spec1 5)
    = rowOf (F := Ideal) ![0, 0] slices_S3x128_S1x128_0_0 (argBr m c) :=
  (line1_br (W1 m ρ c)).trans (congrArg _ (W1_param m ρ c (b := main_arg7) (by decide)))

/-- The layer before normalisation, as launch 1 computes it from what it stages. -/
theorem pre1 : Regions.P1 (V2 m ρ) c = preL m c 0 h := by
  unfold Regions.P1
  rw [in1_0 m ρ c h hh, in1_1 m ρ c h hh, in1_2 m ρ c h hh, in1_3 m ρ c h hh, in1_4 m ρ c h hh, in1_5 m ρ c h hh,
    cur_matOf _ ![0, 0, 0] 0 rfl rfl rfl, row_rowOf _ ![0, 0] 0 rfl rfl, cur_matOf _ ![0, 0, 0] 0 rfl rfl rfl, row_rowOf _ ![0, 0] 0 rfl rfl]
  rfl

/-- What launch 1 leaves: the layer before normalisation and its per-tile statistics. -/
theorem out1_p : W3 m ρ c (Proc.devRef .tc main_v23_0) = Gcn.unc (preL m c 0 h) :=
  ((W3_arr m ρ c 6).trans (Regions.final1_6 (V2 m ρ) c)).trans (congrArg Gcn.unc (pre1 m ρ c h hh))
theorem out1_st : W3 m ρ c (Proc.devRef .tc main_v23_1)
    = fun i => Gcn.tileStats (preL m c 0 h) (i 0) (i 1) (i 2) :=
  ((W3_arr m ρ c 7).trans (Regions.final1_7 (V2 m ρ) c)).trans
    (congrArg (fun (P : Gcn.Mat) (i : S16x2x128.Idx) => Gcn.tileStats P (i 0) (i 1) (i 2)) (pre1 m ρ c h hh))

/-- What launch 2 stages: that layer, the statistics' totals, and the layer's scale and shift. -/
theorem in2_0 : V4 m ρ c (Pipeline.arrRef spec2 0) = Gcn.unc (preL m c 0 h) :=
  (line2_p (W3 m ρ c)).trans (out1_p m ρ c h hh)
theorem in2_1 : V4 m ρ c (Pipeline.arrRef spec2 1)
    = totOf (F := Ideal) (fun i => Gcn.tileStats (preL m c 0 h) (i 0) (i 1) (i 2)) :=
  (line2_tot (W3 m ρ c)).trans (congrArg totOf (out1_st m ρ c h hh))
theorem in2_2 : V4 m ρ c (Pipeline.arrRef spec2 2)
    = rowOf (F := Ideal) ![0, 0] slices_S3x128_S1x128_0_0 (argGamma m c) :=
  (line2_gamma (W3 m ρ c)).trans (congrArg _ (W3_param m ρ c (b := main_arg8) (by decide)))
theorem in2_3 : V4 m ρ c (Pipeline.arrRef spec2 3)
    = rowOf (F := Ideal) ![0, 0] slices_S3x128_S1x128_0_0 (argBeta m c) :=
  (line2_beta (W3 m ρ c)).trans (congrArg _ (W3_param m ρ c (b := main_arg9) (by decide)))

/-- Launch 2 leaves the whole layer applied to the features the layer started from. -/
theorem layer1 : W5 m ρ c (Proc.devRef .tc main_v31) = Gcn.unc (layerL m c 0 h) := by
  refine ((W5_arr m ρ c 4).trans (Regions.final2_4 (V4 m ρ) c)).trans (congrArg Gcn.unc ?_)
  unfold Regions.N2
  rw [in2_0 m ρ c h hh, in2_1 m ρ c h hh, in2_2 m ρ c h hh, in2_3 m ρ c h hh, cur_totOf,
    row_rowOf _ ![0, 0] 0 rfl rfl, row_rowOf _ ![0, 0] 0 rfl rfl]
  rfl

end

end Cert.KernelIdeal.Chain

end
-- ==== Proof.RegionPre3.lean ====
/-
  Region 3 as a function of whole arrays. The kernel cuts the 74240 rows into 16 tiles of 4640; at tile `t` it
  computes `max (agg·Wg + bg) 0 + max (h·Wr + br) 0` on the tile's rows of the aggregated array and of the
  current array, with the whole weight matrices and bias rows, writes it back as the same rows of the
  layer's array, and writes the tile's column sums and column sums of squares as entry `t` of a
  16 x 2 x 128 statistics array. Since a row of the layer depends on that row of the two row arrays
  only, the layer's array ends as the layer of the whole arrays, and the statistics array as its
  per-tile statistics.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_3 : (![0, 0] : Fin 2 → Nat) = fun _ => 0 := funext fun a => by fin_cases a <;> rfl
theorem zeros3_3 : (![0, 0, 0] : Fin 3 → Nat) = fun _ => 0 := funext fun a => by fin_cases a <;> rfl

/-- The layer before normalisation, of the whole arrays the region finds: aggregated rows, rows, the two weight
    matrices and the two bias rows. -/
abbrev P3 (c : Dev nD) : Fin 74240 → Fin 128 → EReal :=
  Gcn.pre (Gcn.cur (a := 74240) (b := 128) (V c (Pipeline.arrRef spec3 0))) (Gcn.cur (a := 74240) (b := 128) (V c (Pipeline.arrRef spec3 1)))
    (Gcn.cur (a := 128) (b := 128) (V c (Pipeline.arrRef spec3 2))) (Gcn.row (b := 128) (V c (Pipeline.arrRef spec3 3)))
    (Gcn.cur (a := 128) (b := 128) (V c (Pipeline.arrRef spec3 4))) (Gcn.row (b := 128) (V c (Pipeline.arrRef spec3 5)))

/-- The per-tile statistics of that layer, as an array over 16 x 2 x 128. -/
abbrev T3 (c : Dev nD) : S16x2x128.Idx → EReal := fun i => Gcn.tileStats (P3 V c) (i 0) (i 1) (i 2)

/-- The index maps over the grid: the two row blocks and the two outputs move down one block per point, the weights
    and biases stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 3) = t.val ∧ win3_7.index t (1 : Fin 3) = 0 ∧ win3_7.index t (2 : Fin 3) = 0 :=
  (by decide +kernel : ∀ t : Fin grid3.N, _)

/-- Row block 0 at point `t` is rows `4640 t …` of its array. -/
theorem iblk3_0_apply (c : Dev nD) (t : Fin cfg3.N) (x : S4640x128.Idx) (k : S74240x128.Idx)
    (hk0 : (k 0).val = 4640 * t.val + (x 0).val) (hk1 : (k 1).val = (x 1).val) :
    (iblk3 V c 0 t : Vec Ideal S4640x128 .f32) x = (V c (Pipeline.arrRef spec3 0) : S74240x128.Idx → EReal) k := by
  have e := idx_facts3 t
  unfold iblk3
  rw [View.read_apply]
  refine congrArg (V c (Pipeline.arrRef spec3 0) : S74240x128.Idx → EReal) ?_
  funext a
  apply Fin.ext
  match a with
  | ⟨0, _⟩ => show win3_0.index t 0 * 4640 + 1 * (x 0).val = (k 0).val; rw [hk0]; omega
  | ⟨1, _⟩ => show win3_0.index t 1 * 128 + 1 * (x 1).val = (k 1).val; rw [hk1]; omega

/-- Row block 1 at point `t` is rows `4640 t …` of its array. -/
theorem iblk3_1_apply (c : Dev nD) (t : Fin cfg3.N) (x : S4640x128.Idx) (k : S74240x128.Idx)
    (hk0 : (k 0).val = 4640 * t.val + (x 0).val) (hk1 : (k 1).val = (x 1).val) :
    (iblk3 V c 1 t : Vec Ideal S4640x128 .f32) x = (V c (Pipeline.arrRef spec3 1) : S74240x128.Idx → EReal) k := by
  have e := idx_facts3 t
  unfold iblk3
  rw [View.read_apply]
  refine congrArg (V c (Pipeline.arrRef spec3 1) : S74240x128.Idx → EReal) ?_
  funext a
  apply Fin.ext
  match a with
  | ⟨0, _⟩ => show win3_1.index t 0 * 4640 + 1 * (x 0).val = (k 0).val; rw [hk0]; omega
  | ⟨1, _⟩ => show win3_1.index t 1 * 128 + 1 * (x 1).val = (k 1).val; rw [hk1]; omega

/-- Window 2's block at every point is its whole array. -/
theorem iblk3_2_apply (c : Dev nD) (t : Fin cfg3.N) (x : S128x128.Idx) :
    (iblk3 V c 2 t : Vec Ideal S128x128 .f32) x = (V c (Pipeline.arrRef spec3 2) : S128x128.Idx → EReal) x := by
  have e := idx_facts3 t
  unfold iblk3
  rw [View.read_apply]
  refine congrArg (V c (Pipeline.arrRef spec3 2) : S128x128.Idx → EReal) ?_
  funext a
  apply Fin.ext
  match a with
  | ⟨0, _⟩ => show win3_2.index t 0 * 128 + 1 * (x 0).val = (x 0).val; omega
  | ⟨1, _⟩ => show win3_2.index t 1 * 128 + 1 * (x 1).val = (x 1).val; omega

/-- Window 3's block at every point is its whole array. -/
theorem iblk3_3_apply (c : Dev nD) (t : Fin cfg3.N) (x : S1x128.Idx) :
    (iblk3 V c 3 t : Vec Ideal S1x128 .f32) x = (V c (Pipeline.arrRef spec3 3) : S1x128.Idx → EReal) x := by
  have e := idx_facts3 t
  unfold iblk3
  rw [View.read_apply]
  refine congrArg (V c (Pipeline.arrRef spec3 3) : S1x128.Idx → EReal) ?_
  funext a
  apply Fin.ext
  match a with
  | ⟨0, _⟩ => show win3_3.index t 0 * 1 + 1 * (x 0).val = (x 0).val; omega
  | ⟨1, _⟩ => show win3_3.index t 1 * 128 + 1 * (x 1).val = (x 1).val; omega

/-- Window 4's block at every point is its whole array. -/
theorem iblk3_4_apply (c : Dev nD) (t : Fin cfg3.N) (x : S128x128.Idx) :
    (iblk3 V c 4 t : Vec Ideal S128x128 .f32) x = (V c (Pipeline.arrRef spec3 4) : S128x128.Idx → EReal) x := by
  have e := idx_facts3 t
  unfold iblk3
  rw [View.read_apply]
  refine congrArg (V c (Pipeline.arrRef spec3 4) : S128x128.Idx → EReal) ?_
  funext a
  apply Fin.ext
  match a with
  | ⟨0, _⟩ => show win3_4.index t 0 * 128 + 1 * (x 0).val = (x 0).val; omega
  | ⟨1, _⟩ => show win3_4.index t 1 * 128 + 1 * (x 1).val = (x 1).val; omega

/-- Window 5's block at every point is its whole array. -/
theorem iblk3_5_apply (c : Dev nD) (t : Fin cfg3.N) (x : S1x128.Idx) :
    (iblk3 V c 5 t : Vec Ideal S1x128 .f32) x = (V c (Pipeline.arrRef spec3 5) : S1x128.Idx → EReal) x := by
  have e := idx_facts3 t
  unfold iblk3
  rw [View.read_apply]
  refine congrArg (V c (Pipeline.arrRef spec3 5) : S1x128.Idx → EReal) ?_
  funext a
  apply Fin.ext
  match a with
  | ⟨0, _⟩ => show win3_5.index t 0 * 1 + 1 * (x 0).val = (x 0).val; omega
  | ⟨1, _⟩ => show win3_5.index t 1 * 128 + 1 * (x 1).val = (x 1).val; omega

/-- What point `t` computes at entry `y` of its block is the layer at row `4640 t + y₀`: a row of the layer depends on
    that row of the two row arrays only. -/
theorem pre_point3 (c : Dev nD) (t : Fin cfg3.N) (y : S4640x128.Idx) (k : S74240x128.Idx)
    (hk0 : (k 0).val = 4640 * t.val + (y 0).val) (hk1 : (k 1).val = (y 1).val) :
    k3_pay1 (F := Ideal) (iblk3 V c 0 t) (iblk3 V c 1 t) (iblk3 V c 2 t) (iblk3 V c 4 t) (iblk3 V c 3 t) (iblk3 V c 5 t) y
      = Gcn.unc (P3 V c) k := by
  obtain ⟨i, j, rfl⟩ : ∃ (i : Fin 4640) (j : Fin 128), y = ix2 i j := ⟨y 0, y 1, eq_ix2 y⟩
  refine (k3_pay1_apply (iblk3 V c 0 t) (iblk3 V c 1 t) (iblk3 V c 2 t) (iblk3 V c 4 t) (iblk3 V c 3 t) (iblk3 V c 5 t) i j).trans ?_
  have hj : k 1 = j := Fin.ext hk1
  show Gcn.pre _ _ _ _ _ _ i j = Gcn.pre _ _ _ _ _ _ (k 0) (k 1)
  rw [hj]
  unfold Gcn.pre Gcn.mm
  have h0 : ∀ l : Fin 128, Gcn.cur (iblk3 V c 0 t : Vec Ideal S4640x128 .f32) i l = Gcn.cur (a := 74240) (b := 128) (V c (Pipeline.arrRef spec3 0)) (k 0) l :=
    fun l => iblk3_0_apply V c t (ix2 i l) (ix2 (k 0) l) hk0 rfl
  have h1 : ∀ l : Fin 128, Gcn.cur (iblk3 V c 1 t : Vec Ideal S4640x128 .f32) i l = Gcn.cur (a := 74240) (b := 128) (V c (Pipeline.arrRef spec3 1)) (k 0) l :=
    fun l => iblk3_1_apply V c t (ix2 i l) (ix2 (k 0) l) hk0 rfl
  have h2 : ∀ l : Fin 128, Gcn.cur (iblk3 V c 2 t : Vec Ideal S128x128 .f32) l j = Gcn.cur (a := 128) (b := 128) (V c (Pipeline.arrRef spec3 2)) l j :=
    fun l => iblk3_2_apply V c t (ix2 l j)
  have h3 : Gcn.row (iblk3 V c 3 t : Vec Ideal S1x128 .f32) j = Gcn.row (b := 128) (V c (Pipeline.arrRef spec3 3)) j :=
    iblk3_3_apply V c t (ix2 0 j)
  have h4 : ∀ l : Fin 128, Gcn.cur (iblk3 V c 4 t : Vec Ideal S128x128 .f32) l j = Gcn.cur (a := 128) (b := 128) (V c (Pipeline.arrRef spec3 4)) l j :=
    fun l => iblk3_4_apply V c t (ix2 l j)
  have h5 : Gcn.row (iblk3 V c 5 t : Vec Ideal S1x128 .f32) j = Gcn.row (b := 128) (V c (Pipeline.arrRef spec3 5)) j :=
    iblk3_5_apply V c t (ix2 0 j)
  exact congrArg₂ (· + ·)
    (congrArg₂ max (congrArg₂ (· + ·) (Finset.sum_congr rfl fun l _ => congrArg₂ (· * ·) (h0 l) (h2 l)) h3) rfl)
    (congrArg₂ max (congrArg₂ (· + ·) (Finset.sum_congr rfl fun l _ => congrArg₂ (· * ·) (h1 l) (h4 l)) h5) rfl)

/-- What point `t` writes back to the layer's array is block `t` of the layer of the whole arrays. -/
theorem flushed3_6_eq (c : Dev nD) (t : Fin cfg3.N) :
    (dat3 V c).flushed 6 t = ((cfg3.win 6).blk t).view.read (Elt Ideal) (Gcn.unc (P3 V c)) := by
  show (cfg3.win 6).cut (grid3.coords t) ((dat3 V c).after 6 t) = _
  rw [after3_6]
  unfold out3_6
  rw [View.canon_unit_zero zeros2_3]
  simp only [View.ld_unit_zero (S := S4640x128) zeros2_3, View.ld_unit_zero (S := S128x128) zeros2_3, View.ld_unit_zero (S := S1x128) zeros2_3]
  have e := idx_facts3 t
  funext y
  refine pre_point3 V c t y _ ?_ ?_
  · show win3_6.index t 0 * 4640 + 1 * (y 0).val = 4640 * t.val + (y 0).val; omega
  · show win3_6.index t 1 * 128 + 1 * (y 1).val = (y 1).val; omega

/-- What point `t` computes for the statistics array is tile `t`'s statistics of the layer of the whole arrays. -/
theorem stats_point3 (c : Dev nD) (t : Fin cfg3.N) (y : S1x2x128.Idx) (k : S16x2x128.Idx)
    (hk0 : (k 0).val = t.val + (y 0).val) (hk1 : (k 1).val = (y 1).val) (hk2 : (k 2).val = (y 2).val) :
    k3_pay2 (F := Ideal) (iblk3 V c 0 t) (iblk3 V c 1 t) (iblk3 V c 2 t) (iblk3 V c 4 t) (iblk3 V c 3 t) (iblk3 V c 5 t) y
      = T3 V c k := by
  obtain ⟨u, s, j, rfl⟩ : ∃ (u : Fin 1) (s : Fin 2) (j : Fin 128), y = ix3 u s j := ⟨y 0, y 1, y 2, eq_ix3 y⟩
  refine (k3_pay2_apply (iblk3 V c 0 t) (iblk3 V c 1 t) (iblk3 V c 2 t) (iblk3 V c 4 t) (iblk3 V c 3 t) (iblk3 V c 5 t) u s j).trans ?_
  have hu : u.val = 0 := by omega
  have h0 : (k 0).val = t.val := by rw [hk0]; show t.val + u.val = t.val; omega
  have h1 : (k 1).val = s.val := hk1
  have h2 : k 2 = j := Fin.ext hk2
  have hp : ∀ r : Fin 4640, k3_pay1 (F := Ideal) (iblk3 V c 0 t) (iblk3 V c 1 t) (iblk3 V c 2 t) (iblk3 V c 4 t) (iblk3 V c 3 t) (iblk3 V c 5 t) (ix2 r j)
      = P3 V c (Gcn.tileRow (k 0) r) (k 2) := fun r =>
    (pre_point3 V c t (ix2 r j) (ix2 (Gcn.tileRow (k 0) r) (k 2)) (by show 4640 * (k 0).val + r.val = 4640 * t.val + r.val; rw [h0]) (by show (k 2).val = j.val; rw [h2]))
  show _ = Gcn.tileStats (P3 V c) (k 0) (k 1) (k 2)
  unfold Gcn.tileStats
  by_cases hs : s.val = 0
  · rw [if_pos hs, if_pos (h1.trans hs)]
    exact Finset.sum_congr rfl fun r _ => hp r
  · rw [if_neg hs, if_neg (fun h => hs (h1.symm.trans h))]
    exact Finset.sum_congr rfl fun r _ => congrArg₂ (· * ·) (hp r) (hp r)

/-- What point `t` writes back to the statistics array is block `t` of the per-tile statistics. -/
theorem flushed3_7_eq (c : Dev nD) (t : Fin cfg3.N) :
    (dat3 V c).flushed 7 t = ((cfg3.win 7).blk t).view.read (Elt Ideal) (T3 V c) := by
  show (cfg3.win 7).cut (grid3.coords t) ((dat3 V c).after 7 t) = _
  rw [after3_7]
  unfold out3_7
  rw [View.canon_unit_zero zeros3_3]
  simp only [View.ld_unit_zero (S := S4640x128) zeros2_3, View.ld_unit_zero (S := S128x128) zeros2_3, View.ld_unit_zero (S := S1x128) zeros2_3]
  have e := idx_facts3 t
  funext y
  refine stats_point3 V c t y _ ?_ ?_ ?_
  · show win3_7.index t 0 * 1 + 1 * (y 0).val = t.val + (y 0).val; omega
  · show win3_7.index t 1 * 2 + 1 * (y 1).val = (y 1).val; omega
  · show win3_7.index t 2 * 128 + 1 * (y 2).val = (y 2).val; omega

/-- An index of the layer's array is in point `t`'s block iff each coordinate is in the block's range on its axis. -/
theorem mem_blk3_6 (t : Fin cfg3.N) (i : S74240x128.Idx) :
    i ∈ ((cfg3.win 6).blk t).view.set ↔ ∀ a : Fin 2, win3_6.index t a * S4640x128.size a ≤ (i a).val ∧ (i a).val < win3_6.index t a * S4640x128.size a + S4640x128.size a := by
  show i ∈ ((View.whole main_v54_0).slice (win3_6.rect t)).set ↔ _
  rw [View.set_slice_whole, Rect.mem_set_unit]
  exact Iff.rfl

/-- Row `r` of the layer's array is written by point `r / 4640`. -/
theorem covered3_6 (i : S74240x128.Idx) : ∃ t : Fin cfg3.N, (cfg3.win 6).flush t = true ∧ i ∈ ((cfg3.win 6).blk t).view.set := by
  have hi0 : (i 0).val < 74240 := (i 0).isLt
  have hi1 : (i 1).val < 128 := (i 1).isLt
  have hN : cfg3.N = 16 := N_3
  have e := idx_facts3 ⟨(i 0).val / 4640, by omega⟩
  refine ⟨⟨(i 0).val / 4640, by omega⟩, flush3_6 _, ?_⟩
  rw [mem_blk3_6]
  intro a
  match a with
  | ⟨0, _⟩ =>
    show win3_6.index ⟨(i 0).val / 4640, _⟩ 0 * 4640 ≤ (i 0).val ∧ (i 0).val < win3_6.index ⟨(i 0).val / 4640, _⟩ 0 * 4640 + 4640
    rw [e.2.2.2.2.2.2.2.2.2.2.2.2.1]; show (i 0).val / 4640 * 4640 ≤ (i 0).val ∧ (i 0).val < (i 0).val / 4640 * 4640 + 4640; omega
  | ⟨1, _⟩ =>
    show win3_6.index ⟨(i 0).val / 4640, _⟩ 1 * 128 ≤ (i 1).val ∧ (i 1).val < win3_6.index ⟨(i 0).val / 4640, _⟩ 1 * 128 + 128
    rw [e.2.2.2.2.2.2.2.2.2.2.2.2.2.1]; omega

/-- An index of the statistics array is in point `t`'s block iff each coordinate is in the block's range on its axis. -/
theorem mem_blk3_7 (t : Fin cfg3.N) (i : S16x2x128.Idx) :
    i ∈ ((cfg3.win 7).blk t).view.set ↔ ∀ a : Fin 3, win3_7.index t a * S1x2x128.size a ≤ (i a).val ∧ (i a).val < win3_7.index t a * S1x2x128.size a + S1x2x128.size a := by
  show i ∈ ((View.whole main_v54_1).slice (win3_7.rect t)).set ↔ _
  rw [View.set_slice_whole, Rect.mem_set_unit]
  exact Iff.rfl

/-- Tile `q` of the statistics array is written by point `q`. -/
theorem covered3_7 (i : S16x2x128.Idx) : ∃ t : Fin cfg3.N, (cfg3.win 7).flush t = true ∧ i ∈ ((cfg3.win 7).blk t).view.set := by
  have hi0 : (i 0).val < 16 := (i 0).isLt
  have hi1 : (i 1).val < 2 := (i 1).isLt
  have hi2 : (i 2).val < 128 := (i 2).isLt
  have hN : cfg3.N = 16 := N_3
  have e := idx_facts3 ⟨(i 0).val, by omega⟩
  refine ⟨⟨(i 0).val, by omega⟩, flush3_7 _, ?_⟩
  rw [mem_blk3_7]
  intro a
  match a with
  | ⟨0, _⟩ =>
    show win3_7.index ⟨(i 0).val, _⟩ 0 * 1 ≤ (i 0).val ∧ (i 0).val < win3_7.index ⟨(i 0).val, _⟩ 0 * 1 + 1
    rw [e.2.2.2.2.2.2.2.2.2.2.2.2.2.2.1]; show (i 0).val * 1 ≤ (i 0).val ∧ (i 0).val < (i 0).val * 1 + 1; omega
  | ⟨1, _⟩ =>
    show win3_7.index ⟨(i 0).val, _⟩ 1 * 2 ≤ (i 1).val ∧ (i 1).val < win3_7.index ⟨(i 0).val, _⟩ 1 * 2 + 2
    rw [e.2.2.2.2.2.2.2.2.2.2.2.2.2.2.2.1]; omega
  | ⟨2, _⟩ =>
    show win3_7.index ⟨(i 0).val, _⟩ 2 * 128 ≤ (i 2).val ∧ (i 2).val < win3_7.index ⟨(i 0).val, _⟩ 2 * 128 + 128
    rw [e.2.2.2.2.2.2.2.2.2.2.2.2.2.2.2.2]; omega

/-- After the region the layer's array holds the layer before normalisation of the arrays the region found, -/
theorem final3_6 (c : Dev nD) : (dat3 V c).arrAt 6 cfg3.N = Gcn.unc (P3 V c) :=
  (dat3 V c).arrAt_eq_of_cover 6 (Gcn.unc (P3 V c)) (fun t _ => flushed3_6_eq V c t) covered3_6

/-- and the statistics array its per-tile column sums and sums of squares. -/
theorem final3_7 (c : Dev nD) : (dat3 V c).arrAt 7 cfg3.N = T3 V c :=
  (dat3 V c).arrAt_eq_of_cover 7 (T3 V c) (fun t _ => flushed3_7_eq V c t) covered3_7

end Cert.KernelIdeal.Regions

end
-- ==== Proof.RegionNorm4.lean ====
/-
  Region 4 as a function of whole arrays. The kernel cuts the 74240 rows of the layer into 8 blocks of 9280; at
  every block it reads the two rows of column totals (sum and sum of squares), the scale row and the shift
  row, and writes back `γ · (x - mean) · rsqrt (max (E[x²] - mean²) 0 + ε) + β` on the block's rows, with
  `mean = total₀ / 74240` and `E[x²] = total₁ / 74240` taken as products with the reciprocal. Row `r` of the
  output is written by point `r / 9280` and depends on row `r` of the layer only, so the output array ends as
  the normalisation of the whole layer from the totals the region found.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_4 : (![0, 0] : Fin 2 → Nat) = fun _ => 0 := funext fun a => by fin_cases a <;> rfl

/-- The normalisation from given totals, of the whole arrays the region finds: the layer, the two rows of totals,
    the scale row and the shift row. -/
abbrev N4 (c : Dev nD) : Fin 74240 → Fin 128 → EReal :=
  Gcn.normT (Ideal.ofBits .f32 0x3727C5AC#32) (Gcn.cur (a := 74240) (b := 128) (V c (Pipeline.arrRef spec4 0)))
    (Gcn.cur (a := 2) (b := 128) (V c (Pipeline.arrRef spec4 1))) (Gcn.row (b := 128) (V c (Pipeline.arrRef spec4 2)))
    (Gcn.row (b := 128) (V c (Pipeline.arrRef spec4 3)))

/-- The index maps over the grid: the layer's block and the output's block move down one block of 9280 rows per point,
    the totals and the two rows stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The layer's block at point `t` is rows `9280 t …` of its array. -/
theorem iblk4_0_apply (c : Dev nD) (t : Fin cfg4.N) (x : S9280x128.Idx) (k : S74240x128.Idx)
    (hk0 : (k 0).val = 9280 * t.val + (x 0).val) (hk1 : (k 1).val = (x 1).val) :
    (iblk4 V c 0 t : Vec Ideal S9280x128 .f32) x = (V c (Pipeline.arrRef spec4 0) : S74240x128.Idx → EReal) k := by
  have e := idx_facts4 t
  unfold iblk4
  rw [View.read_apply]
  refine congrArg (V c (Pipeline.arrRef spec4 0) : S74240x128.Idx → EReal) ?_
  funext a
  apply Fin.ext
  match a with
  | ⟨0, _⟩ => show win4_0.index t 0 * 9280 + 1 * (x 0).val = (k 0).val; rw [hk0]; omega
  | ⟨1, _⟩ => show win4_0.index t 1 * 128 + 1 * (x 1).val = (k 1).val; rw [hk1]; omega

/-- Window 1's block at every point is its whole array. -/
theorem iblk4_1_apply (c : Dev nD) (t : Fin cfg4.N) (x : S2x128.Idx) :
    (iblk4 V c 1 t : Vec Ideal S2x128 .f32) x = (V c (Pipeline.arrRef spec4 1) : S2x128.Idx → EReal) x := by
  have e := idx_facts4 t
  unfold iblk4
  rw [View.read_apply]
  refine congrArg (V c (Pipeline.arrRef spec4 1) : S2x128.Idx → EReal) ?_
  funext a
  apply Fin.ext
  match a with
  | ⟨0, _⟩ => show win4_1.index t 0 * 2 + 1 * (x 0).val = (x 0).val; omega
  | ⟨1, _⟩ => show win4_1.index t 1 * 128 + 1 * (x 1).val = (x 1).val; omega

/-- Window 2's block at every point is its whole array. -/
theorem iblk4_2_apply (c : Dev nD) (t : Fin cfg4.N) (x : S1x128.Idx) :
    (iblk4 V c 2 t : Vec Ideal S1x128 .f32) x = (V c (Pipeline.arrRef spec4 2) : S1x128.Idx → EReal) x := by
  have e := idx_facts4 t
  unfold iblk4
  rw [View.read_apply]
  refine congrArg (V c (Pipeline.arrRef spec4 2) : S1x128.Idx → EReal) ?_
  funext a
  apply Fin.ext
  match a with
  | ⟨0, _⟩ => show win4_2.index t 0 * 1 + 1 * (x 0).val = (x 0).val; omega
  | ⟨1, _⟩ => show win4_2.index t 1 * 128 + 1 * (x 1).val = (x 1).val; omega

/-- Window 3's block at every point is its whole array. -/
theorem iblk4_3_apply (c : Dev nD) (t : Fin cfg4.N) (x : S1x128.Idx) :
    (iblk4 V c 3 t : Vec Ideal S1x128 .f32) x = (V c (Pipeline.arrRef spec4 3) : S1x128.Idx → EReal) x := by
  have e := idx_facts4 t
  unfold iblk4
  rw [View.read_apply]
  refine congrArg (V c (Pipeline.arrRef spec4 3) : S1x128.Idx → EReal) ?_
  funext a
  apply Fin.ext
  match a with
  | ⟨0, _⟩ => show win4_3.index t 0 * 1 + 1 * (x 0).val = (x 0).val; omega
  | ⟨1, _⟩ => show win4_3.index t 1 * 128 + 1 * (x 1).val = (x 1).val; omega

/-- The body loads the two rows of the totals separately: the first load reads row 0, -/
theorem ld_totals4_0 (x1 : Vec Ideal S2x128 .f32) (j : Fin 128) : View.ld x1 r4_1 (ix2 (0 : Fin 1) j) = x1 (ix2 (0 : Fin 2) j) := by
  show x1 _ = x1 _
  refine congrArg x1 (funext fun a => Fin.ext ?_)
  match a with
  | ⟨0, _⟩ => rfl
  | ⟨1, _⟩ => show 0 + 1 * j.val = j.val; omega

/-- and the second reads row 1. -/
theorem ld_totals4_1 (x1 : Vec Ideal S2x128 .f32) (j : Fin 128) : View.ld x1 r4_2 (ix2 (0 : Fin 1) j) = x1 (ix2 (1 : Fin 2) j) := by
  show x1 _ = x1 _
  refine congrArg x1 (funext fun a => Fin.ext ?_)
  match a with
  | ⟨0, _⟩ => rfl
  | ⟨1, _⟩ => show 0 + 1 * j.val = j.val; omega

/-- The normalised entry is a function of five numbers: the scale, the entry, the two totals and the shift. -/
theorem norm_entry_congr4 {g x m0 m1 b g' x' m0' m1' b' e : EReal} (hg : g = g') (hx : x = x') (h0 : m0 = m0') (h1 : m1 = m1') (hb : b = b') :
    g * (x - m0 * Gcn.invN) * Ideal.rsqrt (max (m1 * Gcn.invN - m0 * Gcn.invN * (m0 * Gcn.invN)) 0 + e) + b
      = g' * (x' - m0' * Gcn.invN) * Ideal.rsqrt (max (m1' * Gcn.invN - m0' * Gcn.invN * (m0' * Gcn.invN)) 0 + e) + b' := by
  subst hg hx h0 h1 hb; rfl

/-- What point `t` computes at entry `y` of its block is the normalised layer at row `9280 t + y₀`. -/
theorem norm_point4 (c : Dev nD) (t : Fin cfg4.N) (y : S9280x128.Idx) (k : S74240x128.Idx)
    (hk0 : (k 0).val = 9280 * t.val + (y 0).val) (hk1 : (k 1).val = (y 1).val) :
    k4_pay1 (F := Ideal) (iblk4 V c 0 t) (View.ld (iblk4 V c 1 t) r4_1) (View.ld (iblk4 V c 1 t) r4_2) (iblk4 V c 2 t) (iblk4 V c 3 t) y
      = Gcn.unc (N4 V c) k := by
  obtain ⟨i, j, rfl⟩ : ∃ (i : Fin 9280) (j : Fin 128), y = ix2 i j := ⟨y 0, y 1, eq_ix2 y⟩
  refine (k4_pay1_apply (iblk4 V c 0 t) (View.ld (iblk4 V c 1 t) r4_1) (View.ld (iblk4 V c 1 t) r4_2) (iblk4 V c 2 t) (iblk4 V c 3 t) i j).trans ?_
  have hj : k 1 = j := Fin.ext hk1
  show _ = Gcn.normT _ _ _ _ _ (k 0) (k 1)
  rw [hj]
  unfold Gcn.normT
  exact norm_entry_congr4
    (iblk4_2_apply V c t (ix2 0 j))
    (iblk4_0_apply V c t (ix2 i j) (ix2 (k 0) j) hk0 rfl)
    ((ld_totals4_0 (iblk4 V c 1 t) j).trans (iblk4_1_apply V c t (ix2 0 j)))
    ((ld_totals4_1 (iblk4 V c 1 t) j).trans (iblk4_1_apply V c t (ix2 1 j)))
    (iblk4_3_apply V c t (ix2 0 j))

/-- What point `t` writes back is block `t` of the normalised layer of the whole arrays. -/
theorem flushed4_4_eq (c : Dev nD) (t : Fin cfg4.N) :
    (dat4 V c).flushed 4 t = ((cfg4.win 4).blk t).view.read (Elt Ideal) (Gcn.unc (N4 V c)) := by
  show (cfg4.win 4).cut (grid4.coords t) ((dat4 V c).after 4 t) = _
  rw [after4_4]
  unfold out4_4
  rw [View.canon_unit_zero zeros2_4]
  simp only [View.ld_unit_zero (S := S9280x128) zeros2_4, View.ld_unit_zero (S := S1x128) zeros2_4]
  have e := idx_facts4 t
  funext y
  refine norm_point4 V c t y _ ?_ ?_
  · show win4_4.index t 0 * 9280 + 1 * (y 0).val = 9280 * t.val + (y 0).val; omega
  · show win4_4.index t 1 * 128 + 1 * (y 1).val = (y 1).val; omega

/-- An index of the output array is in point `t`'s block iff each coordinate is in the block's range on its axis. -/
theorem mem_blk4_4 (t : Fin cfg4.N) (i : S74240x128.Idx) :
    i ∈ ((cfg4.win 4).blk t).view.set ↔ ∀ a : Fin 2, win4_4.index t a * S9280x128.size a ≤ (i a).val ∧ (i a).val < win4_4.index t a * S9280x128.size a + S9280x128.size a := by
  show i ∈ ((View.whole main_v62).slice (win4_4.rect t)).set ↔ _
  rw [View.set_slice_whole, Rect.mem_set_unit]
  exact Iff.rfl

/-- Row `r` of the output is written by point `r / 9280`. -/
theorem covered4_4 (i : S74240x128.Idx) : ∃ t : Fin cfg4.N, (cfg4.win 4).flush t = true ∧ i ∈ ((cfg4.win 4).blk t).view.set := by
  have hi0 : (i 0).val < 74240 := (i 0).isLt
  have hi1 : (i 1).val < 128 := (i 1).isLt
  have hN : cfg4.N = 8 := N_4
  have e := idx_facts4 ⟨(i 0).val / 9280, by omega⟩
  refine ⟨⟨(i 0).val / 9280, by omega⟩, flush4_4 _, ?_⟩
  rw [mem_blk4_4]
  intro a
  match a with
  | ⟨0, _⟩ =>
    show win4_4.index ⟨(i 0).val / 9280, _⟩ 0 * 9280 ≤ (i 0).val ∧ (i 0).val < win4_4.index ⟨(i 0).val / 9280, _⟩ 0 * 9280 + 9280
    rw [e.2.2.2.2.2.2.2.2.1]; show (i 0).val / 9280 * 9280 ≤ (i 0).val ∧ (i 0).val < (i 0).val / 9280 * 9280 + 9280; omega
  | ⟨1, _⟩ =>
    show win4_4.index ⟨(i 0).val / 9280, _⟩ 1 * 128 ≤ (i 1).val ∧ (i 1).val < win4_4.index ⟨(i 0).val / 9280, _⟩ 1 * 128 + 128
    rw [e.2.2.2.2.2.2.2.2.2]; omega

/-- After the region the output array holds the normalisation, from the totals the region found, of the layer it found. -/
theorem final4_4 (c : Dev nD) : (dat4 V c).arrAt 4 cfg4.N = Gcn.unc (N4 V c) :=
  (dat4 V c).arrAt_eq_of_cover 4 (Gcn.unc (N4 V c)) (fun t _ => flushed4_4_eq V c t) covered4_4

end Cert.KernelIdeal.Regions

end
-- ==== Proof.KernelChainLayer2.lean ====
/-
  Layer 2 of the kernel's run: from the features at its entry to the normalised layer at its exit.

  The host line before the layer's first launch leaves the aggregated features and the layer's weights and biases
  in the buffers that launch stages; the launch leaves the layer before normalisation and, per tile of 4640 rows,
  each column's sum and sum of squares. The next host line adds the sixteen tiles' statistics and leaves the layer's
  scale and shift; the second launch normalises every column from those totals. Whatever matrix `h` the features
  buffer holds at the layer's entry, the exit buffer holds the layer applied to `h`.
-/
import proofs.«176821_j3375844294866_2_alg».proof.Proof.KernelChainBase
import proofs.«176821_j3375844294866_2_alg».proof.Proof.RegionPre3
import proofs.«176821_j3375844294866_2_alg».proof.Proof.RegionNorm4

set_option maxRecDepth 16384

noncomputable section

namespace Cert.KernelIdeal.Chain

open Idealize.ShloMosaic Idealize.ShloMosaic.TcCoe Idealize.ShloMosaic.ValueIdx Idealize.SL.Sem
open Cert.KernelIdeal.Gen

variable (m : (ℓ : Loc nD τ sig) → Buf (Elt Ideal) ℓ) (ρ : Dev nD → PrngReg) (c : Dev nD)

/-! ## Layer 2: launches 3 and 4 -/

section
variable (h : Gcn.Mat) (hh : W5 m ρ c (Proc.devRef .tc main_v31) = Gcn.unc h)
include hh

/-- What launch 3 stages: the aggregated features, the features, and the layer's weights and biases. -/
theorem in3_0 : V6 m ρ c (Pipeline.arrRef spec3 0) = aggK (F := Ideal) (Gcn.unc h) (argSrc m c) (argDst m c) := by
  refine (line3_agg (W5 m ρ c)).trans ?_
  rw [hh, W5_param m ρ c (b := main_arg1) (by decide), W5_param m ρ c (b := main_arg2) (by decide)]
theorem in3_1 : V6 m ρ c (Pipeline.arrRef spec3 1) = Gcn.unc h := (line3_h (W5 m ρ c)).trans hh
theorem in3_2 : V6 m ρ c (Pipeline.arrRef spec3 2)
    = matOf (F := Ideal) ![1, 0, 0] slices_S3x128x128_S1x128x128_1_0_0 (argWg m c) :=
  (line3_Wg (W5 m ρ c)).trans (congrArg _ (W5_param m ρ c (b := main_arg4) (by decide)))
theorem in3_3 : V6 m ρ c (Pipeline.arrRef spec3 3)
    = rowOf (F := Ideal) ![1, 0] slices_S3x128_S1x128_1_0 (argBg m c) :=
  (line3_bg (W5 m ρ c)).trans (congrArg _ (W5_param m ρ c (b := main_arg5) (by decide)))
theorem in3_4 : V6 m ρ c (Pipeline.arrRef spec3 4)
    = matOf (F := Ideal) ![1, 0, 0] slices_S3x128x128_S1x128x128_1_0_0 (argWr m c) :=
  (line3_Wr (W5 m ρ c)).trans (congrArg _ (W5_param m ρ c (b := main_arg6) (by decide)))
theorem in3_5 : V6 m ρ c (Pipeline.arrRef spec3 5)
    = rowOf (F := Ideal) ![1, 0] slices_S3x128_S1x128_1_0 (argBr m c) :=
  (line3_br (W5 m ρ c)).trans (congrArg _ (W5_param m ρ c (b := main_arg7) (by decide)))

/-- The layer before normalisation, as launch 3 computes it from what it stages. -/
theorem pre3 : Regions.P3 (V6 m ρ) c = preL m c 1 h := by
  unfold Regions.P3
  rw [in3_0 m ρ c h hh, in3_1 m ρ c h hh, in3_2 m ρ c h hh, in3_3 m ρ c h hh, in3_4 m ρ c h hh, in3_5 m ρ c h hh,
    cur_matOf _ ![1, 0, 0] 1 rfl rfl rfl, row_rowOf _ ![1, 0] 1 rfl rfl, cur_matOf _ ![1, 0, 0] 1 rfl rfl rfl, row_rowOf _ ![1, 0] 1 rfl rfl]
  rfl

/-- What launch 3 leaves: the layer before normalisation and its per-tile statistics. -/
theorem out3_p : W7 m ρ c (Proc.devRef .tc main_v54_0) = Gcn.unc (preL m c 1 h) :=
  ((W7_arr m ρ c 6).trans (Regions.final3_6 (V6 m ρ) c)).trans (congrArg Gcn.unc (pre3 m ρ c h hh))
theorem out3_st : W7 m ρ c (Proc.devRef .tc main_v54_1)
    = fun i => Gcn.tileStats (preL m c 1 h) (i 0) (i 1) (i 2) :=
  ((W7_arr m ρ c 7).trans (Regions.final3_7 (V6 m ρ) c)).trans
    (congrArg (fun (P : Gcn.Mat) (i : S16x2x128.Idx) => Gcn.tileStats P (i 0) (i 1) (i 2)) (pre3 m ρ c h hh))

/-- What launch 4 stages: that layer, the statistics' totals, and the layer's scale and shift. -/
theorem in4_0 : V8 m ρ c (Pipeline.arrRef spec4 0) = Gcn.unc (preL m c 1 h) :=
  (line4_p (W7 m ρ c)).trans (out3_p m ρ c h hh)
theorem in4_1 : V8 m ρ c (Pipeline.arrRef spec4 1)
    = totOf (F := Ideal) (fun i => Gcn.tileStats (preL m c 1 h) (i 0) (i 1) (i 2)) :=
  (line4_tot (W7 m ρ c)).trans (congrArg totOf (out3_st m ρ c h hh))
theorem in4_2 : V8 m ρ c (Pipeline.arrRef spec4 2)
    = rowOf (F := Ideal) ![1, 0] slices_S3x128_S1x128_1_0 (argGamma m c) :=
  (line4_gamma (W7 m ρ c)).trans (congrArg _ (W7_param m ρ c (b := main_arg8) (by decide)))
theorem in4_3 : V8 m ρ c (Pipeline.arrRef spec4 3)
    = rowOf (F := Ideal) ![1, 0] slices_S3x128_S1x128_1_0 (argBeta m c) :=
  (line4_beta (W7 m ρ c)).trans (congrArg _ (W7_param m ρ c (b := main_arg9) (by decide)))

/-- Launch 4 leaves the whole layer applied to the features the layer started from. -/
theorem layer2 : W9 m ρ c (Proc.devRef .tc main_v62) = Gcn.unc (layerL m c 1 h) := by
  refine ((W9_arr m ρ c 4).trans (Regions.final4_4 (V8 m ρ) c)).trans (congrArg Gcn.unc ?_)
  unfold Regions.N4
  rw [in4_0 m ρ c h hh, in4_1 m ρ c h hh, in4_2 m ρ c h hh, in4_3 m ρ c h hh, cur_totOf,
    row_rowOf _ ![1, 0] 1 rfl rfl, row_rowOf _ ![1, 0] 1 rfl rfl]
  rfl

end

end Cert.KernelIdeal.Chain

end
-- ==== Proof.RegionPre5.lean ====
/-
  Region 5 as a function of whole arrays. The kernel cuts the 74240 rows into 16 tiles of 4640; at tile `t` it
  computes `max (agg·Wg + bg) 0 + max (h·Wr + br) 0` on the tile's rows of the aggregated array and of the
  current array, with the whole weight matrices and bias rows, writes it back as the same rows of the
  layer's array, and writes the tile's column sums and column sums of squares as entry `t` of a
  16 x 2 x 128 statistics array. Since a row of the layer depends on that row of the two row arrays
  only, the layer's array ends as the layer of the whole arrays, and the statistics array as its
  per-tile statistics.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_5 : (![0, 0] : Fin 2 → Nat) = fun _ => 0 := funext fun a => by fin_cases a <;> rfl
theorem zeros3_5 : (![0, 0, 0] : Fin 3 → Nat) = fun _ => 0 := funext fun a => by fin_cases a <;> rfl

/-- The layer before normalisation, of the whole arrays the region finds: aggregated rows, rows, the two weight
    matrices and the two bias rows. -/
abbrev P5 (c : Dev nD) : Fin 74240 → Fin 128 → EReal :=
  Gcn.pre (Gcn.cur (a := 74240) (b := 128) (V c (Pipeline.arrRef spec5 0))) (Gcn.cur (a := 74240) (b := 128) (V c (Pipeline.arrRef spec5 1)))
    (Gcn.cur (a := 128) (b := 128) (V c (Pipeline.arrRef spec5 2))) (Gcn.row (b := 128) (V c (Pipeline.arrRef spec5 3)))
    (Gcn.cur (a := 128) (b := 128) (V c (Pipeline.arrRef spec5 4))) (Gcn.row (b := 128) (V c (Pipeline.arrRef spec5 5)))

/-- The per-tile statistics of that layer, as an array over 16 x 2 x 128. -/
abbrev T5 (c : Dev nD) : S16x2x128.Idx → EReal := fun i => Gcn.tileStats (P5 V c) (i 0) (i 1) (i 2)

/-- The index maps over the grid: the two row blocks and the two outputs move down one block per point, the weights
    and biases stay. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 3) = t.val ∧ win5_7.index t (1 : Fin 3) = 0 ∧ win5_7.index t (2 : Fin 3) = 0 :=
  (by decide +kernel : ∀ t : Fin grid5.N, _)

/-- Row block 0 at point `t` is rows `4640 t …` of its array. -/
theorem iblk5_0_apply (c : Dev nD) (t : Fin cfg5.N) (x : S4640x128.Idx) (k : S74240x128.Idx)
    (hk0 : (k 0).val = 4640 * t.val + (x 0).val) (hk1 : (k 1).val = (x 1).val) :
    (iblk5 V c 0 t : Vec Ideal S4640x128 .f32) x = (V c (Pipeline.arrRef spec5 0) : S74240x128.Idx → EReal) k := by
  have e := idx_facts5 t
  unfold iblk5
  rw [View.read_apply]
  refine congrArg (V c (Pipeline.arrRef spec5 0) : S74240x128.Idx → EReal) ?_
  funext a
  apply Fin.ext
  match a with
  | ⟨0, _⟩ => show win5_0.index t 0 * 4640 + 1 * (x 0).val = (k 0).val; rw [hk0]; omega
  | ⟨1, _⟩ => show win5_0.index t 1 * 128 + 1 * (x 1).val = (k 1).val; rw [hk1]; omega

/-- Row block 1 at point `t` is rows `4640 t …` of its array. -/
theorem iblk5_1_apply (c : Dev nD) (t : Fin cfg5.N) (x : S4640x128.Idx) (k : S74240x128.Idx)
    (hk0 : (k 0).val = 4640 * t.val + (x 0).val) (hk1 : (k 1).val = (x 1).val) :
    (iblk5 V c 1 t : Vec Ideal S4640x128 .f32) x = (V c (Pipeline.arrRef spec5 1) : S74240x128.Idx → EReal) k := by
  have e := idx_facts5 t
  unfold iblk5
  rw [View.read_apply]
  refine congrArg (V c (Pipeline.arrRef spec5 1) : S74240x128.Idx → EReal) ?_
  funext a
  apply Fin.ext
  match a with
  | ⟨0, _⟩ => show win5_1.index t 0 * 4640 + 1 * (x 0).val = (k 0).val; rw [hk0]; omega
  | ⟨1, _⟩ => show win5_1.index t 1 * 128 + 1 * (x 1).val = (k 1).val; rw [hk1]; omega

/-- Window 2's block at every point is its whole array. -/
theorem iblk5_2_apply (c : Dev nD) (t : Fin cfg5.N) (x : S128x128.Idx) :
    (iblk5 V c 2 t : Vec Ideal S128x128 .f32) x = (V c (Pipeline.arrRef spec5 2) : S128x128.Idx → EReal) x := by
  have e := idx_facts5 t
  unfold iblk5
  rw [View.read_apply]
  refine congrArg (V c (Pipeline.arrRef spec5 2) : S128x128.Idx → EReal) ?_
  funext a
  apply Fin.ext
  match a with
  | ⟨0, _⟩ => show win5_2.index t 0 * 128 + 1 * (x 0).val = (x 0).val; omega
  | ⟨1, _⟩ => show win5_2.index t 1 * 128 + 1 * (x 1).val = (x 1).val; omega

/-- Window 3's block at every point is its whole array. -/
theorem iblk5_3_apply (c : Dev nD) (t : Fin cfg5.N) (x : S1x128.Idx) :
    (iblk5 V c 3 t : Vec Ideal S1x128 .f32) x = (V c (Pipeline.arrRef spec5 3) : S1x128.Idx → EReal) x := by
  have e := idx_facts5 t
  unfold iblk5
  rw [View.read_apply]
  refine congrArg (V c (Pipeline.arrRef spec5 3) : S1x128.Idx → EReal) ?_
  funext a
  apply Fin.ext
  match a with
  | ⟨0, _⟩ => show win5_3.index t 0 * 1 + 1 * (x 0).val = (x 0).val; omega
  | ⟨1, _⟩ => show win5_3.index t 1 * 128 + 1 * (x 1).val = (x 1).val; omega

/-- Window 4's block at every point is its whole array. -/
theorem iblk5_4_apply (c : Dev nD) (t : Fin cfg5.N) (x : S128x128.Idx) :
    (iblk5 V c 4 t : Vec Ideal S128x128 .f32) x = (V c (Pipeline.arrRef spec5 4) : S128x128.Idx → EReal) x := by
  have e := idx_facts5 t
  unfold iblk5
  rw [View.read_apply]
  refine congrArg (V c (Pipeline.arrRef spec5 4) : S128x128.Idx → EReal) ?_
  funext a
  apply Fin.ext
  match a with
  | ⟨0, _⟩ => show win5_4.index t 0 * 128 + 1 * (x 0).val = (x 0).val; omega
  | ⟨1, _⟩ => show win5_4.index t 1 * 128 + 1 * (x 1).val = (x 1).val; omega

/-- Window 5's block at every point is its whole array. -/
theorem iblk5_5_apply (c : Dev nD) (t : Fin cfg5.N) (x : S1x128.Idx) :
    (iblk5 V c 5 t : Vec Ideal S1x128 .f32) x = (V c (Pipeline.arrRef spec5 5) : S1x128.Idx → EReal) x := by
  have e := idx_facts5 t
  unfold iblk5
  rw [View.read_apply]
  refine congrArg (V c (Pipeline.arrRef spec5 5) : S1x128.Idx → EReal) ?_
  funext a
  apply Fin.ext
  match a with
  | ⟨0, _⟩ => show win5_5.index t 0 * 1 + 1 * (x 0).val = (x 0).val; omega
  | ⟨1, _⟩ => show win5_5.index t 1 * 128 + 1 * (x 1).val = (x 1).val; omega

/-- What point `t` computes at entry `y` of its block is the layer at row `4640 t + y₀`: a row of the layer depends on
    that row of the two row arrays only. -/
theorem pre_point5 (c : Dev nD) (t : Fin cfg5.N) (y : S4640x128.Idx) (k : S74240x128.Idx)
    (hk0 : (k 0).val = 4640 * t.val + (y 0).val) (hk1 : (k 1).val = (y 1).val) :
    k5_pay1 (F := Ideal) (iblk5 V c 0 t) (iblk5 V c 1 t) (iblk5 V c 2 t) (iblk5 V c 4 t) (iblk5 V c 3 t) (iblk5 V c 5 t) y
      = Gcn.unc (P5 V c) k := by
  obtain ⟨i, j, rfl⟩ : ∃ (i : Fin 4640) (j : Fin 128), y = ix2 i j := ⟨y 0, y 1, eq_ix2 y⟩
  refine (k5_pay1_apply (iblk5 V c 0 t) (iblk5 V c 1 t) (iblk5 V c 2 t) (iblk5 V c 4 t) (iblk5 V c 3 t) (iblk5 V c 5 t) i j).trans ?_
  have hj : k 1 = j := Fin.ext hk1
  show Gcn.pre _ _ _ _ _ _ i j = Gcn.pre _ _ _ _ _ _ (k 0) (k 1)
  rw [hj]
  unfold Gcn.pre Gcn.mm
  have h0 : ∀ l : Fin 128, Gcn.cur (iblk5 V c 0 t : Vec Ideal S4640x128 .f32) i l = Gcn.cur (a := 74240) (b := 128) (V c (Pipeline.arrRef spec5 0)) (k 0) l :=
    fun l => iblk5_0_apply V c t (ix2 i l) (ix2 (k 0) l) hk0 rfl
  have h1 : ∀ l : Fin 128, Gcn.cur (iblk5 V c 1 t : Vec Ideal S4640x128 .f32) i l = Gcn.cur (a := 74240) (b := 128) (V c (Pipeline.arrRef spec5 1)) (k 0) l :=
    fun l => iblk5_1_apply V c t (ix2 i l) (ix2 (k 0) l) hk0 rfl
  have h2 : ∀ l : Fin 128, Gcn.cur (iblk5 V c 2 t : Vec Ideal S128x128 .f32) l j = Gcn.cur (a := 128) (b := 128) (V c (Pipeline.arrRef spec5 2)) l j :=
    fun l => iblk5_2_apply V c t (ix2 l j)
  have h3 : Gcn.row (iblk5 V c 3 t : Vec Ideal S1x128 .f32) j = Gcn.row (b := 128) (V c (Pipeline.arrRef spec5 3)) j :=
    iblk5_3_apply V c t (ix2 0 j)
  have h4 : ∀ l : Fin 128, Gcn.cur (iblk5 V c 4 t : Vec Ideal S128x128 .f32) l j = Gcn.cur (a := 128) (b := 128) (V c (Pipeline.arrRef spec5 4)) l j :=
    fun l => iblk5_4_apply V c t (ix2 l j)
  have h5 : Gcn.row (iblk5 V c 5 t : Vec Ideal S1x128 .f32) j = Gcn.row (b := 128) (V c (Pipeline.arrRef spec5 5)) j :=
    iblk5_5_apply V c t (ix2 0 j)
  exact congrArg₂ (· + ·)
    (congrArg₂ max (congrArg₂ (· + ·) (Finset.sum_congr rfl fun l _ => congrArg₂ (· * ·) (h0 l) (h2 l)) h3) rfl)
    (congrArg₂ max (congrArg₂ (· + ·) (Finset.sum_congr rfl fun l _ => congrArg₂ (· * ·) (h1 l) (h4 l)) h5) rfl)

/-- What point `t` writes back to the layer's array is block `t` of the layer of the whole arrays. -/
theorem flushed5_6_eq (c : Dev nD) (t : Fin cfg5.N) :
    (dat5 V c).flushed 6 t = ((cfg5.win 6).blk t).view.read (Elt Ideal) (Gcn.unc (P5 V c)) := by
  show (cfg5.win 6).cut (grid5.coords t) ((dat5 V c).after 6 t) = _
  rw [after5_6]
  unfold out5_6
  rw [View.canon_unit_zero zeros2_5]
  simp only [View.ld_unit_zero (S := S4640x128) zeros2_5, View.ld_unit_zero (S := S128x128) zeros2_5, View.ld_unit_zero (S := S1x128) zeros2_5]
  have e := idx_facts5 t
  funext y
  refine pre_point5 V c t y _ ?_ ?_
  · show win5_6.index t 0 * 4640 + 1 * (y 0).val = 4640 * t.val + (y 0).val; omega
  · show win5_6.index t 1 * 128 + 1 * (y 1).val = (y 1).val; omega

/-- What point `t` computes for the statistics array is tile `t`'s statistics of the layer of the whole arrays. -/
theorem stats_point5 (c : Dev nD) (t : Fin cfg5.N) (y : S1x2x128.Idx) (k : S16x2x128.Idx)
    (hk0 : (k 0).val = t.val + (y 0).val) (hk1 : (k 1).val = (y 1).val) (hk2 : (k 2).val = (y 2).val) :
    k5_pay2 (F := Ideal) (iblk5 V c 0 t) (iblk5 V c 1 t) (iblk5 V c 2 t) (iblk5 V c 4 t) (iblk5 V c 3 t) (iblk5 V c 5 t) y
      = T5 V c k := by
  obtain ⟨u, s, j, rfl⟩ : ∃ (u : Fin 1) (s : Fin 2) (j : Fin 128), y = ix3 u s j := ⟨y 0, y 1, y 2, eq_ix3 y⟩
  refine (k5_pay2_apply (iblk5 V c 0 t) (iblk5 V c 1 t) (iblk5 V c 2 t) (iblk5 V c 4 t) (iblk5 V c 3 t) (iblk5 V c 5 t) u s j).trans ?_
  have hu : u.val = 0 := by omega
  have h0 : (k 0).val = t.val := by rw [hk0]; show t.val + u.val = t.val; omega
  have h1 : (k 1).val = s.val := hk1
  have h2 : k 2 = j := Fin.ext hk2
  have hp : ∀ r : Fin 4640, k5_pay1 (F := Ideal) (iblk5 V c 0 t) (iblk5 V c 1 t) (iblk5 V c 2 t) (iblk5 V c 4 t) (iblk5 V c 3 t) (iblk5 V c 5 t) (ix2 r j)
      = P5 V c (Gcn.tileRow (k 0) r) (k 2) := fun r =>
    (pre_point5 V c t (ix2 r j) (ix2 (Gcn.tileRow (k 0) r) (k 2)) (by show 4640 * (k 0).val + r.val = 4640 * t.val + r.val; rw [h0]) (by show (k 2).val = j.val; rw [h2]))
  show _ = Gcn.tileStats (P5 V c) (k 0) (k 1) (k 2)
  unfold Gcn.tileStats
  by_cases hs : s.val = 0
  · rw [if_pos hs, if_pos (h1.trans hs)]
    exact Finset.sum_congr rfl fun r _ => hp r
  · rw [if_neg hs, if_neg (fun h => hs (h1.symm.trans h))]
    exact Finset.sum_congr rfl fun r _ => congrArg₂ (· * ·) (hp r) (hp r)

/-- What point `t` writes back to the statistics array is block `t` of the per-tile statistics. -/
theorem flushed5_7_eq (c : Dev nD) (t : Fin cfg5.N) :
    (dat5 V c).flushed 7 t = ((cfg5.win 7).blk t).view.read (Elt Ideal) (T5 V c) := by
  show (cfg5.win 7).cut (grid5.coords t) ((dat5 V c).after 7 t) = _
  rw [after5_7]
  unfold out5_7
  rw [View.canon_unit_zero zeros3_5]
  simp only [View.ld_unit_zero (S := S4640x128) zeros2_5, View.ld_unit_zero (S := S128x128) zeros2_5, View.ld_unit_zero (S := S1x128) zeros2_5]
  have e := idx_facts5 t
  funext y
  refine stats_point5 V c t y _ ?_ ?_ ?_
  · show win5_7.index t 0 * 1 + 1 * (y 0).val = t.val + (y 0).val; omega
  · show win5_7.index t 1 * 2 + 1 * (y 1).val = (y 1).val; omega
  · show win5_7.index t 2 * 128 + 1 * (y 2).val = (y 2).val; omega

/-- An index of the layer's array is in point `t`'s block iff each coordinate is in the block's range on its axis. -/
theorem mem_blk5_6 (t : Fin cfg5.N) (i : S74240x128.Idx) :
    i ∈ ((cfg5.win 6).blk t).view.set ↔ ∀ a : Fin 2, win5_6.index t a * S4640x128.size a ≤ (i a).val ∧ (i a).val < win5_6.index t a * S4640x128.size a + S4640x128.size a := by
  show i ∈ ((View.whole main_v85_0).slice (win5_6.rect t)).set ↔ _
  rw [View.set_slice_whole, Rect.mem_set_unit]
  exact Iff.rfl

/-- Row `r` of the layer's array is written by point `r / 4640`. -/
theorem covered5_6 (i : S74240x128.Idx) : ∃ t : Fin cfg5.N, (cfg5.win 6).flush t = true ∧ i ∈ ((cfg5.win 6).blk t).view.set := by
  have hi0 : (i 0).val < 74240 := (i 0).isLt
  have hi1 : (i 1).val < 128 := (i 1).isLt
  have hN : cfg5.N = 16 := N_5
  have e := idx_facts5 ⟨(i 0).val / 4640, by omega⟩
  refine ⟨⟨(i 0).val / 4640, by omega⟩, flush5_6 _, ?_⟩
  rw [mem_blk5_6]
  intro a
  match a with
  | ⟨0, _⟩ =>
    show win5_6.index ⟨(i 0).val / 4640, _⟩ 0 * 4640 ≤ (i 0).val ∧ (i 0).val < win5_6.index ⟨(i 0).val / 4640, _⟩ 0 * 4640 + 4640
    rw [e.2.2.2.2.2.2.2.2.2.2.2.2.1]; show (i 0).val / 4640 * 4640 ≤ (i 0).val ∧ (i 0).val < (i 0).val / 4640 * 4640 + 4640; omega
  | ⟨1, _⟩ =>
    show win5_6.index ⟨(i 0).val / 4640, _⟩ 1 * 128 ≤ (i 1).val ∧ (i 1).val < win5_6.index ⟨(i 0).val / 4640, _⟩ 1 * 128 + 128
    rw [e.2.2.2.2.2.2.2.2.2.2.2.2.2.1]; omega

/-- An index of the statistics array is in point `t`'s block iff each coordinate is in the block's range on its axis. -/
theorem mem_blk5_7 (t : Fin cfg5.N) (i : S16x2x128.Idx) :
    i ∈ ((cfg5.win 7).blk t).view.set ↔ ∀ a : Fin 3, win5_7.index t a * S1x2x128.size a ≤ (i a).val ∧ (i a).val < win5_7.index t a * S1x2x128.size a + S1x2x128.size a := by
  show i ∈ ((View.whole main_v85_1).slice (win5_7.rect t)).set ↔ _
  rw [View.set_slice_whole, Rect.mem_set_unit]
  exact Iff.rfl

/-- Tile `q` of the statistics array is written by point `q`. -/
theorem covered5_7 (i : S16x2x128.Idx) : ∃ t : Fin cfg5.N, (cfg5.win 7).flush t = true ∧ i ∈ ((cfg5.win 7).blk t).view.set := by
  have hi0 : (i 0).val < 16 := (i 0).isLt
  have hi1 : (i 1).val < 2 := (i 1).isLt
  have hi2 : (i 2).val < 128 := (i 2).isLt
  have hN : cfg5.N = 16 := N_5
  have e := idx_facts5 ⟨(i 0).val, by omega⟩
  refine ⟨⟨(i 0).val, by omega⟩, flush5_7 _, ?_⟩
  rw [mem_blk5_7]
  intro a
  match a with
  | ⟨0, _⟩ =>
    show win5_7.index ⟨(i 0).val, _⟩ 0 * 1 ≤ (i 0).val ∧ (i 0).val < win5_7.index ⟨(i 0).val, _⟩ 0 * 1 + 1
    rw [e.2.2.2.2.2.2.2.2.2.2.2.2.2.2.1]; show (i 0).val * 1 ≤ (i 0).val ∧ (i 0).val < (i 0).val * 1 + 1; omega
  | ⟨1, _⟩ =>
    show win5_7.index ⟨(i 0).val, _⟩ 1 * 2 ≤ (i 1).val ∧ (i 1).val < win5_7.index ⟨(i 0).val, _⟩ 1 * 2 + 2
    rw [e.2.2.2.2.2.2.2.2.2.2.2.2.2.2.2.1]; omega
  | ⟨2, _⟩ =>
    show win5_7.index ⟨(i 0).val, _⟩ 2 * 128 ≤ (i 2).val ∧ (i 2).val < win5_7.index ⟨(i 0).val, _⟩ 2 * 128 + 128
    rw [e.2.2.2.2.2.2.2.2.2.2.2.2.2.2.2.2]; omega

/-- After the region the layer's array holds the layer before normalisation of the arrays the region found, -/
theorem final5_6 (c : Dev nD) : (dat5 V c).arrAt 6 cfg5.N = Gcn.unc (P5 V c) :=
  (dat5 V c).arrAt_eq_of_cover 6 (Gcn.unc (P5 V c)) (fun t _ => flushed5_6_eq V c t) covered5_6

/-- and the statistics array its per-tile column sums and sums of squares. -/
theorem final5_7 (c : Dev nD) : (dat5 V c).arrAt 7 cfg5.N = T5 V c :=
  (dat5 V c).arrAt_eq_of_cover 7 (T5 V c) (fun t _ => flushed5_7_eq V c t) covered5_7

end Cert.KernelIdeal.Regions

end
-- ==== Proof.RegionNorm6.lean ====
/-
  Region 6 as a function of whole arrays. The kernel cuts the 74240 rows of the layer into 8 blocks of 9280; at
  every block it reads the two rows of column totals (sum and sum of squares), the scale row and the shift
  row, and writes back `γ · (x - mean) · rsqrt (max (E[x²] - mean²) 0 + ε) + β` on the block's rows, with
  `mean = total₀ / 74240` and `E[x²] = total₁ / 74240` taken as products with the reciprocal. Row `r` of the
  output is written by point `r / 9280` and depends on row `r` of the layer only, so the output array ends as
  the normalisation of the whole layer from the totals the region found.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_6 : (![0, 0] : Fin 2 → Nat) = fun _ => 0 := funext fun a => by fin_cases a <;> rfl

/-- The normalisation from given totals, of the whole arrays the region finds: the layer, the two rows of totals,
    the scale row and the shift row. -/
abbrev N6 (c : Dev nD) : Fin 74240 → Fin 128 → EReal :=
  Gcn.normT (Ideal.ofBits .f32 0x3727C5AC#32) (Gcn.cur (a := 74240) (b := 128) (V c (Pipeline.arrRef spec6 0)))
    (Gcn.cur (a := 2) (b := 128) (V c (Pipeline.arrRef spec6 1))) (Gcn.row (b := 128) (V c (Pipeline.arrRef spec6 2)))
    (Gcn.row (b := 128) (V c (Pipeline.arrRef spec6 3)))

/-- The index maps over the grid: the layer's block and the output's block move down one block of 9280 rows per point,
    the totals and the two rows stay. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The layer's block at point `t` is rows `9280 t …` of its array. -/
theorem iblk6_0_apply (c : Dev nD) (t : Fin cfg6.N) (x : S9280x128.Idx) (k : S74240x128.Idx)
    (hk0 : (k 0).val = 9280 * t.val + (x 0).val) (hk1 : (k 1).val = (x 1).val) :
    (iblk6 V c 0 t : Vec Ideal S9280x128 .f32) x = (V c (Pipeline.arrRef spec6 0) : S74240x128.Idx → EReal) k := by
  have e := idx_facts6 t
  unfold iblk6
  rw [View.read_apply]
  refine congrArg (V c (Pipeline.arrRef spec6 0) : S74240x128.Idx → EReal) ?_
  funext a
  apply Fin.ext
  match a with
  | ⟨0, _⟩ => show win6_0.index t 0 * 9280 + 1 * (x 0).val = (k 0).val; rw [hk0]; omega
  | ⟨1, _⟩ => show win6_0.index t 1 * 128 + 1 * (x 1).val = (k 1).val; rw [hk1]; omega

/-- Window 1's block at every point is its whole array. -/
theorem iblk6_1_apply (c : Dev nD) (t : Fin cfg6.N) (x : S2x128.Idx) :
    (iblk6 V c 1 t : Vec Ideal S2x128 .f32) x = (V c (Pipeline.arrRef spec6 1) : S2x128.Idx → EReal) x := by
  have e := idx_facts6 t
  unfold iblk6
  rw [View.read_apply]
  refine congrArg (V c (Pipeline.arrRef spec6 1) : S2x128.Idx → EReal) ?_
  funext a
  apply Fin.ext
  match a with
  | ⟨0, _⟩ => show win6_1.index t 0 * 2 + 1 * (x 0).val = (x 0).val; omega
  | ⟨1, _⟩ => show win6_1.index t 1 * 128 + 1 * (x 1).val = (x 1).val; omega

/-- Window 2's block at every point is its whole array. -/
theorem iblk6_2_apply (c : Dev nD) (t : Fin cfg6.N) (x : S1x128.Idx) :
    (iblk6 V c 2 t : Vec Ideal S1x128 .f32) x = (V c (Pipeline.arrRef spec6 2) : S1x128.Idx → EReal) x := by
  have e := idx_facts6 t
  unfold iblk6
  rw [View.read_apply]
  refine congrArg (V c (Pipeline.arrRef spec6 2) : S1x128.Idx → EReal) ?_
  funext a
  apply Fin.ext
  match a with
  | ⟨0, _⟩ => show win6_2.index t 0 * 1 + 1 * (x 0).val = (x 0).val; omega
  | ⟨1, _⟩ => show win6_2.index t 1 * 128 + 1 * (x 1).val = (x 1).val; omega

/-- Window 3's block at every point is its whole array. -/
theorem iblk6_3_apply (c : Dev nD) (t : Fin cfg6.N) (x : S1x128.Idx) :
    (iblk6 V c 3 t : Vec Ideal S1x128 .f32) x = (V c (Pipeline.arrRef spec6 3) : S1x128.Idx → EReal) x := by
  have e := idx_facts6 t
  unfold iblk6
  rw [View.read_apply]
  refine congrArg (V c (Pipeline.arrRef spec6 3) : S1x128.Idx → EReal) ?_
  funext a
  apply Fin.ext
  match a with
  | ⟨0, _⟩ => show win6_3.index t 0 * 1 + 1 * (x 0).val = (x 0).val; omega
  | ⟨1, _⟩ => show win6_3.index t 1 * 128 + 1 * (x 1).val = (x 1).val; omega

/-- The body loads the two rows of the totals separately: the first load reads row 0, -/
theorem ld_totals6_0 (x1 : Vec Ideal S2x128 .f32) (j : Fin 128) : View.ld x1 r6_1 (ix2 (0 : Fin 1) j) = x1 (ix2 (0 : Fin 2) j) := by
  show x1 _ = x1 _
  refine congrArg x1 (funext fun a => Fin.ext ?_)
  match a with
  | ⟨0, _⟩ => rfl
  | ⟨1, _⟩ => show 0 + 1 * j.val = j.val; omega

/-- and the second reads row 1. -/
theorem ld_totals6_1 (x1 : Vec Ideal S2x128 .f32) (j : Fin 128) : View.ld x1 r6_2 (ix2 (0 : Fin 1) j) = x1 (ix2 (1 : Fin 2) j) := by
  show x1 _ = x1 _
  refine congrArg x1 (funext fun a => Fin.ext ?_)
  match a with
  | ⟨0, _⟩ => rfl
  | ⟨1, _⟩ => show 0 + 1 * j.val = j.val; omega

/-- The normalised entry is a function of five numbers: the scale, the entry, the two totals and the shift. -/
theorem norm_entry_congr6 {g x m0 m1 b g' x' m0' m1' b' e : EReal} (hg : g = g') (hx : x = x') (h0 : m0 = m0') (h1 : m1 = m1') (hb : b = b') :
    g * (x - m0 * Gcn.invN) * Ideal.rsqrt (max (m1 * Gcn.invN - m0 * Gcn.invN * (m0 * Gcn.invN)) 0 + e) + b
      = g' * (x' - m0' * Gcn.invN) * Ideal.rsqrt (max (m1' * Gcn.invN - m0' * Gcn.invN * (m0' * Gcn.invN)) 0 + e) + b' := by
  subst hg hx h0 h1 hb; rfl

/-- What point `t` computes at entry `y` of its block is the normalised layer at row `9280 t + y₀`. -/
theorem norm_point6 (c : Dev nD) (t : Fin cfg6.N) (y : S9280x128.Idx) (k : S74240x128.Idx)
    (hk0 : (k 0).val = 9280 * t.val + (y 0).val) (hk1 : (k 1).val = (y 1).val) :
    k6_pay1 (F := Ideal) (iblk6 V c 0 t) (View.ld (iblk6 V c 1 t) r6_1) (View.ld (iblk6 V c 1 t) r6_2) (iblk6 V c 2 t) (iblk6 V c 3 t) y
      = Gcn.unc (N6 V c) k := by
  obtain ⟨i, j, rfl⟩ : ∃ (i : Fin 9280) (j : Fin 128), y = ix2 i j := ⟨y 0, y 1, eq_ix2 y⟩
  refine (k6_pay1_apply (iblk6 V c 0 t) (View.ld (iblk6 V c 1 t) r6_1) (View.ld (iblk6 V c 1 t) r6_2) (iblk6 V c 2 t) (iblk6 V c 3 t) i j).trans ?_
  have hj : k 1 = j := Fin.ext hk1
  show _ = Gcn.normT _ _ _ _ _ (k 0) (k 1)
  rw [hj]
  unfold Gcn.normT
  exact norm_entry_congr6
    (iblk6_2_apply V c t (ix2 0 j))
    (iblk6_0_apply V c t (ix2 i j) (ix2 (k 0) j) hk0 rfl)
    ((ld_totals6_0 (iblk6 V c 1 t) j).trans (iblk6_1_apply V c t (ix2 0 j)))
    ((ld_totals6_1 (iblk6 V c 1 t) j).trans (iblk6_1_apply V c t (ix2 1 j)))
    (iblk6_3_apply V c t (ix2 0 j))

/-- What point `t` writes back is block `t` of the normalised layer of the whole arrays. -/
theorem flushed6_4_eq (c : Dev nD) (t : Fin cfg6.N) :
    (dat6 V c).flushed 4 t = ((cfg6.win 4).blk t).view.read (Elt Ideal) (Gcn.unc (N6 V c)) := by
  show (cfg6.win 4).cut (grid6.coords t) ((dat6 V c).after 4 t) = _
  rw [after6_4]
  unfold out6_4
  rw [View.canon_unit_zero zeros2_6]
  simp only [View.ld_unit_zero (S := S9280x128) zeros2_6, View.ld_unit_zero (S := S1x128) zeros2_6]
  have e := idx_facts6 t
  funext y
  refine norm_point6 V c t y _ ?_ ?_
  · show win6_4.index t 0 * 9280 + 1 * (y 0).val = 9280 * t.val + (y 0).val; omega
  · show win6_4.index t 1 * 128 + 1 * (y 1).val = (y 1).val; omega

/-- An index of the output array is in point `t`'s block iff each coordinate is in the block's range on its axis. -/
theorem mem_blk6_4 (t : Fin cfg6.N) (i : S74240x128.Idx) :
    i ∈ ((cfg6.win 4).blk t).view.set ↔ ∀ a : Fin 2, win6_4.index t a * S9280x128.size a ≤ (i a).val ∧ (i a).val < win6_4.index t a * S9280x128.size a + S9280x128.size a := by
  show i ∈ ((View.whole main_v93).slice (win6_4.rect t)).set ↔ _
  rw [View.set_slice_whole, Rect.mem_set_unit]
  exact Iff.rfl

/-- Row `r` of the output is written by point `r / 9280`. -/
theorem covered6_4 (i : S74240x128.Idx) : ∃ t : Fin cfg6.N, (cfg6.win 4).flush t = true ∧ i ∈ ((cfg6.win 4).blk t).view.set := by
  have hi0 : (i 0).val < 74240 := (i 0).isLt
  have hi1 : (i 1).val < 128 := (i 1).isLt
  have hN : cfg6.N = 8 := N_6
  have e := idx_facts6 ⟨(i 0).val / 9280, by omega⟩
  refine ⟨⟨(i 0).val / 9280, by omega⟩, flush6_4 _, ?_⟩
  rw [mem_blk6_4]
  intro a
  match a with
  | ⟨0, _⟩ =>
    show win6_4.index ⟨(i 0).val / 9280, _⟩ 0 * 9280 ≤ (i 0).val ∧ (i 0).val < win6_4.index ⟨(i 0).val / 9280, _⟩ 0 * 9280 + 9280
    rw [e.2.2.2.2.2.2.2.2.1]; show (i 0).val / 9280 * 9280 ≤ (i 0).val ∧ (i 0).val < (i 0).val / 9280 * 9280 + 9280; omega
  | ⟨1, _⟩ =>
    show win6_4.index ⟨(i 0).val / 9280, _⟩ 1 * 128 ≤ (i 1).val ∧ (i 1).val < win6_4.index ⟨(i 0).val / 9280, _⟩ 1 * 128 + 128
    rw [e.2.2.2.2.2.2.2.2.2]; omega

/-- After the region the output array holds the normalisation, from the totals the region found, of the layer it found. -/
theorem final6_4 (c : Dev nD) : (dat6 V c).arrAt 4 cfg6.N = Gcn.unc (N6 V c) :=
  (dat6 V c).arrAt_eq_of_cover 4 (Gcn.unc (N6 V c)) (fun t _ => flushed6_4_eq V c t) covered6_4

end Cert.KernelIdeal.Regions

end
-- ==== Proof.KernelChainLayer3.lean ====
/-
  Layer 3 of the kernel's run: from the features at its entry to the normalised layer at its exit.

  The host line before the layer's first launch leaves the aggregated features and the layer's weights and biases
  in the buffers that launch stages; the launch leaves the layer before normalisation and, per tile of 4640 rows,
  each column's sum and sum of squares. The next host line adds the sixteen tiles' statistics and leaves the layer's
  scale and shift; the second launch normalises every column from those totals. Whatever matrix `h` the features
  buffer holds at the layer's entry, the exit buffer holds the layer applied to `h`.
-/
import proofs.«176821_j3375844294866_2_alg».proof.Proof.KernelChainBase
import proofs.«176821_j3375844294866_2_alg».proof.Proof.RegionPre5
import proofs.«176821_j3375844294866_2_alg».proof.Proof.RegionNorm6

set_option maxRecDepth 16384

noncomputable section

namespace Cert.KernelIdeal.Chain

open Idealize.ShloMosaic Idealize.ShloMosaic.TcCoe Idealize.ShloMosaic.ValueIdx Idealize.SL.Sem
open Cert.KernelIdeal.Gen

variable (m : (ℓ : Loc nD τ sig) → Buf (Elt Ideal) ℓ) (ρ : Dev nD → PrngReg) (c : Dev nD)

/-! ## Layer 3: launches 5 and 6 -/

section
variable (h : Gcn.Mat) (hh : W9 m ρ c (Proc.devRef .tc main_v62) = Gcn.unc h)
include hh

/-- What launch 5 stages: the aggregated features, the features, and the layer's weights and biases. -/
theorem in5_0 : V10 m ρ c (Pipeline.arrRef spec5 0) = aggK (F := Ideal) (Gcn.unc h) (argSrc m c) (argDst m c) := by
  refine (line5_agg (W9 m ρ c)).trans ?_
  rw [hh, W9_param m ρ c (b := main_arg1) (by decide), W9_param m ρ c (b := main_arg2) (by decide)]
theorem in5_1 : V10 m ρ c (Pipeline.arrRef spec5 1) = Gcn.unc h := (line5_h (W9 m ρ c)).trans hh
theorem in5_2 : V10 m ρ c (Pipeline.arrRef spec5 2)
    = matOf (F := Ideal) ![2, 0, 0] slices_S3x128x128_S1x128x128_2_0_0 (argWg m c) :=
  (line5_Wg (W9 m ρ c)).trans (congrArg _ (W9_param m ρ c (b := main_arg4) (by decide)))
theorem in5_3 : V10 m ρ c (Pipeline.arrRef spec5 3)
    = rowOf (F := Ideal) ![2, 0] slices_S3x128_S1x128_2_0 (argBg m c) :=
  (line5_bg (W9 m ρ c)).trans (congrArg _ (W9_param m ρ c (b := main_arg5) (by decide)))
theorem in5_4 : V10 m ρ c (Pipeline.arrRef spec5 4)
    = matOf (F := Ideal) ![2, 0, 0] slices_S3x128x128_S1x128x128_2_0_0 (argWr m c) :=
  (line5_Wr (W9 m ρ c)).trans (congrArg _ (W9_param m ρ c (b := main_arg6) (by decide)))
theorem in5_5 : V10 m ρ c (Pipeline.arrRef spec5 5)
    = rowOf (F := Ideal) ![2, 0] slices_S3x128_S1x128_2_0 (argBr m c) :=
  (line5_br (W9 m ρ c)).trans (congrArg _ (W9_param m ρ c (b := main_arg7) (by decide)))

/-- The layer before normalisation, as launch 5 computes it from what it stages. -/
theorem pre5 : Regions.P5 (V10 m ρ) c = preL m c 2 h := by
  unfold Regions.P5
  rw [in5_0 m ρ c h hh, in5_1 m ρ c h hh, in5_2 m ρ c h hh, in5_3 m ρ c h hh, in5_4 m ρ c h hh, in5_5 m ρ c h hh,
    cur_matOf _ ![2, 0, 0] 2 rfl rfl rfl, row_rowOf _ ![2, 0] 2 rfl rfl, cur_matOf _ ![2, 0, 0] 2 rfl rfl rfl, row_rowOf _ ![2, 0] 2 rfl rfl]
  rfl

/-- What launch 5 leaves: the layer before normalisation and its per-tile statistics. -/
theorem out5_p : W11 m ρ c (Proc.devRef .tc main_v85_0) = Gcn.unc (preL m c 2 h) :=
  ((W11_arr m ρ c 6).trans (Regions.final5_6 (V10 m ρ) c)).trans (congrArg Gcn.unc (pre5 m ρ c h hh))
theorem out5_st : W11 m ρ c (Proc.devRef .tc main_v85_1)
    = fun i => Gcn.tileStats (preL m c 2 h) (i 0) (i 1) (i 2) :=
  ((W11_arr m ρ c 7).trans (Regions.final5_7 (V10 m ρ) c)).trans
    (congrArg (fun (P : Gcn.Mat) (i : S16x2x128.Idx) => Gcn.tileStats P (i 0) (i 1) (i 2)) (pre5 m ρ c h hh))

/-- What launch 6 stages: that layer, the statistics' totals, and the layer's scale and shift. -/
theorem in6_0 : V12 m ρ c (Pipeline.arrRef spec6 0) = Gcn.unc (preL m c 2 h) :=
  (line6_p (W11 m ρ c)).trans (out5_p m ρ c h hh)
theorem in6_1 : V12 m ρ c (Pipeline.arrRef spec6 1)
    = totOf (F := Ideal) (fun i => Gcn.tileStats (preL m c 2 h) (i 0) (i 1) (i 2)) :=
  (line6_tot (W11 m ρ c)).trans (congrArg totOf (out5_st m ρ c h hh))
theorem in6_2 : V12 m ρ c (Pipeline.arrRef spec6 2)
    = rowOf (F := Ideal) ![2, 0] slices_S3x128_S1x128_2_0 (argGamma m c) :=
  (line6_gamma (W11 m ρ c)).trans (congrArg _ (W11_param m ρ c (b := main_arg8) (by decide)))
theorem in6_3 : V12 m ρ c (Pipeline.arrRef spec6 3)
    = rowOf (F := Ideal) ![2, 0] slices_S3x128_S1x128_2_0 (argBeta m c) :=
  (line6_beta (W11 m ρ c)).trans (congrArg _ (W11_param m ρ c (b := main_arg9) (by decide)))

/-- Launch 6 leaves the whole layer applied to the features the layer started from. -/
theorem layer3 : W13 m ρ c (Proc.devRef .tc main_v93) = Gcn.unc (layerL m c 2 h) := by
  refine ((W13_arr m ρ c 4).trans (Regions.final6_4 (V12 m ρ) c)).trans (congrArg Gcn.unc ?_)
  unfold Regions.N6
  rw [in6_0 m ρ c h hh, in6_1 m ρ c h hh, in6_2 m ρ c h hh, in6_3 m ρ c h hh, cur_totOf,
    row_rowOf _ ![2, 0] 2 rfl rfl, row_rowOf _ ![2, 0] 2 rfl rfl]
  rfl

end

end Cert.KernelIdeal.Chain

end
-- ==== Proof.RegionEmbed.lean ====
/-
  Region 0 as a function of whole arrays: the kernel cuts the 74240 rows of the feature array into 16 blocks
  of 4640, multiplies each block by the (whole) embedding matrix and writes the product back as the same
  block of rows of the output. Row `r` of the output is therefore row `r` of `X · W`: it is written by
  point `r / 4640`, which reads exactly that row of `X`.
-/
import proofs.«176821_j3375844294866_2_alg».proof.Proof.Gen.KernelIdeal.Frame
import proofs.«176821_j3375844294866_2_alg».proof.Proof.RegionPayloads
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The embedding of the whole feature array: what the region's output array ends holding. -/
abbrev G0 (c : Dev nD) : S74240x128.Idx → EReal :=
  Gcn.unc (Gcn.mm (Gcn.cur (a := 74240) (b := 75) (V c (Pipeline.arrRef spec0 0))) (Gcn.cur (a := 75) (b := 128) (V c (Pipeline.arrRef spec0 1))))

/-- The index maps over the grid: the feature block and the output block move down one block of rows per point,
    the embedding matrix stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `4640 t …` of the feature array. -/
theorem iblk0_0_apply (c : Dev nD) (t : Fin cfg0.N) (x : S4640x75.Idx) (k : S74240x75.Idx)
    (hk0 : (k 0).val = 4640 * t.val + (x 0).val) (hk1 : (k 1).val = (x 1).val) :
    (iblk0 V c 0 t : Vec Ideal S4640x75 .f32) x = (V c (Pipeline.arrRef spec0 0) : S74240x75.Idx → EReal) k := by
  obtain ⟨e0, e1, -, -, -, -⟩ := idx_facts0 t
  unfold iblk0
  rw [View.read_apply]
  refine congrArg (V c (Pipeline.arrRef spec0 0) : S74240x75.Idx → EReal) ?_
  funext a
  apply Fin.ext
  match a with
  | ⟨0, _⟩ => show win0_0.index t 0 * 4640 + 1 * (x 0).val = (k 0).val; rw [e0, hk0]; omega
  | ⟨1, _⟩ => show win0_0.index t 1 * 75 + 1 * (x 1).val = (k 1).val; rw [e1, hk1]; omega

/-- The embedding matrix's block at every point is the whole matrix. -/
theorem iblk0_1_apply (c : Dev nD) (t : Fin cfg0.N) (x : S75x128.Idx) :
    (iblk0 V c 1 t : Vec Ideal S75x128 .f32) x = (V c (Pipeline.arrRef spec0 1) : S75x128.Idx → EReal) x := by
  obtain ⟨-, -, e2, e3, -, -⟩ := idx_facts0 t
  unfold iblk0
  rw [View.read_apply]
  refine congrArg (V c (Pipeline.arrRef spec0 1) : S75x128.Idx → EReal) ?_
  funext a
  apply Fin.ext
  match a with
  | ⟨0, _⟩ => show win0_1.index t 0 * 75 + 1 * (x 0).val = (x 0).val; rw [e2]; omega
  | ⟨1, _⟩ => show win0_1.index t 1 * 128 + 1 * (x 1).val = (x 1).val; rw [e3]; omega

/-- What point `t` computes at entry `y` of its block is the embedding at row `4640 t + y₀`. -/
theorem embed_point (c : Dev nD) (t : Fin cfg0.N) (y : S4640x128.Idx) (k : S74240x128.Idx)
    (hk0 : (k 0).val = 4640 * t.val + (y 0).val) (hk1 : (k 1).val = (y 1).val) :
    k0_pay1 (F := Ideal) (iblk0 V c 0 t) (iblk0 V c 1 t) y = G0 V c k := by
  obtain ⟨i, j, rfl⟩ : ∃ (i : Fin 4640) (j : Fin 128), y = ix2 i j := ⟨y 0, y 1, eq_ix2 y⟩
  refine (k0_pay1_apply (iblk0 V c 0 t) (iblk0 V c 1 t) i j).trans ?_
  show Gcn.mm _ _ i j = Gcn.mm _ _ (k 0) (k 1)
  unfold Gcn.mm
  refine Finset.sum_congr rfl fun l _ => ?_
  exact congrArg₂ (· * ·) (iblk0_0_apply V c t (ix2 i l) (ix2 (k 0) l) hk0 rfl)
    ((iblk0_1_apply V c t (ix2 l j)).trans (congrArg _ (funext fun a => Fin.ext (by
      match a with
      | ⟨0, _⟩ => rfl
      | ⟨1, _⟩ => exact hk1.symm))))

/-- What point `t` writes back is block `t` of the embedding of the whole array. -/
theorem flushed0_2_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero zeros2]
  simp only [View.ld_unit_zero (S := S4640x75) zeros2, View.ld_unit_zero (S := S75x128) zeros2]
  obtain ⟨-, -, -, -, e4, e5⟩ := idx_facts0 t
  funext y
  refine embed_point V c t y _ ?_ ?_
  · show win0_2.index t 0 * 4640 + 1 * (y 0).val = 4640 * t.val + (y 0).val; rw [e4]; omega
  · show win0_2.index t 1 * 128 + 1 * (y 1).val = (y 1).val; rw [e5]; omega

/-- An index of the output array is in point `t`'s block iff each coordinate is in the block's range on its axis. -/
theorem mem_blk0_2 (t : Fin cfg0.N) (i : S74240x128.Idx) :
    i ∈ ((cfg0.win 2).blk t).view.set ↔ ∀ a : Fin 2, win0_2.index t a * S4640x128.size a ≤ (i a).val ∧ (i a).val < win0_2.index t a * S4640x128.size a + S4640x128.size a := by
  show i ∈ ((View.whole main_v0).slice (win0_2.rect t)).set ↔ _
  rw [View.set_slice_whole, Rect.mem_set_unit]
  exact Iff.rfl

/-- Row `r` of the output is written by point `r / 4640`. -/
theorem covered0_2 (i : S74240x128.Idx) : ∃ t : Fin cfg0.N, (cfg0.win 2).flush t = true ∧ i ∈ ((cfg0.win 2).blk t).view.set := by
  have hi0 : (i 0).val < 74240 := (i 0).isLt
  have hi1 : (i 1).val < 128 := (i 1).isLt
  have hN : cfg0.N = 16 := N_0
  obtain ⟨-, -, -, -, e4, e5⟩ := idx_facts0 ⟨(i 0).val / 4640, by omega⟩
  refine ⟨⟨(i 0).val / 4640, by omega⟩, flush0_2 _, ?_⟩
  rw [mem_blk0_2]
  intro a
  match a with
  | ⟨0, _⟩ =>
    show win0_2.index ⟨(i 0).val / 4640, _⟩ 0 * 4640 ≤ (i 0).val ∧ (i 0).val < win0_2.index ⟨(i 0).val / 4640, _⟩ 0 * 4640 + 4640
    rw [e4]; show (i 0).val / 4640 * 4640 ≤ (i 0).val ∧ (i 0).val < (i 0).val / 4640 * 4640 + 4640; omega
  | ⟨1, _⟩ =>
    show win0_2.index ⟨(i 0).val / 4640, _⟩ 1 * 128 ≤ (i 1).val ∧ (i 1).val < win0_2.index ⟨(i 0).val / 4640, _⟩ 1 * 128 + 128
    rw [e5]; omega

/-- After region 0 the output array holds the embedding of the feature array the region found. -/
theorem final0 (c : Dev nD) : (dat0 V c).arrAt 2 cfg0.N = G0 V c :=
  (dat0 V c).arrAt_eq_of_cover 2 (G0 V c) (fun t _ => flushed0_2_eq V c t) (covered0_2)

end Cert.KernelIdeal.Regions

end
-- ==== Proof.KernelChain.lean ====
/-
  The kernel's run with its value: the embedded features through three layers.

  The first launch leaves the node features times the embedding matrix; each layer maps the features at its entry to
  the normalised layer at its exit; the last host line views the 74240 x 128 result as 256 x 290 x 128. Composed,
  the result buffer at the end of the program's fold is the three layers applied to the embedded features, and every
  weakly fair execution ends with the result buffer at that value and the argument arrays as launched.
-/
import proofs.«176821_j3375844294866_2_alg».proof.Proof.KernelRun
import proofs.«176821_j3375844294866_2_alg».proof.Proof.KernelChainLayer1
import proofs.«176821_j3375844294866_2_alg».proof.Proof.KernelChainLayer2
import proofs.«176821_j3375844294866_2_alg».proof.Proof.KernelChainLayer3
import proofs.«176821_j3375844294866_2_alg».proof.Proof.RegionEmbed

set_option maxRecDepth 16384

noncomputable section

namespace Cert.KernelIdeal.Chain

open Idealize.ShloMosaic Idealize.ShloMosaic.TcCoe Idealize.ShloMosaic.ValueIdx Idealize.SL.Sem
open Cert.KernelIdeal.Gen

variable (m : (ℓ : Loc nD τ sig) → Buf (Elt Ideal) ℓ) (ρ : Dev nD → PrngReg) (c : Dev nD)

/-! ## The embedding, and the three layers composed -/

/-- The first launch leaves the node features times the embedding matrix. -/
theorem embed : W1 m ρ c (Proc.devRef .tc main_v0) = Gcn.unc (Gcn.mm (Gcn.cur (argX m c)) (Gcn.cur (argW0 m c))) :=
  (W1_arr m ρ c 2).trans (Regions.final0 (V0 m ρ) c)

/-- The result buffer at the end of the fold: the three layers applied to the embedded features, viewed as
    256 x 290 x 128. -/
theorem value : W14 m ρ c (Proc.devRef .tc main_v94)
    = outOf (F := Ideal) (Gcn.unc (layerL m c 2 (layerL m c 1 (layerL m c 0
        (Gcn.mm (Gcn.cur (argX m c)) (Gcn.cur (argW0 m c))))))) :=
  (line7_out (W13 m ρ c)).trans (congrArg outOf
    (layer3 m ρ c _ (layer2 m ρ c _ (layer1 m ρ c _ (embed m ρ c)))))

/-- Every weakly fair execution terminates, nothing faulting; the result buffer ends at the three layers applied to
    the embedded features, and every argument array ends as launched. -/
theorem run : θ_run defs (onTc (τ := τ) (main (F := Ideal))) ⟨m, fun _ => 0, ρ⟩ (fun r => ∀ c : Dev nD,
      r.2.mem ((c.tc : Thread nD τ).loc main_v94)
        = outOf (F := Ideal) (Gcn.unc (layerL m c 2 (layerL m c 1 (layerL m c 0
            (Gcn.mm (Gcn.cur (argX m c)) (Gcn.cur (argW0 m c)))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (run_value m ρ)

end Cert.KernelIdeal.Chain

end
-- ==== Proof.RefOpsTable.lean ====
/- The reference program's operations, window by window and in order; each call of a function is replaced by that
   function's own operations over the buffers the call names. -/
import proofs.«176821_j3375844294866_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 85 operations of window 0 of the program, in order. -/
abbrev ops0 : List (HloOp τ sig (Elt F)) :=
  [
    StableHlo.binary main_arg0 main_arg3 main_v0 ((fun l r => Host.dotGeneral dot_S74240x75_S75x128_S74240x128_1_0_0_1_n_n none l r) : (⟨S74240x75, .f32⟩ : BufTy).Contents (Elt F) → (⟨S75x128, .f32⟩ : BufTy).Contents (Elt F) → (⟨S74240x128, .f32⟩ : BufTy).Contents (Elt F)),
    StableHlo.nullary main_c (constantI S_ 32 0#32),
    StableHlo.unary main_c main_v1 (broadcastInDim S593920 ![] bcast_S_S593920 : (⟨S_, .i32⟩ : BufTy).Contents (Elt F) → (⟨S593920, .i32⟩ : BufTy).Contents (Elt F)),
    StableHlo.binary main_arg1 main_v1 main_v2 (cmpi .slt : (⟨S593920, .i32⟩ : BufTy).Contents (Elt F) → (⟨S593920, .i32⟩ : BufTy).Contents (Elt F) → (⟨S593920, .i1⟩ : BufTy).Contents (Elt F)),
    StableHlo.nullary main_c_0 (constantI S_ 32 74240#32),
    StableHlo.unary main_c_0 main_v3 (broadcastInDim S593920 ![] bcast_S_S593920 : (⟨S_, .i32⟩ : BufTy).Contents (Elt F) → (⟨S593920, .i32⟩ : BufTy).Contents (Elt F)),
    StableHlo.binary main_arg1 main_v3 main_v4 (addi : (⟨S593920, .i32⟩ : BufTy).Contents (Elt F) → (⟨S593920, .i32⟩ : BufTy).Contents (Elt F) → (⟨S593920, .i32⟩ : BufTy).Contents (Elt F)),
    StableHlo.ternary main_v2 main_v4 main_arg1 main_v5 (select : (⟨S593920, .i1⟩ : BufTy).Contents (Elt F) → (⟨S593920, .i32⟩ : BufTy).Contents (Elt F) → (⟨S593920, .i32⟩ : BufTy).Contents (Elt F) → (⟨S593920, .i32⟩ : BufTy).Contents (Elt F)),
    StableHlo.unary main_v5 main_v6 (broadcastInDim S593920x1 ![0] bcast_S593920_S593920x1_0 : (⟨S593920, .i32⟩ : BufTy).Contents (Elt F) → (⟨S593920x1, .i32⟩ : BufTy).Contents (Elt F)),
    StableHlo.binary main_v0 main_v6 main_v7 ((fun x i => Host.gather gather_S74240x128_S593920x1_S593920x128_1_0_n_n_0_1_1128 x i) : (⟨S74240x128, .f32⟩ : BufTy).Contents (Elt F) → (⟨S593920x1, .i32⟩ : BufTy).Contents (Elt F) → (⟨S593920x128, .f32⟩ : BufTy).Contents (Elt F)),
    StableHlo.nullary main_cst (constant S_ .f32 0x00000000#32),
    StableHlo.unary main_cst main_v8 (broadcastInDim S74240x128 ![] bcast_S_S74240x128 : (⟨S_, .f32⟩ : BufTy).Contents (Elt F) → (⟨S74240x128, .f32⟩ : BufTy).Contents (Elt F)),
    StableHlo.unary main_arg2 main_v9 (broadcastInDim S593920x1 ![0] bcast_S593920_S593920x1_0 : (⟨S593920, .i32⟩ : BufTy).Contents (Elt F) → (⟨S593920x1, .i32⟩ : BufTy).Contents (Elt F)),
    StableHlo.ternary main_v8 main_v9 main_v7 main_v10 ((fun x i u => Host.scatterAdd scatter_S74240x128_S593920x1_S593920x128_1_0_0_1 x i u) : (⟨S74240x128, .f32⟩ : BufTy).Contents (Elt F) → (⟨S593920x1, .i32⟩ : BufTy).Contents (Elt F) → (⟨S593920x128, .f32⟩ : BufTy).Contents (Elt F) → (⟨S74240x128, .f32⟩ : BufTy).Contents (Elt F)),
    StableHlo.unary main_arg4 main_v11 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v11 main_v12 rfl shapeCasts_S1x128x128_S128x128,
    StableHlo.binary main_v10 main_v12 main_v13 ((fun l r => Host.dotGeneral dot_S74240x128_S128x128_S74240x128_1_0_0_1_n_n none l r) : (⟨S74240x128, .f32⟩ : BufTy).Contents (Elt F) → (⟨S128x128, .f32⟩ : BufTy).Contents (Elt F) → (⟨S74240x128, .f32⟩ : BufTy).Contents (Elt F)),
    StableHlo.unary main_arg5 main_v14 ((extractStridedSlice S1x128 ![0, 0] · slices_S3x128_S1x128_0_0) : (⟨S3x128, .f32⟩ : BufTy).Contents (Elt F) → (⟨S1x128, .f32⟩ : BufTy).Contents (Elt F)),
    StableHlo.reshape main_v14 main_v15 rfl shapeCasts_S1x128_S128,
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S74240x128 ![0, 1] bcast_S1x128_S74240x128_0_1 : (⟨S1x128, .f32⟩ : BufTy).Contents (Elt F) → (⟨S74240x128, .f32⟩ : BufTy).Contents (Elt F)),
    StableHlo.binary main_v13 main_v17 main_v18 (addf : (⟨S74240x128, .f32⟩ : BufTy).Contents (Elt F) → (⟨S74240x128, .f32⟩ : BufTy).Contents (Elt F) → (⟨S74240x128, .f32⟩ : BufTy).Contents (Elt F)),
    StableHlo.TRef.nullary main_call0.cst (constant S_ .f32 0x00000000#32),
    StableHlo.TRef.unary main_call0.cst main_call0.v0 (broadcastInDim S74240x128 ![] bcast_S_S74240x128),
    StableHlo.TRef.binary (.of main_v18) main_call0.v0 main_call0.v1 maximumf,
    StableHlo.unary main_arg6 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v20 main_v21 rfl shapeCasts_S1x128x128_S128x128,
    StableHlo.binary main_v0 main_v21 main_v22 ((fun l r => Host.dotGeneral dot_S74240x128_S128x128_S74240x128_1_0_0_1_n_n none l r) : (⟨S74240x128, .f32⟩ : BufTy).Contents (Elt F) → (⟨S128x128, .f32⟩ : BufTy).Contents (Elt F) → (⟨S74240x128, .f32⟩ : BufTy).Contents (Elt F)),
    StableHlo.unary main_arg7 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S74240x128 ![0, 1] bcast_S1x128_S74240x128_0_1 : (⟨S1x128, .f32⟩ : BufTy).Contents (Elt F) → (⟨S74240x128, .f32⟩ : BufTy).Contents (Elt F)),
    StableHlo.binary main_v22 main_v26 main_v27 (addf : (⟨S74240x128, .f32⟩ : BufTy).Contents (Elt F) → (⟨S74240x128, .f32⟩ : BufTy).Contents (Elt F) → (⟨S74240x128, .f32⟩ : BufTy).Contents (Elt F)),
    StableHlo.TRef.nullary main_call1.cst (constant S_ .f32 0x00000000#32),
    StableHlo.TRef.unary main_call1.cst main_call1.v0 (broadcastInDim S74240x128 ![] bcast_S_S74240x128),
    StableHlo.TRef.binary (.of main_v27) main_call1.v0 main_call1.v1 maximumf,
    StableHlo.binary main_v19 main_v28 main_v29 (addf : (⟨S74240x128, .f32⟩ : BufTy).Contents (Elt F) → (⟨S74240x128, .f32⟩ : BufTy).Contents (Elt F) → (⟨S74240x128, .f32⟩ : BufTy).Contents (Elt F)),
    StableHlo.nullary main_cst_1 (constant S_ .f32 0x00000000#32),
    StableHlo.binary main_v29 main_cst_1 main_v30 ((fun x v => Host.reduceAdd x v reducesTo_S74240x128_S128_d0 h_S_) : (⟨S74240x128, .f32⟩ : BufTy).Contents (Elt F) → (⟨S_, .f32⟩ : BufTy).Contents (Elt F) → (⟨S128, .f32⟩ : BufTy).Contents (Elt F)),
    StableHlo.nullary main_cst_2 (constant S_ .f32 0x47910000#32),
    StableHlo.unary main_cst_2 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v29) main_call2.cst main_call2.v0 (fun x v => Host.reduceAdd x v reducesTo_S74240x128_S128_d0 h_S_),
    StableHlo.TRef.unary main_call2.v0 main_call2.v1 (broadcastInDim S1x128 ![1] bcast_S128_S1x128_1),
    StableHlo.TRef.nullary main_call2.cst_0 (constant S_ .f32 0x47910000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S74240x128 ![0, 1] bcast_S1x128_S74240x128_0_1),
    StableHlo.TRef.binary (.of main_v29) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47910000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S74240x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_arg8 main_v34 ((extractStridedSlice S1x128 ![0, 0] · slices_S3x128_S1x128_0_0) : (⟨S3x128, .f32⟩ : BufTy).Contents (Elt F) → (⟨S1x128, .f32⟩ : BufTy).Contents (Elt F)),
    StableHlo.reshape main_v34 main_v35 rfl shapeCasts_S1x128_S128,
    StableHlo.unary main_v32 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S74240x128 ![0, 1] bcast_S1x128_S74240x128_0_1 : (⟨S1x128, .f32⟩ : BufTy).Contents (Elt F) → (⟨S74240x128, .f32⟩ : BufTy).Contents (Elt F)),
    StableHlo.binary main_v29 main_v37 main_v38 (subf : (⟨S74240x128, .f32⟩ : BufTy).Contents (Elt F) → (⟨S74240x128, .f32⟩ : BufTy).Contents (Elt F) → (⟨S74240x128, .f32⟩ : BufTy).Contents (Elt F)),
    StableHlo.unary main_v35 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S74240x128 ![0, 1] bcast_S1x128_S74240x128_0_1 : (⟨S1x128, .f32⟩ : BufTy).Contents (Elt F) → (⟨S74240x128, .f32⟩ : BufTy).Contents (Elt F)),
    StableHlo.binary main_v40 main_v38 main_v41 (mulf : (⟨S74240x128, .f32⟩ : BufTy).Contents (Elt F) → (⟨S74240x128, .f32⟩ : BufTy).Contents (Elt F) → (⟨S74240x128, .f32⟩ : BufTy).Contents (Elt F)),
    StableHlo.nullary main_cst_4 (constant S_ .f32 0x3727C5AC#32),
    StableHlo.unary main_cst_4 main_v42 (broadcastInDim S128 ![] bcast_S_S128 : (⟨S_, .f32⟩ : BufTy).Contents (Elt F) → (⟨S128, .f32⟩ : BufTy).Contents (Elt F)),
    StableHlo.binary main_v33 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S74240x128 ![0, 1] bcast_S1x128_S74240x128_0_1 : (⟨S1x128, .f32⟩ : BufTy).Contents (Elt F) → (⟨S74240x128, .f32⟩ : BufTy).Contents (Elt F)),
    StableHlo.binary main_v41 main_v46 main_v47 (mulf : (⟨S74240x128, .f32⟩ : BufTy).Contents (Elt F) → (⟨S74240x128, .f32⟩ : BufTy).Contents (Elt F) → (⟨S74240x128, .f32⟩ : BufTy).Contents (Elt F)),
    StableHlo.unary main_arg9 main_v48 ((extractStridedSlice S1x128 ![0, 0] · slices_S3x128_S1x128_0_0) : (⟨S3x128, .f32⟩ : BufTy).Contents (Elt F) → (⟨S1x128, .f32⟩ : BufTy).Contents (Elt F)),
    StableHlo.reshape main_v48 main_v49 rfl shapeCasts_S1x128_S128,
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S74240x128 ![0, 1] bcast_S1x128_S74240x128_0_1 : (⟨S1x128, .f32⟩ : BufTy).Contents (Elt F) → (⟨S74240x128, .f32⟩ : BufTy).Contents (Elt F)),
    StableHlo.binary main_v47 main_v51 main_v52 (addf : (⟨S74240x128, .f32⟩ : BufTy).Contents (Elt F) → (⟨S74240x128, .f32⟩ : BufTy).Contents (Elt F) → (⟨S74240x128, .f32⟩ : BufTy).Contents (Elt F)) ]

/-- The 85 operations of window 1 of the program, in order. -/
abbrev ops1 : List (HloOp τ sig (Elt F)) :=
  [
    StableHlo.nullary main_c_5 (constantI S_ 32 0#32),
    StableHlo.unary main_c_5 main_v53 (broadcastInDim S593920 ![] bcast_S_S593920 : (⟨S_, .i32⟩ : BufTy).Contents (Elt F) → (⟨S593920, .i32⟩ : BufTy).Contents (Elt F)),
    StableHlo.binary main_arg1 main_v53 main_v54 (cmpi .slt : (⟨S593920, .i32⟩ : BufTy).Contents (Elt F) → (⟨S593920, .i32⟩ : BufTy).Contents (Elt F) → (⟨S593920, .i1⟩ : BufTy).Contents (Elt F)),
    StableHlo.nullary main_c_6 (constantI S_ 32 74240#32),
    StableHlo.unary main_c_6 main_v55 (broadcastInDim S593920 ![] bcast_S_S593920 : (⟨S_, .i32⟩ : BufTy).Contents (Elt F) → (⟨S593920, .i32⟩ : BufTy).Contents (Elt F)),
    StableHlo.binary main_arg1 main_v55 main_v56 (addi : (⟨S593920, .i32⟩ : BufTy).Contents (Elt F) → (⟨S593920, .i32⟩ : BufTy).Contents (Elt F) → (⟨S593920, .i32⟩ : BufTy).Contents (Elt F)),
    StableHlo.ternary main_v54 main_v56 main_arg1 main_v57 (select : (⟨S593920, .i1⟩ : BufTy).Contents (Elt F) → (⟨S593920, .i32⟩ : BufTy).Contents (Elt F) → (⟨S593920, .i32⟩ : BufTy).Contents (Elt F) → (⟨S593920, .i32⟩ : BufTy).Contents (Elt F)),
    StableHlo.unary main_v57 main_v58 (broadcastInDim S593920x1 ![0] bcast_S593920_S593920x1_0 : (⟨S593920, .i32⟩ : BufTy).Contents (Elt F) → (⟨S593920x1, .i32⟩ : BufTy).Contents (Elt F)),
    StableHlo.binary main_v52 main_v58 main_v59 ((fun x i => Host.gather gather_S74240x128_S593920x1_S593920x128_1_0_n_n_0_1_1128 x i) : (⟨S74240x128, .f32⟩ : BufTy).Contents (Elt F) → (⟨S593920x1, .i32⟩ : BufTy).Contents (Elt F) → (⟨S593920x128, .f32⟩ : BufTy).Contents (Elt F)),
    StableHlo.nullary main_cst_7 (constant S_ .f32 0x00000000#32),
    StableHlo.unary main_cst_7 main_v60 (broadcastInDim S74240x128 ![] bcast_S_S74240x128 : (⟨S_, .f32⟩ : BufTy).Contents (Elt F) → (⟨S74240x128, .f32⟩ : BufTy).Contents (Elt F)),
    StableHlo.unary main_arg2 main_v61 (broadcastInDim S593920x1 ![0] bcast_S593920_S593920x1_0 : (⟨S593920, .i32⟩ : BufTy).Contents (Elt F) → (⟨S593920x1, .i32⟩ : BufTy).Contents (Elt F)),
    StableHlo.ternary main_v60 main_v61 main_v59 main_v62 ((fun x i u => Host.scatterAdd scatter_S74240x128_S593920x1_S593920x128_1_0_0_1 x i u) : (⟨S74240x128, .f32⟩ : BufTy).Contents (Elt F) → (⟨S593920x1, .i32⟩ : BufTy).Contents (Elt F) → (⟨S593920x128, .f32⟩ : BufTy).Contents (Elt F) → (⟨S74240x128, .f32⟩ : BufTy).Contents (Elt F)),
    StableHlo.unary main_arg4 main_v63 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v63 main_v64 rfl shapeCasts_S1x128x128_S128x128,
    StableHlo.binary main_v62 main_v64 main_v65 ((fun l r => Host.dotGeneral dot_S74240x128_S128x128_S74240x128_1_0_0_1_n_n none l r) : (⟨S74240x128, .f32⟩ : BufTy).Contents (Elt F) → (⟨S128x128, .f32⟩ : BufTy).Contents (Elt F) → (⟨S74240x128, .f32⟩ : BufTy).Contents (Elt F)),
    StableHlo.unary main_arg5 main_v66 ((extractStridedSlice S1x128 ![1, 0] · slices_S3x128_S1x128_1_0) : (⟨S3x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S74240x128 ![0, 1] bcast_S1x128_S74240x128_0_1 : (⟨S1x128, .f32⟩ : BufTy).Contents (Elt F) → (⟨S74240x128, .f32⟩ : BufTy).Contents (Elt F)),
    StableHlo.binary main_v65 main_v69 main_v70 (addf : (⟨S74240x128, .f32⟩ : BufTy).Contents (Elt F) → (⟨S74240x128, .f32⟩ : BufTy).Contents (Elt F) → (⟨S74240x128, .f32⟩ : BufTy).Contents (Elt F)),
    StableHlo.TRef.nullary main_call3.cst (constant S_ .f32 0x00000000#32),
    StableHlo.TRef.unary main_call3.cst main_call3.v0 (broadcastInDim S74240x128 ![] bcast_S_S74240x128),
    StableHlo.TRef.binary (.of main_v70) main_call3.v0 main_call3.v1 maximumf,
    StableHlo.unary main_arg6 main_v72 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v72 main_v73 rfl shapeCasts_S1x128x128_S128x128,
    StableHlo.binary main_v52 main_v73 main_v74 ((fun l r => Host.dotGeneral dot_S74240x128_S128x128_S74240x128_1_0_0_1_n_n none l r) : (⟨S74240x128, .f32⟩ : BufTy).Contents (Elt F) → (⟨S128x128, .f32⟩ : BufTy).Contents (Elt F) → (⟨S74240x128, .f32⟩ : BufTy).Contents (Elt F)),
    StableHlo.unary main_arg7 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S74240x128 ![0, 1] bcast_S1x128_S74240x128_0_1 : (⟨S1x128, .f32⟩ : BufTy).Contents (Elt F) → (⟨S74240x128, .f32⟩ : BufTy).Contents (Elt F)),
    StableHlo.binary main_v74 main_v78 main_v79 (addf : (⟨S74240x128, .f32⟩ : BufTy).Contents (Elt F) → (⟨S74240x128, .f32⟩ : BufTy).Contents (Elt F) → (⟨S74240x128, .f32⟩ : BufTy).Contents (Elt F)),
    StableHlo.TRef.nullary main_call4.cst (constant S_ .f32 0x00000000#32),
    StableHlo.TRef.unary main_call4.cst main_call4.v0 (broadcastInDim S74240x128 ![] bcast_S_S74240x128),
    StableHlo.TRef.binary (.of main_v79) main_call4.v0 main_call4.v1 maximumf,
    StableHlo.binary main_v71 main_v80 main_v81 (addf : (⟨S74240x128, .f32⟩ : BufTy).Contents (Elt F) → (⟨S74240x128, .f32⟩ : BufTy).Contents (Elt F) → (⟨S74240x128, .f32⟩ : BufTy).Contents (Elt F)),
    StableHlo.nullary main_cst_8 (constant S_ .f32 0x00000000#32),
    StableHlo.binary main_v81 main_cst_8 main_v82 ((fun x v => Host.reduceAdd x v reducesTo_S74240x128_S128_d0 h_S_) : (⟨S74240x128, .f32⟩ : BufTy).Contents (Elt F) → (⟨S_, .f32⟩ : BufTy).Contents (Elt F) → (⟨S128, .f32⟩ : BufTy).Contents (Elt F)),
    StableHlo.nullary main_cst_9 (constant S_ .f32 0x47910000#32),
    StableHlo.unary main_cst_9 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call5.cst (constant S_ .f32 0x00000000#32),
    StableHlo.TRef.binary (.of main_v81) main_call5.cst main_call5.v0 (fun x v => Host.reduceAdd x v reducesTo_S74240x128_S128_d0 h_S_),
    StableHlo.TRef.unary main_call5.v0 main_call5.v1 (broadcastInDim S1x128 ![1] bcast_S128_S1x128_1),
    StableHlo.TRef.nullary main_call5.cst_0 (constant S_ .f32 0x47910000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S74240x128 ![0, 1] bcast_S1x128_S74240x128_0_1),
    StableHlo.TRef.binary (.of main_v81) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47910000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S74240x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_arg8 main_v86 ((extractStridedSlice S1x128 ![1, 0] · slices_S3x128_S1x128_1_0) : (⟨S3x128, .f32⟩ : BufTy).Contents (Elt F) → (⟨S1x128, .f32⟩ : BufTy).Contents (Elt F)),
    StableHlo.reshape main_v86 main_v87 rfl shapeCasts_S1x128_S128,
    StableHlo.unary main_v84 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S74240x128 ![0, 1] bcast_S1x128_S74240x128_0_1 : (⟨S1x128, .f32⟩ : BufTy).Contents (Elt F) → (⟨S74240x128, .f32⟩ : BufTy).Contents (Elt F)),
    StableHlo.binary main_v81 main_v89 main_v90 (subf : (⟨S74240x128, .f32⟩ : BufTy).Contents (Elt F) → (⟨S74240x128, .f32⟩ : BufTy).Contents (Elt F) → (⟨S74240x128, .f32⟩ : BufTy).Contents (Elt F)),
    StableHlo.unary main_v87 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S74240x128 ![0, 1] bcast_S1x128_S74240x128_0_1 : (⟨S1x128, .f32⟩ : BufTy).Contents (Elt F) → (⟨S74240x128, .f32⟩ : BufTy).Contents (Elt F)),
    StableHlo.binary main_v92 main_v90 main_v93 (mulf : (⟨S74240x128, .f32⟩ : BufTy).Contents (Elt F) → (⟨S74240x128, .f32⟩ : BufTy).Contents (Elt F) → (⟨S74240x128, .f32⟩ : BufTy).Contents (Elt F)),
    StableHlo.nullary main_cst_11 (constant S_ .f32 0x3727C5AC#32),
    StableHlo.unary main_cst_11 main_v94 (broadcastInDim S128 ![] bcast_S_S128 : (⟨S_, .f32⟩ : BufTy).Contents (Elt F) → (⟨S128, .f32⟩ : BufTy).Contents (Elt F)),
    StableHlo.binary main_v85 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S74240x128 ![0, 1] bcast_S1x128_S74240x128_0_1 : (⟨S1x128, .f32⟩ : BufTy).Contents (Elt F) → (⟨S74240x128, .f32⟩ : BufTy).Contents (Elt F)),
    StableHlo.binary main_v93 main_v98 main_v99 (mulf : (⟨S74240x128, .f32⟩ : BufTy).Contents (Elt F) → (⟨S74240x128, .f32⟩ : BufTy).Contents (Elt F) → (⟨S74240x128, .f32⟩ : BufTy).Contents (Elt F)),
    StableHlo.unary main_arg9 main_v100 ((extractStridedSlice S1x128 ![1, 0] · slices_S3x128_S1x128_1_0) : (⟨S3x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S74240x128 ![0, 1] bcast_S1x128_S74240x128_0_1 : (⟨S1x128, .f32⟩ : BufTy).Contents (Elt F) → (⟨S74240x128, .f32⟩ : BufTy).Contents (Elt F)),
    StableHlo.binary main_v99 main_v103 main_v104 (addf : (⟨S74240x128, .f32⟩ : BufTy).Contents (Elt F) → (⟨S74240x128, .f32⟩ : BufTy).Contents (Elt F) → (⟨S74240x128, .f32⟩ : BufTy).Contents (Elt F)),
    StableHlo.nullary main_c_12 (constantI S_ 32 0#32) ]

/-- The 84 operations of window 2 of the program, in order. -/
abbrev ops2 : List (HloOp τ sig (Elt F)) :=
  [
    StableHlo.unary main_c_12 main_v105 (broadcastInDim S593920 ![] bcast_S_S593920 : (⟨S_, .i32⟩ : BufTy).Contents (Elt F) → (⟨S593920, .i32⟩ : BufTy).Contents (Elt F)),
    StableHlo.binary main_arg1 main_v105 main_v106 (cmpi .slt : (⟨S593920, .i32⟩ : BufTy).Contents (Elt F) → (⟨S593920, .i32⟩ : BufTy).Contents (Elt F) → (⟨S593920, .i1⟩ : BufTy).Contents (Elt F)),
    StableHlo.nullary main_c_13 (constantI S_ 32 74240#32),
    StableHlo.unary main_c_13 main_v107 (broadcastInDim S593920 ![] bcast_S_S593920 : (⟨S_, .i32⟩ : BufTy).Contents (Elt F) → (⟨S593920, .i32⟩ : BufTy).Contents (Elt F)),
    StableHlo.binary main_arg1 main_v107 main_v108 (addi : (⟨S593920, .i32⟩ : BufTy).Contents (Elt F) → (⟨S593920, .i32⟩ : BufTy).Contents (Elt F) → (⟨S593920, .i32⟩ : BufTy).Contents (Elt F)),
    StableHlo.ternary main_v106 main_v108 main_arg1 main_v109 (select : (⟨S593920, .i1⟩ : BufTy).Contents (Elt F) → (⟨S593920, .i32⟩ : BufTy).Contents (Elt F) → (⟨S593920, .i32⟩ : BufTy).Contents (Elt F) → (⟨S593920, .i32⟩ : BufTy).Contents (Elt F)),
    StableHlo.unary main_v109 main_v110 (broadcastInDim S593920x1 ![0] bcast_S593920_S593920x1_0 : (⟨S593920, .i32⟩ : BufTy).Contents (Elt F) → (⟨S593920x1, .i32⟩ : BufTy).Contents (Elt F)),
    StableHlo.binary main_v104 main_v110 main_v111 ((fun x i => Host.gather gather_S74240x128_S593920x1_S593920x128_1_0_n_n_0_1_1128 x i) : (⟨S74240x128, .f32⟩ : BufTy).Contents (Elt F) → (⟨S593920x1, .i32⟩ : BufTy).Contents (Elt F) → (⟨S593920x128, .f32⟩ : BufTy).Contents (Elt F)),
    StableHlo.nullary main_cst_14 (constant S_ .f32 0x00000000#32),
    StableHlo.unary main_cst_14 main_v112 (broadcastInDim S74240x128 ![] bcast_S_S74240x128 : (⟨S_, .f32⟩ : BufTy).Contents (Elt F) → (⟨S74240x128, .f32⟩ : BufTy).Contents (Elt F)),
    StableHlo.unary main_arg2 main_v113 (broadcastInDim S593920x1 ![0] bcast_S593920_S593920x1_0 : (⟨S593920, .i32⟩ : BufTy).Contents (Elt F) → (⟨S593920x1, .i32⟩ : BufTy).Contents (Elt F)),
    StableHlo.ternary main_v112 main_v113 main_v111 main_v114 ((fun x i u => Host.scatterAdd scatter_S74240x128_S593920x1_S593920x128_1_0_0_1 x i u) : (⟨S74240x128, .f32⟩ : BufTy).Contents (Elt F) → (⟨S593920x1, .i32⟩ : BufTy).Contents (Elt F) → (⟨S593920x128, .f32⟩ : BufTy).Contents (Elt F) → (⟨S74240x128, .f32⟩ : BufTy).Contents (Elt F)),
    StableHlo.unary main_arg4 main_v115 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v115 main_v116 rfl shapeCasts_S1x128x128_S128x128,
    StableHlo.binary main_v114 main_v116 main_v117 ((fun l r => Host.dotGeneral dot_S74240x128_S128x128_S74240x128_1_0_0_1_n_n none l r) : (⟨S74240x128, .f32⟩ : BufTy).Contents (Elt F) → (⟨S128x128, .f32⟩ : BufTy).Contents (Elt F) → (⟨S74240x128, .f32⟩ : BufTy).Contents (Elt F)),
    StableHlo.unary main_arg5 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S74240x128 ![0, 1] bcast_S1x128_S74240x128_0_1 : (⟨S1x128, .f32⟩ : BufTy).Contents (Elt F) → (⟨S74240x128, .f32⟩ : BufTy).Contents (Elt F)),
    StableHlo.binary main_v117 main_v121 main_v122 (addf : (⟨S74240x128, .f32⟩ : BufTy).Contents (Elt F) → (⟨S74240x128, .f32⟩ : BufTy).Contents (Elt F) → (⟨S74240x128, .f32⟩ : BufTy).Contents (Elt F)),
    StableHlo.TRef.nullary main_call6.cst (constant S_ .f32 0x00000000#32),
    StableHlo.TRef.unary main_call6.cst main_call6.v0 (broadcastInDim S74240x128 ![] bcast_S_S74240x128),
    StableHlo.TRef.binary (.of main_v122) main_call6.v0 main_call6.v1 maximumf,
    StableHlo.unary main_arg6 main_v124 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v124 main_v125 rfl shapeCasts_S1x128x128_S128x128,
    StableHlo.binary main_v104 main_v125 main_v126 ((fun l r => Host.dotGeneral dot_S74240x128_S128x128_S74240x128_1_0_0_1_n_n none l r) : (⟨S74240x128, .f32⟩ : BufTy).Contents (Elt F) → (⟨S128x128, .f32⟩ : BufTy).Contents (Elt F) → (⟨S74240x128, .f32⟩ : BufTy).Contents (Elt F)),
    StableHlo.unary main_arg7 main_v127 ((extractStridedSlice S1x128 ![2, 0] · slices_S3x128_S1x128_2_0) : (⟨S3x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S74240x128 ![0, 1] bcast_S1x128_S74240x128_0_1 : (⟨S1x128, .f32⟩ : BufTy).Contents (Elt F) → (⟨S74240x128, .f32⟩ : BufTy).Contents (Elt F)),
    StableHlo.binary main_v126 main_v130 main_v131 (addf : (⟨S74240x128, .f32⟩ : BufTy).Contents (Elt F) → (⟨S74240x128, .f32⟩ : BufTy).Contents (Elt F) → (⟨S74240x128, .f32⟩ : BufTy).Contents (Elt F)),
    StableHlo.TRef.nullary main_call7.cst (constant S_ .f32 0x00000000#32),
    StableHlo.TRef.unary main_call7.cst main_call7.v0 (broadcastInDim S74240x128 ![] bcast_S_S74240x128),
    StableHlo.TRef.binary (.of main_v131) main_call7.v0 main_call7.v1 maximumf,
    StableHlo.binary main_v123 main_v132 main_v133 (addf : (⟨S74240x128, .f32⟩ : BufTy).Contents (Elt F) → (⟨S74240x128, .f32⟩ : BufTy).Contents (Elt F) → (⟨S74240x128, .f32⟩ : BufTy).Contents (Elt F)),
    StableHlo.nullary main_cst_15 (constant S_ .f32 0x00000000#32),
    StableHlo.binary main_v133 main_cst_15 main_v134 ((fun x v => Host.reduceAdd x v reducesTo_S74240x128_S128_d0 h_S_) : (⟨S74240x128, .f32⟩ : BufTy).Contents (Elt F) → (⟨S_, .f32⟩ : BufTy).Contents (Elt F) → (⟨S128, .f32⟩ : BufTy).Contents (Elt F)),
    StableHlo.nullary main_cst_16 (constant S_ .f32 0x47910000#32),
    StableHlo.unary main_cst_16 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call8.cst (constant S_ .f32 0x00000000#32),
    StableHlo.TRef.binary (.of main_v133) main_call8.cst main_call8.v0 (fun x v => Host.reduceAdd x v reducesTo_S74240x128_S128_d0 h_S_),
    StableHlo.TRef.unary main_call8.v0 main_call8.v1 (broadcastInDim S1x128 ![1] bcast_S128_S1x128_1),
    StableHlo.TRef.nullary main_call8.cst_0 (constant S_ .f32 0x47910000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S74240x128 ![0, 1] bcast_S1x128_S74240x128_0_1),
    StableHlo.TRef.binary (.of main_v133) main_call8.v4 main_call8.v5 subf,
    StableHlo.TRef.binary main_call8.v5 main_call8.v5 main_call8.v6 mulf,
    StableHlo.TRef.unary (.of main_c_17) main_call8.v7 (sitofp .f32),
    StableHlo.TRef.nullary main_call8.cst_1 (constant S_ .f32 0x47910000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S74240x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_arg8 main_v138 ((extractStridedSlice S1x128 ![2, 0] · slices_S3x128_S1x128_2_0) : (⟨S3x128, .f32⟩ : BufTy).Contents (Elt F) → (⟨S1x128, .f32⟩ : BufTy).Contents (Elt F)),
    StableHlo.reshape main_v138 main_v139 rfl shapeCasts_S1x128_S128,
    StableHlo.unary main_v136 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S74240x128 ![0, 1] bcast_S1x128_S74240x128_0_1 : (⟨S1x128, .f32⟩ : BufTy).Contents (Elt F) → (⟨S74240x128, .f32⟩ : BufTy).Contents (Elt F)),
    StableHlo.binary main_v133 main_v141 main_v142 (subf : (⟨S74240x128, .f32⟩ : BufTy).Contents (Elt F) → (⟨S74240x128, .f32⟩ : BufTy).Contents (Elt F) → (⟨S74240x128, .f32⟩ : BufTy).Contents (Elt F)),
    StableHlo.unary main_v139 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S74240x128 ![0, 1] bcast_S1x128_S74240x128_0_1 : (⟨S1x128, .f32⟩ : BufTy).Contents (Elt F) → (⟨S74240x128, .f32⟩ : BufTy).Contents (Elt F)),
    StableHlo.binary main_v144 main_v142 main_v145 (mulf : (⟨S74240x128, .f32⟩ : BufTy).Contents (Elt F) → (⟨S74240x128, .f32⟩ : BufTy).Contents (Elt F) → (⟨S74240x128, .f32⟩ : BufTy).Contents (Elt F)),
    StableHlo.nullary main_cst_18 (constant S_ .f32 0x3727C5AC#32),
    StableHlo.unary main_cst_18 main_v146 (broadcastInDim S128 ![] bcast_S_S128 : (⟨S_, .f32⟩ : BufTy).Contents (Elt F) → (⟨S128, .f32⟩ : BufTy).Contents (Elt F)),
    StableHlo.binary main_v137 main_v146 main_v147 (addf : (⟨S128, .f32⟩ : BufTy).Contents (Elt F) → (⟨S128, .f32⟩ : BufTy).Contents (Elt F) → (⟨S128, .f32⟩ : BufTy).Contents (Elt F)),
    StableHlo.unary main_v147 main_v148 (Host.rsqrt : (⟨S128, .f32⟩ : BufTy).Contents (Elt F) → (⟨S128, .f32⟩ : BufTy).Contents (Elt F)),
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S74240x128 ![0, 1] bcast_S1x128_S74240x128_0_1 : (⟨S1x128, .f32⟩ : BufTy).Contents (Elt F) → (⟨S74240x128, .f32⟩ : BufTy).Contents (Elt F)),
    StableHlo.binary main_v145 main_v150 main_v151 (mulf : (⟨S74240x128, .f32⟩ : BufTy).Contents (Elt F) → (⟨S74240x128, .f32⟩ : BufTy).Contents (Elt F) → (⟨S74240x128, .f32⟩ : BufTy).Contents (Elt F)),
    StableHlo.unary main_arg9 main_v152 ((extractStridedSlice S1x128 ![2, 0] · slices_S3x128_S1x128_2_0) : (⟨S3x128, .f32⟩ : BufTy).Contents (Elt F) → (⟨S1x128, .f32⟩ : BufTy).Contents (Elt F)),
    StableHlo.reshape main_v152 main_v153 rfl shapeCasts_S1x128_S128,
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S74240x128 ![0, 1] bcast_S1x128_S74240x128_0_1 : (⟨S1x128, .f32⟩ : BufTy).Contents (Elt F) → (⟨S74240x128, .f32⟩ : BufTy).Contents (Elt F)),
    StableHlo.binary main_v151 main_v155 main_v156 (addf : (⟨S74240x128, .f32⟩ : BufTy).Contents (Elt F) → (⟨S74240x128, .f32⟩ : BufTy).Contents (Elt F) → (⟨S74240x128, .f32⟩ : BufTy).Contents (Elt F)),
    StableHlo.reshape main_v156 main_v157 rfl shapeCasts_S74240x128_S256x290x128 ]

/-- The whole program's operations: the three windows one after the other. -/
abbrev ops : List (HloOp τ sig (Elt F)) := ops0 ++ (ops1 ++ ops2)

end Cert.ReferenceIdeal.RefRun

end
-- ==== Proof.RefOps.lean ====
/-
  The reference program is the sequence of its operations, and what a run of it leaves.

  Each window of the program is a chain of steps; unfolding the called functions at their calls and
  reassociating the sequencing turns it into the chain of the window's list, and the three windows
  run one after the other are the chain of the concatenation. Every operation touches only buffers of
  the one device, and none leaves a buffer undetermined, so every weakly fair execution terminates
  with each buffer holding the fold of the operations' results over the launch contents.
-/
import proofs.«176821_j3375844294866_2_alg».proof.Proof.RefOpsTable

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The first window is the sequence of its operations. Its last step is followed by nothing, the
    list's by the return: the two agree by computing the sequencing at that step. -/
theorem part0_eq (c : Dev nD) : main_part0 (F := F) c = seq ops0 := by
  simp only [main_part0, fn_relu.body, fn_var.body, fn_where.body, seq, bind_assoc, pure_bind]
  rfl

set_option maxRecDepth 16384 in
/-- The second window is the sequence of its operations, in the same way. -/
theorem part1_eq (c : Dev nD) : main_part1 (F := F) c = seq ops1 := by
  simp only [main_part1, fn_relu.body, fn_var.body, fn_where.body, seq, bind_assoc, pure_bind]
  rfl

set_option maxRecDepth 16384 in
/-- The third window ends in the return itself, so the two chains are the same term. -/
theorem part2_eq (c : Dev nD) : main_part2 (F := F) c = seq ops2 := by
  simp only [main_part2, fn_relu.body, fn_var.body, fn_where.body, seq, bind_assoc, pure_bind]

/-- The program is the sequence of all its operations: its three windows run one after the other. -/
theorem main_eq (c : Dev nD) : main (F := F) c = seq ops := by
  unfold main
  rw [part0_eq, part1_eq, part2_eq, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

/-- Every operation of the first window touches buffers of the device only: the list's conjunction taken
    apart, each conjunct is the fact about that operation's kind. -/
theorem ops0_sub : (ops0 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops1_sub : (ops1 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops2_sub : (ops2 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

/-- Every operation determines its results: one case per operation, each by computation. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

/-- A property of every operation of each window is a property of every operation of the program. -/
theorem forall_ops {p : HloOp τ sig (Elt F) → Prop} (h0 : ∀ op ∈ (ops0 : List (HloOp τ sig (Elt F))), p op)
    (h1 : ∀ op ∈ (ops1 : List (HloOp τ sig (Elt F))), p op) (h2 : ∀ op ∈ (ops2 : List (HloOp τ sig (Elt F))), p op) :
    ∀ op ∈ (ops : List (HloOp τ sig (Elt F))), p op := fun op h =>
  (List.mem_append.mp h).elim (h0 op) fun h => (List.mem_append.mp h).elim (h1 op) (h2 op)

theorem ops_sub : (ops : List (HloOp τ sig (Elt F))).Forall fun op => op.bufs ⊆ tcRefs τ sig :=
  List.forall_iff_forall_mem.mpr (forall_ops (List.forall_iff_forall_mem.mp ops0_sub)
    (List.forall_iff_forall_mem.mp ops1_sub) (List.forall_iff_forall_mem.mp ops2_sub))

/-- On every device, for any float values, from any memory with zero counters: every weakly fair execution of
    the program terminates, and every buffer ends holding the fold of the operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => forall_ops ops0_fresh ops1_fresh ops2_fresh)

end Cert.ReferenceIdeal.RefRun

end
-- ==== Proof.RefStages.lean ====
/-
  The reference program's result as composed functions of arrays.

  `aggR` sums feature rows along the edges of the graph: source indices below zero are wrapped by
  adding the number of rows, the rows at the sources are gathered, and they are added into an array
  of zeros at the destinations. `preR` is one layer before normalisation: the aggregated rows and
  the rows themselves each go through a matrix product, a bias added to every row and `max · 0`,
  and the two are added. `meanR` is the column sum divided by the number of rows; `varR` is the sum
  of the squared deviations from that mean divided by the number of rows less a zero correction,
  taken only where that divisor is positive. `refLayer` scales the deviations by `gam`, multiplies
  by the reciprocal square root of the variance plus a small constant, and adds `bet`.
  `refOut` embeds the node features by one matrix product, applies three layers over the three
  slices of the stacked weights, and regroups the 74240 rows as 256 blocks of 290.
-/
import proofs.«176821_j3375844294866_2_alg».proof.ReferenceIdeal

noncomputable section

namespace Cert.ReferenceIdeal.RefRun

open Idealize.ShloMosaic Cert.ReferenceIdeal

variable {F : FTy → Type} [FloatOps F] [Facts]
open Facts₀ Facts

/-- Rows summed along the edges: `h` gathered at the wrapped sources, added into zeros at the destinations. -/
def aggR (h : (⟨S74240x128, .f32⟩ : BufTy).Contents (Elt F))
    (src dst : (⟨S593920, .i32⟩ : BufTy).Contents (Elt F)) : (⟨S74240x128, .f32⟩ : BufTy).Contents (Elt F) :=
  Host.scatterAdd scatter_S74240x128_S593920x1_S593920x128_1_0_0_1
    (broadcastInDim S74240x128 ![] bcast_S_S74240x128 (constant S_ .f32 0x00000000#32))
    (broadcastInDim S593920x1 ![0] bcast_S593920_S593920x1_0 dst)
    (Host.gather gather_S74240x128_S593920x1_S593920x128_1_0_n_n_0_1_1128 h
      (broadcastInDim S593920x1 ![0] bcast_S593920_S593920x1_0
        (select (cmpi .slt src (broadcastInDim S593920 ![] bcast_S_S593920 (constantI S_ 32 0#32)))
          (addi src (broadcastInDim S593920 ![] bcast_S_S593920 (constantI S_ 32 74240#32))) src)))

/-- A vector of 128 entries repeated as every one of the 74240 rows. -/
def rowB (v : (⟨S128, .f32⟩ : BufTy).Contents (Elt F)) : (⟨S74240x128, .f32⟩ : BufTy).Contents (Elt F) :=
  broadcastInDim S74240x128 ![0, 1] bcast_S1x128_S74240x128_0_1 (broadcastInDim S1x128 ![1] bcast_S128_S1x128_1 v)

/-- `max · 0`, entry by entry. -/
def reluR (x : (⟨S74240x128, .f32⟩ : BufTy).Contents (Elt F)) : (⟨S74240x128, .f32⟩ : BufTy).Contents (Elt F) :=
  maximumf x (broadcastInDim S74240x128 ![] bcast_S_S74240x128 (constant S_ .f32 0x00000000#32))

/-- One layer before normalisation: `max (agg·Wg + bg) 0 + max (h·Wr + br) 0`. -/
def preR (Wg : (⟨S128x128, .f32⟩ : BufTy).Contents (Elt F)) (bg : (⟨S128, .f32⟩ : BufTy).Contents (Elt F))
    (Wr : (⟨S128x128, .f32⟩ : BufTy).Contents (Elt F)) (br : (⟨S128, .f32⟩ : BufTy).Contents (Elt F))
    (h agg : (⟨S74240x128, .f32⟩ : BufTy).Contents (Elt F)) : (⟨S74240x128, .f32⟩ : BufTy).Contents (Elt F) :=
  addf
    (reluR (addf (Host.dotGeneral dot_S74240x128_S128x128_S74240x128_1_0_0_1_n_n none agg Wg) (rowB bg)))
    (reluR (addf (Host.dotGeneral dot_S74240x128_S128x128_S74240x128_1_0_0_1_n_n none h Wr) (rowB br)))

/-- The mean of every column: the column sum divided by 74240. -/
def meanR (p : (⟨S74240x128, .f32⟩ : BufTy).Contents (Elt F)) : (⟨S128, .f32⟩ : BufTy).Contents (Elt F) :=
  Host.divf (Host.reduceAdd p (constant S_ .f32 0x00000000#32) reducesTo_S74240x128_S128_d0 h_S_)
    (broadcastInDim S128 ![] bcast_S_S128 (constant S_ .f32 0x47910000#32))

/-- The divisor of the variance: 74240 less the correction 0 converted to a float. -/
def varDiv : (⟨S_, .f32⟩ : BufTy).Contents (Elt F) :=
  subf (constant S_ .f32 0x47910000#32) (sitofp .f32 (constantI S_ 32 0#32))

/-- The variance of every column in the two-pass form: the mean is taken first (as a one-row array),
    the squared deviations are summed and divided by `varDiv`; where `varDiv` is not positive the
    entry is the not-a-number literal instead. -/
def varR (p : (⟨S74240x128, .f32⟩ : BufTy).Contents (Elt F)) : (⟨S128, .f32⟩ : BufTy).Contents (Elt F) :=
  select (broadcastInDim S128 ![] bcast_S_S128 (cmpf .ogt (varDiv (F := F)) (constant S_ .f32 0x00000000#32)))
    (Host.divf
      (Host.reduceAdd
        (mulf
          (subf p (broadcastInDim S74240x128 ![0, 1] bcast_S1x128_S74240x128_0_1
            (Host.divf
              (broadcastInDim S1x128 ![1] bcast_S128_S1x128_1
                (Host.reduceAdd p (constant S_ .f32 0x00000000#32) reducesTo_S74240x128_S128_d0 h_S_))
              (broadcastInDim S1x128 ![] bcast_S_S1x128 (constant S_ .f32 0x47910000#32)))))
          (subf p (broadcastInDim S74240x128 ![0, 1] bcast_S1x128_S74240x128_0_1
            (Host.divf
              (broadcastInDim S1x128 ![1] bcast_S128_S1x128_1
                (Host.reduceAdd p (constant S_ .f32 0x00000000#32) reducesTo_S74240x128_S128_d0 h_S_))
              (broadcastInDim S1x128 ![] bcast_S_S1x128 (constant S_ .f32 0x47910000#32))))))
        (constant S_ .f32 0x00000000#32) reducesTo_S74240x128_S128_d0 h_S_)
      (broadcastInDim S128 ![] bcast_S_S128 (varDiv (F := F))))
    (broadcastInDim S128 ![] bcast_S_S128 (id (constant S_ .f32 0x7FC00000#32)))

/-- Normalisation of an array `p` column by column: `gam · (p - mean) · rsqrt (var + eps) + bet`. -/
def normStage (gam bet : (⟨S128, .f32⟩ : BufTy).Contents (Elt F))
    (p : (⟨S74240x128, .f32⟩ : BufTy).Contents (Elt F)) : (⟨S74240x128, .f32⟩ : BufTy).Contents (Elt F) :=
  addf
    (mulf (mulf (rowB gam) (subf p (rowB (meanR p))))
      (rowB (Host.rsqrt (addf (varR p) (broadcastInDim S128 ![] bcast_S_S128 (constant S_ .f32 0x3727C5AC#32))))))
    (rowB bet)

/-- One layer: aggregation, the two affine maps with `max · 0`, normalisation. -/
def refLayer (Wg : (⟨S128x128, .f32⟩ : BufTy).Contents (Elt F)) (bg : (⟨S128, .f32⟩ : BufTy).Contents (Elt F))
    (Wr : (⟨S128x128, .f32⟩ : BufTy).Contents (Elt F)) (br : (⟨S128, .f32⟩ : BufTy).Contents (Elt F))
    (gam bet : (⟨S128, .f32⟩ : BufTy).Contents (Elt F))
    (h : (⟨S74240x128, .f32⟩ : BufTy).Contents (Elt F))
    (src dst : (⟨S593920, .i32⟩ : BufTy).Contents (Elt F)) : (⟨S74240x128, .f32⟩ : BufTy).Contents (Elt F) :=
  normStage gam bet (preR Wg bg Wr br h (aggR h src dst))

/-- Slice `l` of a stack of three 128 x 128 matrices, as a matrix. -/
def mat0 (A : (⟨S3x128x128, .f32⟩ : BufTy).Contents (Elt F)) : (⟨S128x128, .f32⟩ : BufTy).Contents (Elt F) :=
  shapeCast S128x128 (extractStridedSlice S1x128x128 ![0, 0, 0] A slices_S3x128x128_S1x128x128_0_0_0) shapeCasts_S1x128x128_S128x128
@[inherit_doc mat0]
def mat1 (A : (⟨S3x128x128, .f32⟩ : BufTy).Contents (Elt F)) : (⟨S128x128, .f32⟩ : BufTy).Contents (Elt F) :=
  shapeCast S128x128 (extractStridedSlice S1x128x128 ![1, 0, 0] A slices_S3x128x128_S1x128x128_1_0_0) shapeCasts_S1x128x128_S128x128
@[inherit_doc mat0]
def mat2 (A : (⟨S3x128x128, .f32⟩ : BufTy).Contents (Elt F)) : (⟨S128x128, .f32⟩ : BufTy).Contents (Elt F) :=
  shapeCast S128x128 (extractStridedSlice S1x128x128 ![2, 0, 0] A slices_S3x128x128_S1x128x128_2_0_0) shapeCasts_S1x128x128_S128x128

/-- Row `l` of a stack of three vectors of 128 entries, as a vector. -/
def vec0 (A : (⟨S3x128, .f32⟩ : BufTy).Contents (Elt F)) : (⟨S128, .f32⟩ : BufTy).Contents (Elt F) :=
  shapeCast S128 (extractStridedSlice S1x128 ![0, 0] A slices_S3x128_S1x128_0_0) shapeCasts_S1x128_S128
@[inherit_doc vec0]
def vec1 (A : (⟨S3x128, .f32⟩ : BufTy).Contents (Elt F)) : (⟨S128, .f32⟩ : BufTy).Contents (Elt F) :=
  shapeCast S128 (extractStridedSlice S1x128 ![1, 0] A slices_S3x128_S1x128_1_0) shapeCasts_S1x128_S128
@[inherit_doc vec0]
def vec2 (A : (⟨S3x128, .f32⟩ : BufTy).Contents (Elt F)) : (⟨S128, .f32⟩ : BufTy).Contents (Elt F) :=
  shapeCast S128 (extractStridedSlice S1x128 ![2, 0] A slices_S3x128_S1x128_2_0) shapeCasts_S1x128_S128

/-- The embedding: the node features times the embedding matrix. -/
def embedR (X : (⟨S74240x75, .f32⟩ : BufTy).Contents (Elt F)) (Winit : (⟨S75x128, .f32⟩ : BufTy).Contents (Elt F)) :
    (⟨S74240x128, .f32⟩ : BufTy).Contents (Elt F) :=
  Host.dotGeneral dot_S74240x75_S75x128_S74240x128_1_0_0_1_n_n none X Winit

/-- The whole result: the embedding, three layers over the slices of the stacked weights, and the rows
    regrouped as 256 blocks of 290. -/
def refOut (X : (⟨S74240x75, .f32⟩ : BufTy).Contents (Elt F))
    (src dst : (⟨S593920, .i32⟩ : BufTy).Contents (Elt F))
    (Winit : (⟨S75x128, .f32⟩ : BufTy).Contents (Elt F))
    (A4 : (⟨S3x128x128, .f32⟩ : BufTy).Contents (Elt F)) (A5 : (⟨S3x128, .f32⟩ : BufTy).Contents (Elt F))
    (A6 : (⟨S3x128x128, .f32⟩ : BufTy).Contents (Elt F)) (A7 A8 A9 : (⟨S3x128, .f32⟩ : BufTy).Contents (Elt F)) :
    (⟨S256x290x128, .f32⟩ : BufTy).Contents (Elt F) :=
  shapeCast S256x290x128
    (refLayer (mat2 A4) (vec2 A5) (mat2 A6) (vec2 A7) (vec2 A8) (vec2 A9)
      (refLayer (mat1 A4) (vec1 A5) (mat1 A6) (vec1 A7) (vec1 A8) (vec1 A9)
        (refLayer (mat0 A4) (vec0 A5) (mat0 A6) (vec0 A7) (vec0 A8) (vec0 A9) (embedR X Winit) src dst)
        src dst)
      src dst)
    shapeCasts_S74240x128_S256x290x128

end Cert.ReferenceIdeal.RefRun

end
-- ==== Proof.RefValueW0.lean ====
/-
  The first window of the reference program read over an arbitrary starting valuation: it leaves the
  first layer (the first slices of the stacked weights) applied to the embedding of the node
  features, with the edge lists as they were, and writes no argument.
-/
import proofs.«176821_j3375844294866_2_alg».proof.Proof.RefStages
import proofs.«176821_j3375844294866_2_alg».proof.Proof.RefOpsTable

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The first window: the embedding and the first layer -/

theorem w0_v52 (W : Valuation τ sig (Elt F)) :
    after ops0 W (main_v52 : DevRef τ sig)
      = refLayer (mat0 (W (main_arg4 : DevRef τ sig))) (vec0 (W (main_arg5 : DevRef τ sig)))
        (mat0 (W (main_arg6 : DevRef τ sig))) (vec0 (W (main_arg7 : DevRef τ sig)))
        (vec0 (W (main_arg8 : DevRef τ sig))) (vec0 (W (main_arg9 : DevRef τ sig)))
        (embedR (W (main_arg0 : DevRef τ sig)) (W (main_arg3 : DevRef τ sig)))
        (W (main_arg1 : DevRef τ sig)) (W (main_arg2 : DevRef τ sig)) := by
  after_results_simp
  rfl

theorem w0_arg0 (W : Valuation τ sig (Elt F)) :
    after ops0 W (main_arg0 : DevRef τ sig) = W (main_arg0 : DevRef τ sig) := by
  after_results_simp
theorem w0_arg1 (W : Valuation τ sig (Elt F)) :
    after ops0 W (main_arg1 : DevRef τ sig) = W (main_arg1 : DevRef τ sig) := by
  after_results_simp
theorem w0_arg2 (W : Valuation τ sig (Elt F)) :
    after ops0 W (main_arg2 : DevRef τ sig) = W (main_arg2 : DevRef τ sig) := by
  after_results_simp
theorem w0_arg3 (W : Valuation τ sig (Elt F)) :
    after ops0 W (main_arg3 : DevRef τ sig) = W (main_arg3 : DevRef τ sig) := by
  after_results_simp
theorem w0_arg4 (W : Valuation τ sig (Elt F)) :
    after ops0 W (main_arg4 : DevRef τ sig) = W (main_arg4 : DevRef τ sig) := by
  after_results_simp
theorem w0_arg5 (W : Valuation τ sig (Elt F)) :
    after ops0 W (main_arg5 : DevRef τ sig) = W (main_arg5 : DevRef τ sig) := by
  after_results_simp
theorem w0_arg6 (W : Valuation τ sig (Elt F)) :
    after ops0 W (main_arg6 : DevRef τ sig) = W (main_arg6 : DevRef τ sig) := by
  after_results_simp
theorem w0_arg7 (W : Valuation τ sig (Elt F)) :
    after ops0 W (main_arg7 : DevRef τ sig) = W (main_arg7 : DevRef τ sig) := by
  after_results_simp
theorem w0_arg8 (W : Valuation τ sig (Elt F)) :
    after ops0 W (main_arg8 : DevRef τ sig) = W (main_arg8 : DevRef τ sig) := by
  after_results_simp
theorem w0_arg9 (W : Valuation τ sig (Elt F)) :
    after ops0 W (main_arg9 : DevRef τ sig) = W (main_arg9 : DevRef τ sig) := by
  after_results_simp

end Cert.ReferenceIdeal.RefRun

end
-- ==== Proof.RefValueW1.lean ====
/-
  The second window of the reference program read over an arbitrary starting valuation: it leaves the
  second layer (the second slices of the stacked weights) applied to what the first window left, and
  the integer zero the third window compares the source indices with; it writes no argument.
-/
import proofs.«176821_j3375844294866_2_alg».proof.Proof.RefStages
import proofs.«176821_j3375844294866_2_alg».proof.Proof.RefOpsTable

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The second window: the second layer, and the zero the third window reads -/

theorem w1_v104 (W : Valuation τ sig (Elt F)) :
    after ops1 W (main_v104 : DevRef τ sig)
      = refLayer (mat1 (W (main_arg4 : DevRef τ sig))) (vec1 (W (main_arg5 : DevRef τ sig)))
        (mat1 (W (main_arg6 : DevRef τ sig))) (vec1 (W (main_arg7 : DevRef τ sig)))
        (vec1 (W (main_arg8 : DevRef τ sig))) (vec1 (W (main_arg9 : DevRef τ sig)))
        (W (main_v52 : DevRef τ sig))
        (W (main_arg1 : DevRef τ sig)) (W (main_arg2 : DevRef τ sig)) := by
  after_results_simp
  rfl

theorem w1_c12 (W : Valuation τ sig (Elt F)) :
    after ops1 W (main_c_12 : DevRef τ sig) = constantI S_ 32 0#32 := by
  after_results_simp

theorem w1_arg0 (W : Valuation τ sig (Elt F)) :
    after ops1 W (main_arg0 : DevRef τ sig) = W (main_arg0 : DevRef τ sig) := by
  after_results_simp
theorem w1_arg1 (W : Valuation τ sig (Elt F)) :
    after ops1 W (main_arg1 : DevRef τ sig) = W (main_arg1 : DevRef τ sig) := by
  after_results_simp
theorem w1_arg2 (W : Valuation τ sig (Elt F)) :
    after ops1 W (main_arg2 : DevRef τ sig) = W (main_arg2 : DevRef τ sig) := by
  after_results_simp
theorem w1_arg3 (W : Valuation τ sig (Elt F)) :
    after ops1 W (main_arg3 : DevRef τ sig) = W (main_arg3 : DevRef τ sig) := by
  after_results_simp
theorem w1_arg4 (W : Valuation τ sig (Elt F)) :
    after ops1 W (main_arg4 : DevRef τ sig) = W (main_arg4 : DevRef τ sig) := by
  after_results_simp
theorem w1_arg5 (W : Valuation τ sig (Elt F)) :
    after ops1 W (main_arg5 : DevRef τ sig) = W (main_arg5 : DevRef τ sig) := by
  after_results_simp
theorem w1_arg6 (W : Valuation τ sig (Elt F)) :
    after ops1 W (main_arg6 : DevRef τ sig) = W (main_arg6 : DevRef τ sig) := by
  after_results_simp
theorem w1_arg7 (W : Valuation τ sig (Elt F)) :
    after ops1 W (main_arg7 : DevRef τ sig) = W (main_arg7 : DevRef τ sig) := by
  after_results_simp
theorem w1_arg8 (W : Valuation τ sig (Elt F)) :
    after ops1 W (main_arg8 : DevRef τ sig) = W (main_arg8 : DevRef τ sig) := by
  after_results_simp
theorem w1_arg9 (W : Valuation τ sig (Elt F)) :
    after ops1 W (main_arg9 : DevRef τ sig) = W (main_arg9 : DevRef τ sig) := by
  after_results_simp

end Cert.ReferenceIdeal.RefRun

end
-- ==== Proof.RefValueW2.lean ====
/-
  The third window of the reference program read over an arbitrary starting valuation that holds the
  integer zero where the second window left it: the third layer (the third slices of the stacked
  weights) applied to what the second window left, its 74240 rows regrouped as 256 blocks of 290;
  it writes no argument.
-/
import proofs.«176821_j3375844294866_2_alg».proof.Proof.RefStages
import proofs.«176821_j3375844294866_2_alg».proof.Proof.RefOpsTable

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The third window: the third layer, regrouped -/

theorem w2_v157 (W : Valuation τ sig (Elt F)) (hc : W (main_c_12 : DevRef τ sig) = constantI S_ 32 0#32) :
    after ops2 W (main_v157 : DevRef τ sig)
      = shapeCast S256x290x128
          (refLayer (mat2 (W (main_arg4 : DevRef τ sig))) (vec2 (W (main_arg5 : DevRef τ sig)))
        (mat2 (W (main_arg6 : DevRef τ sig))) (vec2 (W (main_arg7 : DevRef τ sig)))
        (vec2 (W (main_arg8 : DevRef τ sig))) (vec2 (W (main_arg9 : DevRef τ sig)))
        (W (main_v104 : DevRef τ sig))
        (W (main_arg1 : DevRef τ sig)) (W (main_arg2 : DevRef τ sig)))
          shapeCasts_S74240x128_S256x290x128 := by
  after_results_simp
  rw [hc]
  rfl

theorem w2_arg0 (W : Valuation τ sig (Elt F)) :
    after ops2 W (main_arg0 : DevRef τ sig) = W (main_arg0 : DevRef τ sig) := by
  after_results_simp
theorem w2_arg1 (W : Valuation τ sig (Elt F)) :
    after ops2 W (main_arg1 : DevRef τ sig) = W (main_arg1 : DevRef τ sig) := by
  after_results_simp
theorem w2_arg2 (W : Valuation τ sig (Elt F)) :
    after ops2 W (main_arg2 : DevRef τ sig) = W (main_arg2 : DevRef τ sig) := by
  after_results_simp
theorem w2_arg3 (W : Valuation τ sig (Elt F)) :
    after ops2 W (main_arg3 : DevRef τ sig) = W (main_arg3 : DevRef τ sig) := by
  after_results_simp
theorem w2_arg4 (W : Valuation τ sig (Elt F)) :
    after ops2 W (main_arg4 : DevRef τ sig) = W (main_arg4 : DevRef τ sig) := by
  after_results_simp
theorem w2_arg5 (W : Valuation τ sig (Elt F)) :
    after ops2 W (main_arg5 : DevRef τ sig) = W (main_arg5 : DevRef τ sig) := by
  after_results_simp
theorem w2_arg6 (W : Valuation τ sig (Elt F)) :
    after ops2 W (main_arg6 : DevRef τ sig) = W (main_arg6 : DevRef τ sig) := by
  after_results_simp
theorem w2_arg7 (W : Valuation τ sig (Elt F)) :
    after ops2 W (main_arg7 : DevRef τ sig) = W (main_arg7 : DevRef τ sig) := by
  after_results_simp
theorem w2_arg8 (W : Valuation τ sig (Elt F)) :
    after ops2 W (main_arg8 : DevRef τ sig) = W (main_arg8 : DevRef τ sig) := by
  after_results_simp
theorem w2_arg9 (W : Valuation τ sig (Elt F)) :
    after ops2 W (main_arg9 : DevRef τ sig) = W (main_arg9 : DevRef τ sig) := by
  after_results_simp

end Cert.ReferenceIdeal.RefRun

end
-- ==== Proof.RefValue.lean ====
/-
  The reference program's result as a function of its arguments.

  The fold of the operations' results over the whole list is the third window's fold from where the
  second ends, itself from where the first ends. Each window has been read over an arbitrary starting
  valuation and writes no argument, so the result buffer holds `refOut` of the arguments' launch
  contents and every argument is as it was.
-/
import proofs.«176821_j3375844294866_2_alg».proof.Proof.RefValueW0
import proofs.«176821_j3375844294866_2_alg».proof.Proof.RefValueW1
import proofs.«176821_j3375844294866_2_alg».proof.Proof.RefValueW2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Folding a concatenation is folding its second part from where the first part ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The whole program -/

theorem arg0_eq (V : Valuation τ sig (Elt F)) :
    after ops V (main_arg0 : DevRef τ sig) = V (main_arg0 : DevRef τ sig) := by
  rw [after_app, after_app, w2_arg0, w1_arg0, w0_arg0]
theorem arg1_eq (V : Valuation τ sig (Elt F)) :
    after ops V (main_arg1 : DevRef τ sig) = V (main_arg1 : DevRef τ sig) := by
  rw [after_app, after_app, w2_arg1, w1_arg1, w0_arg1]
theorem arg2_eq (V : Valuation τ sig (Elt F)) :
    after ops V (main_arg2 : DevRef τ sig) = V (main_arg2 : DevRef τ sig) := by
  rw [after_app, after_app, w2_arg2, w1_arg2, w0_arg2]
theorem arg3_eq (V : Valuation τ sig (Elt F)) :
    after ops V (main_arg3 : DevRef τ sig) = V (main_arg3 : DevRef τ sig) := by
  rw [after_app, after_app, w2_arg3, w1_arg3, w0_arg3]
theorem arg4_eq (V : Valuation τ sig (Elt F)) :
    after ops V (main_arg4 : DevRef τ sig) = V (main_arg4 : DevRef τ sig) := by
  rw [after_app, after_app, w2_arg4, w1_arg4, w0_arg4]
theorem arg5_eq (V : Valuation τ sig (Elt F)) :
    after ops V (main_arg5 : DevRef τ sig) = V (main_arg5 : DevRef τ sig) := by
  rw [after_app, after_app, w2_arg5, w1_arg5, w0_arg5]
theorem arg6_eq (V : Valuation τ sig (Elt F)) :
    after ops V (main_arg6 : DevRef τ sig) = V (main_arg6 : DevRef τ sig) := by
  rw [after_app, after_app, w2_arg6, w1_arg6, w0_arg6]
theorem arg7_eq (V : Valuation τ sig (Elt F)) :
    after ops V (main_arg7 : DevRef τ sig) = V (main_arg7 : DevRef τ sig) := by
  rw [after_app, after_app, w2_arg7, w1_arg7, w0_arg7]
theorem arg8_eq (V : Valuation τ sig (Elt F)) :
    after ops V (main_arg8 : DevRef τ sig) = V (main_arg8 : DevRef τ sig) := by
  rw [after_app, after_app, w2_arg8, w1_arg8, w0_arg8]
theorem arg9_eq (V : Valuation τ sig (Elt F)) :
    after ops V (main_arg9 : DevRef τ sig) = V (main_arg9 : DevRef τ sig) := by
  rw [after_app, after_app, w2_arg9, w1_arg9, w0_arg9]

/-- The result buffer after the whole program: `refOut` of the arguments. -/
theorem out_eq (V : Valuation τ sig (Elt F)) :
    after ops V (main_v157 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [after_app, after_app, w2_v157 _ (w1_c12 _), w1_v104,
    w1_arg1, w1_arg2, w1_arg4, w1_arg5, w1_arg6, w1_arg7, w1_arg8, w1_arg9, w0_v52,
    w0_arg1, w0_arg2, w0_arg4, w0_arg5, w0_arg6, w0_arg7, w0_arg8, w0_arg9]
  rfl

end Cert.ReferenceIdeal.RefRun

end
-- ==== Proof.RefRun.lean ====
/-
  The run of the reference program: every weakly fair execution terminates with the result buffer
  holding `refOut` of the arguments' launch contents, and with every argument as it was. Each buffer
  ends at the fold of the operations' results, and that fold at the result buffer and at each argument
  has been read off window by window.
-/
import proofs.«176821_j3375844294866_2_alg».proof.Proof.RefOps
import proofs.«176821_j3375844294866_2_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    the program terminates with the result buffer at `refOut` of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v157).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_all m ρ)

end Cert.ReferenceIdeal.RefRun

end
-- ==== Proof.RefLayerAtOps.lean ====
/-
  The reference's host operations read at an index, at the extended reals.

  Each lemma takes one operation of the layer — a matrix product, a sum down a column, a vector repeated
  along the rows, a slab cut out of a stack of weights, `max · 0` — applied to ARBITRARY arrays, and says
  what the result holds at given coordinates. Nothing here mentions the program's buffers.
-/
import proofs.«176821_j3375844294866_2_alg».proof.ReferenceIdeal
import Idealize.ShloMosaic.Lib.ValueIdx
import Idealize.ShloMosaic.Lib.Pipeline.Value
import Idealize.ShloMosaic.PureOps.Ideal.Laws

noncomputable section

namespace Cert.ReferenceIdeal.RefAt

open Idealize.ShloMosaic Idealize.ShloMosaic.ValueIdx

section
variable [Facts₀]

/-! ## The two matrix products

A product that contracts the left operand's columns against the right operand's rows reads, at row `i`
and column `j`, the sum over `k` of `l i k * r k j`. The four coordinate facts say which operand axis is
the contracted one and which is kept. -/

theorem lhs128_0 (i : S74240x128.Idx) (q : dot_S74240x128_S128x128_S74240x128_1_0_0_1_n_n.contr.Idx) :
    (dot_S74240x128_S128x128_S74240x128_1_0_0_1_n_n.lhsIdx i q 0).val = (i 0).val := by
  unfold DotDims.lhsIdx
  rw [dif_neg (show ¬(0 : Fin S74240x128.rank) ∈ dot_S74240x128_S128x128_S74240x128_1_0_0_1_n_n.lhsBatch from List.not_mem_nil),
    dif_pos (show (0 : Fin S74240x128.rank) ∈ dot_S74240x128_S128x128_S74240x128_1_0_0_1_n_n.lhsNonContracting from List.mem_singleton.mpr rfl)]
  rfl
theorem lhs128_1 (i : S74240x128.Idx) (q : dot_S74240x128_S128x128_S74240x128_1_0_0_1_n_n.contr.Idx) :
    (dot_S74240x128_S128x128_S74240x128_1_0_0_1_n_n.lhsIdx i q 1).val = (q ⟨0, Nat.one_pos⟩).val :=
  dot_S74240x128_S128x128_S74240x128_1_0_0_1_n_n.lhsIdx_val_of_single rfl i q
theorem rhs128_0 (i : S74240x128.Idx) (q : dot_S74240x128_S128x128_S74240x128_1_0_0_1_n_n.contr.Idx) :
    (dot_S74240x128_S128x128_S74240x128_1_0_0_1_n_n.rhsIdx i q 0).val = (q ⟨0, Nat.one_pos⟩).val :=
  dot_S74240x128_S128x128_S74240x128_1_0_0_1_n_n.rhsIdx_val_of_single rfl i q
theorem rhs128_1 (i : S74240x128.Idx) (q : dot_S74240x128_S128x128_S74240x128_1_0_0_1_n_n.contr.Idx) :
    (dot_S74240x128_S128x128_S74240x128_1_0_0_1_n_n.rhsIdx i q 1).val = (i 1).val := by
  unfold DotDims.rhsIdx
  rw [dif_neg (show ¬(1 : Fin S128x128.rank) ∈ dot_S74240x128_S128x128_S74240x128_1_0_0_1_n_n.rhsBatch from List.not_mem_nil),
    dif_pos (show (1 : Fin S128x128.rank) ∈ dot_S74240x128_S128x128_S74240x128_1_0_0_1_n_n.rhsNonContracting from List.mem_singleton.mpr rfl)]
  rfl

/-- The 74240×128 by 128×128 product at row `i`, column `j`. -/
theorem dot128_at (l : S74240x128.Idx → EReal) (r : S128x128.Idx → EReal) (i : Fin 74240) (j : Fin 128) :
    (Host.dotGeneral (F := Ideal) (φ₁ := .f32) (φ₂ := .f32) dot_S74240x128_S128x128_S74240x128_1_0_0_1_n_n none l r) (ix2 i j)
      = ∑ k : Fin 128, l (ix2 i k) * r (ix2 k j) := by
  simp only [Host.dotGeneral]
  rw [Ideal.dotGeneral_apply, ← Equiv.sum_comp (contrEquiv1 dot_S74240x128_S128x128_S74240x128_1_0_0_1_n_n 128 rfl rfl).symm]
  refine Finset.sum_congr rfl fun k _ => ?_
  have hk := contrEquiv1_symm_val dot_S74240x128_S128x128_S74240x128_1_0_0_1_n_n 128 rfl rfl k
  have el : dot_S74240x128_S128x128_S74240x128_1_0_0_1_n_n.lhsIdx (ix2 i j) ((contrEquiv1 dot_S74240x128_S128x128_S74240x128_1_0_0_1_n_n 128 rfl rfl).symm k) = ix2 i k := funext fun a => Fin.ext (by
    match a with
    | ⟨0, _⟩ => exact lhs128_0 _ _
    | ⟨1, _⟩ => exact (lhs128_1 _ _).trans hk)
  have er : dot_S74240x128_S128x128_S74240x128_1_0_0_1_n_n.rhsIdx (ix2 i j) ((contrEquiv1 dot_S74240x128_S128x128_S74240x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

theorem lhs75_0 (i : S74240x128.Idx) (q : dot_S74240x75_S75x128_S74240x128_1_0_0_1_n_n.contr.Idx) :
    (dot_S74240x75_S75x128_S74240x128_1_0_0_1_n_n.lhsIdx i q 0).val = (i 0).val := by
  unfold DotDims.lhsIdx
  rw [dif_neg (show ¬(0 : Fin S74240x75.rank) ∈ dot_S74240x75_S75x128_S74240x128_1_0_0_1_n_n.lhsBatch from List.not_mem_nil),
    dif_pos (show (0 : Fin S74240x75.rank) ∈ dot_S74240x75_S75x128_S74240x128_1_0_0_1_n_n.lhsNonContracting from List.mem_singleton.mpr rfl)]
  rfl
theorem lhs75_1 (i : S74240x128.Idx) (q : dot_S74240x75_S75x128_S74240x128_1_0_0_1_n_n.contr.Idx) :
    (dot_S74240x75_S75x128_S74240x128_1_0_0_1_n_n.lhsIdx i q 1).val = (q ⟨0, Nat.one_pos⟩).val :=
  dot_S74240x75_S75x128_S74240x128_1_0_0_1_n_n.lhsIdx_val_of_single rfl i q
theorem rhs75_0 (i : S74240x128.Idx) (q : dot_S74240x75_S75x128_S74240x128_1_0_0_1_n_n.contr.Idx) :
    (dot_S74240x75_S75x128_S74240x128_1_0_0_1_n_n.rhsIdx i q 0).val = (q ⟨0, Nat.one_pos⟩).val :=
  dot_S74240x75_S75x128_S74240x128_1_0_0_1_n_n.rhsIdx_val_of_single rfl i q
theorem rhs75_1 (i : S74240x128.Idx) (q : dot_S74240x75_S75x128_S74240x128_1_0_0_1_n_n.contr.Idx) :
    (dot_S74240x75_S75x128_S74240x128_1_0_0_1_n_n.rhsIdx i q 1).val = (i 1).val := by
  unfold DotDims.rhsIdx
  rw [dif_neg (show ¬(1 : Fin S75x128.rank) ∈ dot_S74240x75_S75x128_S74240x128_1_0_0_1_n_n.rhsBatch from List.not_mem_nil),
    dif_pos (show (1 : Fin S75x128.rank) ∈ dot_S74240x75_S75x128_S74240x128_1_0_0_1_n_n.rhsNonContracting from List.mem_singleton.mpr rfl)]
  rfl

/-- The 74240×75 by 75×128 product (the embedding) at row `i`, column `j`. -/
theorem dot75_at (l : S74240x75.Idx → EReal) (r : S75x128.Idx → EReal) (i : Fin 74240) (j : Fin 128) :
    (Host.dotGeneral (F := Ideal) (φ₁ := .f32) (φ₂ := .f32) dot_S74240x75_S75x128_S74240x128_1_0_0_1_n_n none l r) (ix2 i j)
      = ∑ k : Fin 75, l (ix2 i k) * r (ix2 k j) := by
  simp only [Host.dotGeneral]
  rw [Ideal.dotGeneral_apply, ← Equiv.sum_comp (contrEquiv1 dot_S74240x75_S75x128_S74240x128_1_0_0_1_n_n 75 rfl rfl).symm]
  refine Finset.sum_congr rfl fun k _ => ?_
  have hk := contrEquiv1_symm_val dot_S74240x75_S75x128_S74240x128_1_0_0_1_n_n 75 rfl rfl k
  have el : dot_S74240x75_S75x128_S74240x128_1_0_0_1_n_n.lhsIdx (ix2 i j) ((contrEquiv1 dot_S74240x75_S75x128_S74240x128_1_0_0_1_n_n 75 rfl rfl).symm k) = ix2 i k := funext fun a => Fin.ext (by
    match a with
    | ⟨0, _⟩ => exact lhs75_0 _ _
    | ⟨1, _⟩ => exact (lhs75_1 _ _).trans hk)
  have er : dot_S74240x75_S75x128_S74240x128_1_0_0_1_n_n.rhsIdx (ix2 i j) ((contrEquiv1 dot_S74240x75_S75x128_S74240x128_1_0_0_1_n_n 75 rfl rfl).symm k) = ix2 k j := funext fun a => Fin.ext (by
    match a with
    | ⟨0, _⟩ => exact (rhs75_0 _ _).trans hk
    | ⟨1, _⟩ => exact rhs75_1 _ _)
  rw [el, er]

end

/-! ## A sum down a column -/

/-- The sum over the rows, started from a rank-0 initial value `z`: at column `j` it is `z` plus the sum
    over all 74240 rows of the entries in that column. -/
theorem colSum_at (h : S74240x128.ReducesTo [0] S128) (hu : 0 < S_.numel) (x : S74240x128.Idx → EReal)
    (z : S_.Idx → EReal) (j : Fin 128) :
    (Host.reduceAdd (F := Ideal) (φ := .f32) x z h hu) (ix1 j) = z ix0 + ∑ i : Fin 74240, x (ix2 i j) := by
  simp only [Host.reduceAdd, Ideal.hostReduceAdd_def]
  rw [Ideal.hostReduceAdd_single h (by decide)]
  refine congrArg₂ (· + ·) (congrArg z (funext fun a => a.elim0)) (Finset.sum_congr rfl fun k _ => ?_)
  exact congrArg x (funext fun a => Fin.ext (by match a with | ⟨0, _⟩ => rfl | ⟨1, _⟩ => rfl))

/-! ## Broadcasts -/

/-- A vector laid out as one row and then repeated down all rows reads, at row `i` and column `j`, its
    entry `j`. -/
theorem rowBcast_at (h1 : S128.BroadcastsInDim S1x128 (![1] : Fin 1 → Fin S1x128.rank))
    (h2 : S1x128.BroadcastsInDim S74240x128 (![0, 1] : Fin 2 → Fin S74240x128.rank))
    (v : S128.Idx → EReal) (i : Fin 74240) (j : Fin 128) :
    broadcastInDim S74240x128 ![0, 1] h2 (broadcastInDim S1x128 ![1] h1 v) (ix2 i j) = v (ix1 j) := by
  rw [broadcastInDim_apply _ h2 _ (ix2 i j) (ix2 0 j)
    (fun a => by match a with | ⟨0, _⟩ => rfl | ⟨1, _⟩ => rfl)]
  exact broadcastInDim_apply _ h1 v (ix2 0 j) (ix1 j) (fun a => by match a with | ⟨0, _⟩ => rfl)

/-- A one-row array repeated down all rows reads, at row `i` and column `j`, the row's entry `j`. -/
theorem rowRepeat_at (h2 : S1x128.BroadcastsInDim S74240x128 (![0, 1] : Fin 2 → Fin S74240x128.rank))
    (w : S1x128.Idx → EReal) (i : Fin 74240) (j : Fin 128) :
    broadcastInDim S74240x128 ![0, 1] h2 w (ix2 i j) = w (ix2 0 j) :=
  broadcastInDim_apply _ h2 w (ix2 i j) (ix2 0 j) (fun a => by match a with | ⟨0, _⟩ => rfl | ⟨1, _⟩ => rfl)

/-- A vector laid out as one row reads, at column `j`, its entry `j`. -/
theorem asRow_at (h1 : S128.BroadcastsInDim S1x128 (![1] : Fin 1 → Fin S1x128.rank))
    (v : S128.Idx → EReal) (j : Fin 128) :
    broadcastInDim S1x128 ![1] h1 v (ix2 0 j) = v (ix1 j) :=
  broadcastInDim_apply _ h1 v (ix2 0 j) (ix1 j) (fun a => by match a with | ⟨0, _⟩ => rfl)

/-- A rank-0 value spread over a shape reads that value everywhere. -/
theorem splat_at {t : Shape} {α : Type} (h : S_.BroadcastsInDim t (![] : Fin 0 → Fin t.rank)) (c : S_.Idx → α) (i : t.Idx) :
    broadcastInDim t ![] h c i = c ix0 :=
  broadcastInDim_apply _ h c i ix0 (fun a => a.elim0)

/-! ## `max · 0` -/

/-- The maximum with the zero array: at every index `max (x i) 0`. -/
theorem relu_at (h : S_.BroadcastsInDim S74240x128 (![] : Fin 0 → Fin S74240x128.rank)) (x : S74240x128.Idx → EReal)
    (i : S74240x128.Idx) :
    maximumf (F := Ideal) (φ := .f32) x (broadcastInDim S74240x128 ![] h (constant (F := Ideal) S_ .f32 0x00000000#32)) i
      = max (x i) 0 := by
  rw [maximumf_apply, splat_at, constant_apply, Ideal.ofBits_zero_f32]

/-! ## Division and the reciprocal square root, entry by entry -/

/-- The host's division at an index divides the entries. -/
theorem hostDivf_at {s : Shape} (x y : s.Idx → EReal) (i : s.Idx) :
    Host.divf (F := Ideal) (φ := .f32) x y i = Ideal.div (x i) (y i) := rfl

/-- The host's reciprocal square root at an index is that of the entry. -/
theorem hostRsqrt_at {s : Shape} (x : s.Idx → EReal) (i : s.Idx) :
    Host.rsqrt (F := Ideal) (φ := .f32) x i = Ideal.rsqrt (x i) := rfl

/-! ## One layer's weights cut out of the stack -/

/-- Slab `l` of a stack of three 128×128 matrices, with the unit axis dropped: entry `(a, b)` is the
    stack's entry `(l, a, b)`. -/
theorem sliceMat_at (o : Nat) (l : Fin 3) (hl : l.val = o) (hs : S3x128x128.Slices ![o, 0, 0] S1x128x128)
    (hc : S1x128x128.ShapeCasts S128x128) (A : S3x128x128.Idx → EReal) (a b : Fin 128) :
    shapeCast S128x128 (extractStridedSlice S1x128x128 ![o, 0, 0] A hs) hc (ix2 a b) = A (ix3 l a b) := by
  rw [shapeCast_apply _ hc (ix2 a b) (ix3 0 a b) (by
    rw [Shape.rowMajor_val_three, Shape.rowMajor_val_two]
    show ((0 * 128 + a.val) * 128 + b.val) = a.val * 128 + b.val
    omega)]
  exact extractStridedSlice_apply _ A hs (ix3 0 a b) (ix3 l a b) (fun ax => by
    match ax with
    | ⟨0, _⟩ => show l.val = o + 0; omega
    | ⟨1, _⟩ => show a.val = 0 + a.val; omega
    | ⟨2, _⟩ => show b.val = 0 + b.val; omega)

/-- Row `l` of a stack of three vectors, with the unit axis dropped: entry `j` is the stack's entry `(l, j)`. -/
theorem sliceVec_at (o : Nat) (l : Fin 3) (hl : l.val = o) (hs : S3x128.Slices ![o, 0] S1x128)
    (hc : S1x128.ShapeCasts S128) (A : S3x128.Idx → EReal) (j : Fin 128) :
    shapeCast S128 (extractStridedSlice S1x128 ![o, 0] A hs) hc (ix1 j) = A (ix2 l j) := by
  rw [shapeCast_apply _ hc (ix1 j) (ix2 0 j) (by
    rw [Shape.rowMajor_val_two, Shape.rowMajor_val_one]
    show (0 * 128 + j.val) = j.val
    omega)]
  exact extractStridedSlice_apply _ A hs (ix2 0 j) (ix2 l j) (fun ax => by
    match ax with
    | ⟨0, _⟩ => show l.val = o + 0; omega
    | ⟨1, _⟩ => show j.val = 0 + j.val; omega)

end Cert.ReferenceIdeal.RefAt

end
-- ==== Proof.Consts.lean ====
/-
  The float literals whose values the proof uses, read as the extended reals their patterns denote:
  the row count 74240.0 and the variance offset (the single-precision number nearest 1e-5), which is
  a positive real.
-/
import Idealize.ShloMosaic.PureOps.Ideal

noncomputable section

namespace Cert.Gcn.Consts

open Idealize.ShloMosaic

/-- `0.0` denotes `0`. -/
theorem ofBits_zero : Ideal.ofBits .f32 0x00000000#32 = 0 := by
  simp [Ideal.ofBits, Ideal.ieee]

/-- `74240.0` denotes the real `74240`. -/
theorem ofBits_rows : Ideal.ofBits .f32 0x47910000#32 = ((74240 : ℝ) : EReal) := by
  simp [Ideal.ofBits, Ideal.ieee, -EReal.coe_mul]; norm_num

/-- The variance offset denotes the real `10995116 / 2^40`. -/
theorem ofBits_eps : Ideal.ofBits .f32 0x3727C5AC#32 = ((10995116 / 1099511627776 : ℝ) : EReal) := by
  simp [Ideal.ofBits, Ideal.ieee, -EReal.coe_mul]; norm_num

/-- The variance offset is a positive real. -/
theorem eps_pos : ∃ e : ℝ, 0 < e ∧ Ideal.ofBits .f32 0x3727C5AC#32 = (e : EReal) :=
  ⟨10995116 / 1099511627776, by norm_num, ofBits_eps⟩

end Cert.Gcn.Consts

end
-- ==== Proof.RefLayerAt.lean ====
/-
  One layer of the reference, and the embedding before it, as functions of coordinates.

  The reference builds a layer out of whole-array operations: matrix products, a bias repeated down the
  rows, `max · 0`, column sums, and a normalisation whose mean and variance are taken in two passes.
  Read at row `i` and column `j` each of these is the textbook expression, and composed they are
  `Gcn.pre` followed by `Gcn.normR`. The variance's divisor is spelt `74240 - 0` under a test that it
  is positive; both evaluate, so the divisor is the same 74240 the mean uses.
-/
import proofs.«176821_j3375844294866_2_alg».proof.Proof.RefStages
import proofs.«176821_j3375844294866_2_alg».proof.Proof.RefLayerAtOps
import proofs.«176821_j3375844294866_2_alg».proof.Proof.Bridge
import proofs.«176821_j3375844294866_2_alg».proof.Proof.Consts

noncomputable section

namespace Cert.ReferenceIdeal.RefAt

open Idealize.ShloMosaic Idealize.ShloMosaic.ValueIdx Cert.ReferenceIdeal.RefRun

variable [Facts]
open Facts₀ Facts

/-! ## The pieces of a layer -/

/-- A vector repeated as every row: entry `(i, j)` is the vector's entry `j`. -/
theorem rowB_at (v : S128.Idx → EReal) (i : Fin 74240) (j : Fin 128) :
    rowB (F := Ideal) v (ix2 i j) = v (ix1 j) :=
  rowBcast_at _ _ v i j

/-- `max · 0` at an index. -/
theorem reluR_at (x : S74240x128.Idx → EReal) (i : S74240x128.Idx) :
    reluR (F := Ideal) x i = max (x i) 0 :=
  relu_at _ x i

/-- The layer before normalisation is `Gcn.pre` of the curried operands. -/
theorem preR_eq (Wg : S128x128.Idx → EReal) (bg : S128.Idx → EReal) (Wr : S128x128.Idx → EReal) (br : S128.Idx → EReal)
    (h agg : S74240x128.Idx → EReal) :
    preR (F := Ideal) Wg bg Wr br h agg
      = Gcn.unc (Gcn.pre (Gcn.cur agg) (Gcn.cur h) (Gcn.cur Wg) (fun j => bg (ix1 j)) (Gcn.cur Wr) (fun j => br (ix1 j))) := by
  funext i
  obtain ⟨a, b, rfl⟩ : ∃ (a : Fin 74240) (b : Fin 128), i = ix2 a b := ⟨i 0, i 1, eq_ix2 i⟩
  unfold preR
  rw [addf_apply, reluR_at, reluR_at, addf_apply, addf_apply, rowB_at, rowB_at, dot128_at, dot128_at]
  rfl

/-- The mean of column `j`: the column's sum divided by the row count. -/
theorem meanR_at (p : S74240x128.Idx → EReal) (j : Fin 128) :
    meanR (F := Ideal) p (ix1 j) = Ideal.div (Gcn.colsum (Gcn.cur p) j) (Ideal.ofBits .f32 0x47910000#32) := by
  unfold meanR
  rw [hostDivf_at, colSum_at, splat_at, constant_apply, constant_apply, Ideal.ofBits_zero_f32, zero_add]
  rfl

/-- The variance's divisor, `74240 - 0`, is the row count. -/
theorem varDiv_at : varDiv (F := Ideal) ix0 = (Ideal.ofBits .f32 0x47910000#32) := by
  have h0 : (((0#32 : BitVec 32).toInt : ℝ) : EReal) = 0 := by
    rw [show (0#32 : BitVec 32).toInt = 0 from by decide, Int.cast_zero, EReal.coe_zero]
  show (Ideal.ofBits .f32 0x47910000#32) - (((0#32 : BitVec 32).toInt : ℝ) : EReal) = _
  rw [h0, sub_zero]

/-- The row count is above zero, so the test guarding the variance succeeds. -/
theorem rows_pos_bit : FloatOps.cmpf (F := Ideal) (φ := .f32) .ogt (Ideal.ofBits .f32 0x47910000#32) 0 = 1#1 := by
  rw [Ideal.cmpf_def, Cert.Gcn.Consts.ofBits_rows]
  unfold Ideal.cmp
  have : (0 : EReal) < ((74240 : ℝ) : EReal) := by exact_mod_cast (by norm_num : (0 : ℝ) < 74240)
  simp [this]

/-- The variance of column `j`: the sum of the squared deviations from the column's mean, divided by the
    row count. -/
theorem varR_at (p : S74240x128.Idx → EReal) (j : Fin 128) :
    varR (F := Ideal) p (ix1 j)
      = Ideal.div (Gcn.colsum (fun a b => (Gcn.cur p a b - Ideal.div (Gcn.colsum (Gcn.cur p) b) (Ideal.ofBits .f32 0x47910000#32))
          * (Gcn.cur p a b - Ideal.div (Gcn.colsum (Gcn.cur p) b) (Ideal.ofBits .f32 0x47910000#32))) j) (Ideal.ofBits .f32 0x47910000#32) := by
  unfold varR
  rw [select_apply, splat_at, cmpf_apply, varDiv_at, constant_apply, Ideal.ofBits_zero_f32, rows_pos_bit, select_one,
    hostDivf_at, colSum_at, splat_at, varDiv_at, constant_apply, Ideal.ofBits_zero_f32, zero_add]
  unfold Gcn.colsum Gcn.cur
  refine congrArg (fun s => Ideal.div s (Ideal.ofBits .f32 0x47910000#32)) ?_
  refine Finset.sum_congr rfl fun i _ => ?_
  rw [mulf_apply, subf_apply, rowRepeat_at, hostDivf_at, asRow_at, colSum_at, splat_at, constant_apply, constant_apply,
    Ideal.ofBits_zero_f32, zero_add]

/-- Normalisation of `p` is `Gcn.normR` with both divisors the row count. -/
theorem normStage_eq (gam bet : S128.Idx → EReal) (p : S74240x128.Idx → EReal) :
    normStage (F := Ideal) gam bet p
      = Gcn.unc (Gcn.normR (Ideal.ofBits .f32 0x3727C5AC#32) (Ideal.ofBits .f32 0x47910000#32) (Gcn.cur p) (fun j => gam (ix1 j)) (fun j => bet (ix1 j))) := by
  funext i
  obtain ⟨a, b, rfl⟩ : ∃ (a : Fin 74240) (b : Fin 128), i = ix2 a b := ⟨i 0, i 1, eq_ix2 i⟩
  unfold normStage
  rw [addf_apply, mulf_apply, mulf_apply, subf_apply, rowB_at, rowB_at, rowB_at, rowB_at, meanR_at, hostRsqrt_at,
    addf_apply, varR_at, splat_at, constant_apply]
  rfl

/-! ## A layer and the embedding -/

/-- One layer of the reference: `Gcn.pre` over the aggregated rows, then `Gcn.normR`. -/
theorem refLayer_eq (Wg : S128x128.Idx → EReal) (bg : S128.Idx → EReal) (Wr : S128x128.Idx → EReal) (br : S128.Idx → EReal)
    (gam bet : S128.Idx → EReal) (h : S74240x128.Idx → EReal) (src dst : S593920.Idx → BitVec 32) :
    refLayer (F := Ideal) Wg bg Wr br gam bet h src dst
      = Gcn.unc (Gcn.normR (Ideal.ofBits .f32 0x3727C5AC#32) (Ideal.ofBits .f32 0x47910000#32)
          (Gcn.pre (Gcn.cur (aggR (F := Ideal) h src dst)) (Gcn.cur h) (Gcn.cur Wg) (fun j => bg (ix1 j)) (Gcn.cur Wr) (fun j => br (ix1 j)))
          (fun j => gam (ix1 j)) (fun j => bet (ix1 j))) := by
  unfold refLayer
  rw [preR_eq, normStage_eq, Gcn.cur_unc]

/-- The embedding is the matrix product of the features and the embedding weights. -/
theorem refEmbed_eq (X : S74240x75.Idx → EReal) (Winit : S75x128.Idx → EReal) :
    embedR (F := Ideal) X Winit = Gcn.unc (Gcn.mm (Gcn.cur X) (Gcn.cur Winit)) := by
  funext i
  obtain ⟨a, b, rfl⟩ : ∃ (a : Fin 74240) (b : Fin 128), i = ix2 a b := ⟨i 0, i 1, eq_ix2 i⟩
  unfold embedR
  rw [dot75_at]
  rfl

/-! ## The three slices of the stacked weights -/

theorem mat0_at (A : S3x128x128.Idx → EReal) (a b : Fin 128) : mat0 (F := Ideal) A (ix2 a b) = A (ix3 0 a b) :=
  sliceMat_at 0 0 rfl _ _ A a b
theorem mat1_at (A : S3x128x128.Idx → EReal) (a b : Fin 128) : mat1 (F := Ideal) A (ix2 a b) = A (ix3 1 a b) :=
  sliceMat_at 1 1 rfl _ _ A a b
theorem mat2_at (A : S3x128x128.Idx → EReal) (a b : Fin 128) : mat2 (F := Ideal) A (ix2 a b) = A (ix3 2 a b) :=
  sliceMat_at 2 2 rfl _ _ A a b
theorem vec0_at (A : S3x128.Idx → EReal) (j : Fin 128) : vec0 (F := Ideal) A (ix1 j) = A (ix2 0 j) :=
  sliceVec_at 0 0 rfl _ _ A j
theorem vec1_at (A : S3x128.Idx → EReal) (j : Fin 128) : vec1 (F := Ideal) A (ix1 j) = A (ix2 1 j) :=
  sliceVec_at 1 1 rfl _ _ A j
theorem vec2_at (A : S3x128.Idx → EReal) (j : Fin 128) : vec2 (F := Ideal) A (ix1 j) = A (ix2 2 j) :=
  sliceVec_at 2 2 rfl _ _ A j

theorem cur_mat0 (A : S3x128x128.Idx → EReal) : Gcn.cur (mat0 (F := Ideal) A) = fun a b => A (ix3 0 a b) :=
  funext fun a => funext fun b => mat0_at A a b
theorem cur_mat1 (A : S3x128x128.Idx → EReal) : Gcn.cur (mat1 (F := Ideal) A) = fun a b => A (ix3 1 a b) :=
  funext fun a => funext fun b => mat1_at A a b
theorem cur_mat2 (A : S3x128x128.Idx → EReal) : Gcn.cur (mat2 (F := Ideal) A) = fun a b => A (ix3 2 a b) :=
  funext fun a => funext fun b => mat2_at A a b
theorem fn_vec0 (A : S3x128.Idx → EReal) : (fun j => vec0 (F := Ideal) A (ix1 j)) = fun j : Fin 128 => A (ix2 0 j) :=
  funext fun j => vec0_at A j
theorem fn_vec1 (A : S3x128.Idx → EReal) : (fun j => vec1 (F := Ideal) A (ix1 j)) = fun j : Fin 128 => A (ix2 1 j) :=
  funext fun j => vec1_at A j
theorem fn_vec2 (A : S3x128.Idx → EReal) : (fun j => vec2 (F := Ideal) A (ix1 j)) = fun j : Fin 128 => A (ix2 2 j) :=
  funext fun j => vec2_at A j

end Cert.ReferenceIdeal.RefAt

end
-- ==== Proof.RefLayerAtOut.lean ====
/-
  The reference's whole result as three layers over the embedding.

  Each layer takes its weights from slab `l` of the stacked arrays; read at coordinates the slabs are the
  stacks' entries `(l, ·, ·)` and `(l, ·)`. The row count that divides the mean and the variance is the
  real number 74240. The last step regroups the 74240 rows as 256 blocks of 290 and is kept as it is.
-/
import proofs.«176821_j3375844294866_2_alg».proof.Proof.RefLayerAt

noncomputable section

namespace Cert.ReferenceIdeal.RefAt

open Idealize.ShloMosaic Idealize.ShloMosaic.ValueIdx Cert.ReferenceIdeal.RefRun

variable [Facts]
open Facts₀ Facts

/-- The reference's result: the embedding, then the layers for `l = 0, 1, 2`, regrouped. The aggregation
    enters as the map `h ↦ cur (aggR (unc h) src dst)` of curried matrices. -/
theorem refOut_eq (X : S74240x75.Idx → EReal) (src dst : S593920.Idx → BitVec 32) (Winit : S75x128.Idx → EReal)
    (A4 : S3x128x128.Idx → EReal) (A5 : S3x128.Idx → EReal) (A6 : S3x128x128.Idx → EReal) (A7 A8 A9 : S3x128.Idx → EReal) :
    refOut (F := Ideal) X src dst Winit A4 A5 A6 A7 A8 A9
      = shapeCast S256x290x128
          (Gcn.unc
            (Gcn.layerR (Ideal.ofBits .f32 0x3727C5AC#32) ((74240 : ℝ) : EReal) (fun h => Gcn.cur (aggR (F := Ideal) (Gcn.unc h) src dst))
              (fun a b => A4 (ix3 2 a b)) (fun j => A5 (ix2 2 j)) (fun a b => A6 (ix3 2 a b)) (fun j => A7 (ix2 2 j))
              (fun j => A8 (ix2 2 j)) (fun j => A9 (ix2 2 j))
              (Gcn.layerR (Ideal.ofBits .f32 0x3727C5AC#32) ((74240 : ℝ) : EReal) (fun h => Gcn.cur (aggR (F := Ideal) (Gcn.unc h) src dst))
              (fun a b => A4 (ix3 1 a b)) (fun j => A5 (ix2 1 j)) (fun a b => A6 (ix3 1 a b)) (fun j => A7 (ix2 1 j))
              (fun j => A8 (ix2 1 j)) (fun j => A9 (ix2 1 j))
              (Gcn.layerR (Ideal.ofBits .f32 0x3727C5AC#32) ((74240 : ℝ) : EReal) (fun h => Gcn.cur (aggR (F := Ideal) (Gcn.unc h) src dst))
              (fun a b => A4 (ix3 0 a b)) (fun j => A5 (ix2 0 j)) (fun a b => A6 (ix3 0 a b)) (fun j => A7 (ix2 0 j))
              (fun j => A8 (ix2 0 j)) (fun j => A9 (ix2 0 j))
              (Gcn.mm (Gcn.cur X) (Gcn.cur Winit))))))
          shapeCasts_S74240x128_S256x290x128 := by
  unfold refOut
  rw [refEmbed_eq, refLayer_eq, refLayer_eq, refLayer_eq]
  simp only [Gcn.cur_unc, cur_mat0, cur_mat1, cur_mat2, fn_vec0, fn_vec1, fn_vec2, Cert.Gcn.Consts.ofBits_rows]
  rfl

end Cert.ReferenceIdeal.RefAt

end
-- ==== Proof.PreFinite.lean ====
/-
  The precondition read back: every float input holds real numbers.

  The precondition is the conjunction, over the eight float arguments, of "every entry's absolute
  value is below +∞". An entry whose absolute value `max x (−x)` is below the top element is neither
  the top nor the bottom element, that is, a real number.
-/
import proofs.«176821_j3375844294866_2_alg».proof.Pre_finite_inputs
import proofs.«176821_j3375844294866_2_alg».proof.Proof.Algebra
import Idealize.ShloMosaic.Lib.ReduceAll
import Idealize.ShloMosaic.Lib.Affine

noncomputable section

namespace Cert.Gcn

open Idealize.ShloMosaic Idealize.ShloMosaic.ValueIdx

instance : Subsingleton (⟨0, ![]⟩ : Shape).Idx := ⟨fun a b => funext fun d => d.elim0⟩

/-- The pattern of +∞ denotes the top element. -/
theorem inf_top : Ideal.ofBits .f32 0x7F800000#32 = ⊤ := by simp [Ideal.ofBits, Ideal.ieee]

/-- `|x| < +∞` makes `x` a real. -/
theorem isR_of_abs_lt (x : EReal) (h : Ideal.cmp .olt (max x (-x)) ⊤ = 1#1) : IsR x := by
  unfold Ideal.cmp at h
  have hlt : max x (-x) < ⊤ := by
    by_contra hn
    simp [hn] at h
  constructor
  · intro hx; rw [hx] at hlt; simp at hlt
  · intro hx; rw [hx] at hlt; simp at hlt

/-- One conjunct of the precondition: the `and` over all entries of `|x| < +∞` is true, so every entry is real. -/
theorem isR_of_all {s : Shape} {axes : List (Fin s.rank)} (x : FVec Ideal s .f32)
    (hb : (⟨0, ![]⟩ : Shape).BroadcastsInDim s ![]) (h : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) h hu ix0 = 1#1) (i : s.Idx) : IsR (x i) := by
  have h1 := Host.reduce_andi_all _ _ h hu ix0 e i
  rw [cmpf_apply] at h1
  have h2 : broadcastInDim s ![] hb (constant (F := Ideal) ⟨0, ![]⟩ .f32 0x7F800000#32) i = ⊤ := by
    unfold broadcastInDim; rw [constant_apply, inf_top]
  rw [h2] at h1
  exact isR_of_abs_lt (x i) h1

open Cert.Pre_finite_inputs in
/-- Under the precondition each of the eight float arguments has real entries. -/
theorem real_of_pre [hF : Cert.Pre_finite_inputs.Facts] (a0 : FVec Ideal S74240x75 .f32) (a1 a2 : IVec S593920 32)
    (a3 : FVec Ideal S75x128 .f32) (a4 : FVec Ideal S3x128x128 .f32) (a5 : FVec Ideal S3x128 .f32)
    (a6 : FVec Ideal S3x128x128 .f32) (a7 a8 a9 : FVec Ideal S3x128 .f32)
    (h : Cert.Pre_finite_inputs.fn (F := Ideal) a0 a1 a2 a3 a4 a5 a6 a7 a8 a9 = fun _ => 1#1) :
    (∀ i, IsR (a0 i)) ∧ (∀ i, IsR (a3 i)) ∧ (∀ i, IsR (a4 i)) ∧ (∀ i, IsR (a5 i)) ∧ (∀ i, IsR (a6 i))
      ∧ (∀ i, IsR (a7 i)) ∧ (∀ i, IsR (a8 i)) ∧ (∀ i, IsR (a9 i)) := by
  have h0 := congrFun h ix0
  dsimp only [fn, fn_part1, fn_part2] at h0
  have split : ∀ (A B : IVec S_ 1), andi A B ix0 = 1#1 → A ix0 = 1#1 ∧ B ix0 = 1#1 :=
    fun A B hh => IntOp.andi_eq_one.1 hh
  obtain ⟨h0, e9⟩ := split _ _ h0
  obtain ⟨h0, e8⟩ := split _ _ h0
  obtain ⟨h0, e7⟩ := split _ _ h0
  obtain ⟨h0, e6⟩ := split _ _ h0
  obtain ⟨h0, e5⟩ := split _ _ h0
  obtain ⟨h0, e4⟩ := split _ _ h0
  obtain ⟨e0, e3⟩ := split _ _ h0
  exact ⟨isR_of_all a0 _ _ _ e0, isR_of_all a3 _ _ _ e3, isR_of_all a4 _ _ _ e4, isR_of_all a5 _ _ _ e5,
    isR_of_all a6 _ _ _ e6, isR_of_all a7 _ _ _ e7, isR_of_all a8 _ _ _ e8, isR_of_all a9 _ _ _ e9⟩

end Cert.Gcn

end
-- ==== Proof.Agg.lean ====
/-
  The aggregation keeps real entries real: every gathered entry is an entry of `h`, and each entry of
  the result is zero plus a finite sum of gathered entries.
-/
import proofs.«176821_j3375844294866_2_alg».proof.Proof.RefStages
import proofs.«176821_j3375844294866_2_alg».proof.Proof.Finite
import proofs.«176821_j3375844294866_2_alg».proof.Proof.Consts

noncomputable section

namespace Cert.Gcn

open Idealize.ShloMosaic Idealize.ShloMosaic.ValueIdx Cert.ReferenceIdeal Cert.ReferenceIdeal.RefRun

/-- Aggregating a real array gives a real array. -/
theorem aggR_real [Cert.ReferenceIdeal.Facts] (h : FVec Ideal S74240x128 .f32) (src dst : IVec S593920 32)
    (hh : ∀ i, IsR (h i)) (i : S74240x128.Idx) : IsR (aggR (F := Ideal) h src dst i) := by
  unfold aggR
  refine scatterAdd_isR _ _ _ _ (fun k => ?_) (fun j => gather_isR _ _ _ hh j) i
  show IsR (Ideal.ofBits .f32 0x00000000#32)
  rw [Consts.ofBits_zero]
  exact isR_zero

end Cert.Gcn

end
-- ==== Proof.lean ====
/-
  A tiled three-layer graph network with per-tile batch statistics against its plain form.

  Both programs embed the node features by one matrix product and then apply three layers: feature rows
  are summed along the graph's edges, two affine maps followed by `max · 0` are added, and every column
  is normalised by its mean and variance over all 74240 rows. The tiled program forms the products
  tile by tile, takes each column's sum and sum of squares per tile of 4640 rows, adds these over the
  sixteen tiles, and normalises with the one-pass variance `Σx²/n − (Σx/n)²` clamped at zero, `1/n`
  being a named constant equal to 1/74240; the plain program uses the two-pass variance
  `Σ(x − Σx/n)²/n`. Under the precondition every input is a real number, so every intermediate is
  real: the per-tile sums regroup the full sums, the two variances are one nonnegative real, the clamp
  is idle, and the two results agree entry by entry. The aggregation along the edges is spelt by the
  same host operations in both programs and is carried as one function.
-/
import proofs.«176821_j3375844294866_2_alg».proof.Defs
import proofs.«176821_j3375844294866_2_alg».proof.Proof.Gen.Kernel
import proofs.«176821_j3375844294866_2_alg».proof.Proof.Gen.Kernel.Frame
import proofs.«176821_j3375844294866_2_alg».proof.Proof.Gen.KernelIdeal
import proofs.«176821_j3375844294866_2_alg».proof.Proof.Gen.KernelIdeal.Frame
import proofs.«176821_j3375844294866_2_alg».proof.Proof.Gen.ReferenceIdeal
import proofs.«176821_j3375844294866_2_alg».proof.Proof.Gen.Pre_finite_inputs
import proofs.«176821_j3375844294866_2_alg».proof.Proof.KernelChain
import proofs.«176821_j3375844294866_2_alg».proof.Proof.RefRun
import proofs.«176821_j3375844294866_2_alg».proof.Proof.RefLayerAtOut
import proofs.«176821_j3375844294866_2_alg».proof.Proof.Bridge
import proofs.«176821_j3375844294866_2_alg».proof.Proof.PreFinite
import proofs.«176821_j3375844294866_2_alg».proof.Proof.Agg

noncomputable section

namespace Cert.Proof

open Idealize.ShloMosaic Idealize.ShloMosaic.ValueIdx Idealize.SL.Sem Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem named_inv : IdealRules.named_const.Statement Cert.KernelIdeal.κ "inv_n" .f32 0x3761FC78#32 ((1 / 74240 : ℝ) : EReal) :=
  IdealRules.named_const.statement Cert.KernelIdeal.κ "inv_n" .f32 0x3761FC78#32 ((1 / 74240 : ℝ) : EReal) rfl
theorem preserves : Cert.preserves_Kernel_KernelIdeal := ⟨named_inv, named_inv, named_inv, named_inv, named_inv, named_inv⟩

theorem aggK_eq_aggR (h : (⟨2, ![74240, 128]⟩ : Shape).Idx → EReal) (src dst : IVec ⟨1, ![593920]⟩ 32) :
    Cert.KernelIdeal.Chain.aggK (F := Ideal) h src dst = Cert.ReferenceIdeal.RefRun.aggR (F := Ideal) h src dst := rfl

/-- The two layered forms agree on real arguments. -/
theorem layered_eq (X : (⟨2, ![74240, 75]⟩ : Shape).Idx → EReal) (src dst : IVec ⟨1, ![593920]⟩ 32)
    (Winit : (⟨2, ![75, 128]⟩ : Shape).Idx → EReal) (A4 A6 : (⟨3, ![3, 128, 128]⟩ : Shape).Idx → EReal)
    (A5 A7 A8 A9 : (⟨2, ![3, 128]⟩ : Shape).Idx → EReal)
    (r0 : ∀ i, IsR (X i)) (r3 : ∀ i, IsR (Winit i)) (r4 : ∀ i, IsR (A4 i)) (r5 : ∀ i, IsR (A5 i)) (r6 : ∀ i, IsR (A6 i))
    (r7 : ∀ i, IsR (A7 i)) (r8 : ∀ i, IsR (A8 i)) (r9 : ∀ i, IsR (A9 i)) :
    layerK (Ideal.ofBits .f32 0x3727C5AC#32) (fun h => cur (Cert.KernelIdeal.Chain.aggK (F := Ideal) (unc h) src dst))
        (fun a b => A4 (ix3 2 a b)) (fun j => A5 (ix2 2 j)) (fun a b => A6 (ix3 2 a b)) (fun j => A7 (ix2 2 j)) (fun j => A8 (ix2 2 j)) (fun j => A9 (ix2 2 j))
      (layerK (Ideal.ofBits .f32 0x3727C5AC#32) (fun h => cur (Cert.KernelIdeal.Chain.aggK (F := Ideal) (unc h) src dst))
        (fun a b => A4 (ix3 1 a b)) (fun j => A5 (ix2 1 j)) (fun a b => A6 (ix3 1 a b)) (fun j => A7 (ix2 1 j)) (fun j => A8 (ix2 1 j)) (fun j => A9 (ix2 1 j))
      (layerK (Ideal.ofBits .f32 0x3727C5AC#32) (fun h => cur (Cert.KernelIdeal.Chain.aggK (F := Ideal) (unc h) src dst))
        (fun a b => A4 (ix3 0 a b)) (fun j => A5 (ix2 0 j)) (fun a b => A6 (ix3 0 a b)) (fun j => A7 (ix2 0 j)) (fun j => A8 (ix2 0 j)) (fun j => A9 (ix2 0 j))
        (mm (cur X) (cur Winit))))
    = layerR (Ideal.ofBits .f32 0x3727C5AC#32) ((74240 : ℝ) : EReal) (fun h => cur (Cert.ReferenceIdeal.RefRun.aggR (F := Ideal) (unc h) src dst))
        (fun a b => A4 (ix3 2 a b)) (fun j => A5 (ix2 2 j)) (fun a b => A6 (ix3 2 a b)) (fun j => A7 (ix2 2 j)) (fun j => A8 (ix2 2 j)) (fun j => A9 (ix2 2 j))
      (layerR (Ideal.ofBits .f32 0x3727C5AC#32) ((74240 : ℝ) : EReal) (fun h => cur (Cert.ReferenceIdeal.RefRun.aggR (F := Ideal) (unc h) src dst))
        (fun a b => A4 (ix3 1 a b)) (fun j => A5 (ix2 1 j)) (fun a b => A6 (ix3 1 a b)) (fun j => A7 (ix2 1 j)) (fun j => A8 (ix2 1 j)) (fun j => A9 (ix2 1 j))
      (layerR (Ideal.ofBits .f32 0x3727C5AC#32) ((74240 : ℝ) : EReal) (fun h => cur (Cert.ReferenceIdeal.RefRun.aggR (F := Ideal) (unc h) src dst))
        (fun a b => A4 (ix3 0 a b)) (fun j => A5 (ix2 0 j)) (fun a b => A6 (ix3 0 a b)) (fun j => A7 (ix2 0 j)) (fun j => A8 (ix2 0 j)) (fun j => A9 (ix2 0 j))
        (mm (cur X) (cur Winit)))) :=
  layers_eq (Ideal.ofBits .f32 0x3727C5AC#32) Consts.eps_pos
    (fun h => cur (Cert.KernelIdeal.Chain.aggK (F := Ideal) (unc h) src dst))
    (fun h => cur (Cert.ReferenceIdeal.RefRun.aggR (F := Ideal) (unc h) src dst))
    (fun h _ => congrArg cur (aggK_eq_aggR (unc h) src dst))
    (fun h hh i j => aggR_real (unc h) src dst (fun k => hh (k 0) (k 1)) (ix2 i j))
    (fun l a b => A4 (ix3 l a b)) (fun l a b => A6 (ix3 l a b)) (fun l j => A5 (ix2 l j)) (fun l j => A7 (ix2 l j))
    (fun l j => A8 (ix2 l j)) (fun l j => A9 (ix2 l j))
    (fun l a b => r4 _) (fun l j => r5 _) (fun l a b => r6 _) (fun l j => r7 _) (fun l j => r8 _) (fun l j => r9 _)
    (mm (cur X) (cur Winit)) (embed_real _ _ (fun i j => r0 _) (fun i j => r3 _))

/-- The two programs end with equal results: the tiled program's result is the one-pass layered form
    (its run), the plain program's the two-pass layered form (its run read at an index), and the two forms
    agree on the real arguments the precondition gives. -/
theorem algebraic : Cert.algebraic_KernelIdeal_ReferenceIdeal := by
  intro m ρ m' ρ' hpre hagree
  refine ⟨_, Cert.KernelIdeal.Chain.run m ρ, ?_⟩
  refine (θ_run Cert.ReferenceIdeal.defs _ _).mono (fun r h c => ⟨(h c).1.trans ?_, (h c).2⟩)
    (Cert.ReferenceIdeal.RefRun.run (F := Ideal) m' ρ')
  obtain ⟨g0, g1, g2, g3, g4, g5, g6, g7, g8, g9⟩ := hagree c
  rw [g0, g1, g2, g3, g4, g5, g6, g7, g8, g9, Cert.ReferenceIdeal.RefAt.refOut_eq]
  obtain ⟨r0, r3, r4, r5, r6, r7, r8, r9⟩ := real_of_pre _ _ _ _ _ _ _ _ _ _ (hpre c)
  exact (congrArg (fun z => Cert.KernelIdeal.Chain.outOf (F := Ideal) (unc z))
    (layered_eq (Cert.KernelIdeal.Chain.argX m c) (Cert.KernelIdeal.Chain.argSrc m c) (Cert.KernelIdeal.Chain.argDst m c)
      (Cert.KernelIdeal.Chain.argW0 m c) (Cert.KernelIdeal.Chain.argWg m c) (Cert.KernelIdeal.Chain.argWr m c)
      (Cert.KernelIdeal.Chain.argBg m c) (Cert.KernelIdeal.Chain.argBr m c) (Cert.KernelIdeal.Chain.argGamma m c)
      (Cert.KernelIdeal.Chain.argBeta m c) r0 r3 r4 r5 r6 r7 r8 r9)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
